-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x64 : Shape := ⟨2, ![8192, 64]⟩
abbrev S64x64 : Shape := ⟨2, ![64, 64]⟩
abbrev S64x10 : Shape := ⟨2, ![64, 10]⟩
abbrev S10 : Shape := ⟨1, ![10]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_
  bcast_S_S64x64 : S_.BroadcastsInDim S64x64 (![] : Fin 0 → Fin S64x64.rank)
  reducesTo_S64x64_S_d0_1 : S64x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S64x10 .f32) (main_arg5 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x10 .f32 := Host.absf main_arg4
  let main_cst_6 : FVec F S_ .f32 := constant S_ .f32 0x7F800000#32
  let main_v20 : FVec F S64x10 .f32 := broadcastInDim S64x10 ![] bcast_S_S64x10 main_cst_6
  let main_v21 : IVec S64x10 1 := cmpf .olt main_v19 main_v20
  let main_c_7 : IVec S_ 1 := constantI S_ 1 1#1
  let main_v22 : IVec S_ 1 := (fun x v => Host.reduce IntOp.andi x v reducesTo_S64x10_S_d0_1 h_S_) main_v21 main_c_7
  let main_v23 : IVec S_ 1 := andi main_v18 main_v22
  let main_v24 : FVec F S10 .f32 := Host.absf main_arg5
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  main_v28

def fn {F : FTy → Type} [FloatOps F] (main_arg0 : FVec F S8192x8192 .f32) (main_arg1 : FVec F S8192x64 .f32) (main_arg2 : FVec F S64x64 .f32) (main_arg3 : FVec F S64x64 .f32) (main_arg4 : FVec F S64x10 .f32) (main_arg5 : FVec F S10 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_v13 main_v16
-- ==== Kernel.lean ====
abbrev S8192x8192 : Shape := ⟨2, ![8192, 8192]⟩
abbrev S8192x64 : Shape := ⟨2, ![8192, 64]⟩
abbrev S64x64 : Shape := ⟨2, ![64, 64]⟩
abbrev S64x10 : Shape := ⟨2, ![64, 10]⟩
abbrev S10 : Shape := ⟨1, ![10]⟩
abbrev S8192x1 : Shape := ⟨2, ![8192, 1]⟩
abbrev S2048x1024 : Shape := ⟨2, ![2048, 1024]⟩
abbrev S2048x1 : Shape := ⟨2, ![2048, 1]⟩
abbrev S2048 : Shape := ⟨1, ![2048]⟩
abbrev S_ : Shape := ⟨0, ![]⟩
abbrev S2048x2048 : Shape := ⟨2, ![2048, 2048]⟩
abbrev S2048x64 : Shape := ⟨2, ![2048, 64]⟩
abbrev S8192x10 : Shape := ⟨2, ![8192, 10]⟩
abbrev S1x10 : Shape := ⟨2, ![1, 10]⟩

abbrev nBuf : Space → Nat
  | .hbm => 37
  | .vmem => 24
  | .smem => 0
  | _ => 0

abbrev bufTy : (tb : Table) → Fin (tcTables nBuf tb) → BufTy
  | .hbm, ⟨0, _⟩ => ⟨S8192x8192, .f32⟩
  | .hbm, ⟨1, _⟩ => ⟨S8192x64, .f32⟩
  | .hbm, ⟨2, _⟩ => ⟨S64x64, .f32⟩
  | .hbm, ⟨3, _⟩ => ⟨S64x64, .f32⟩
  | .hbm, ⟨4, _⟩ => ⟨S64x10, .f32⟩
  | .hbm, ⟨5, _⟩ => ⟨S10, .f32⟩
  | .hbm, ⟨6, _⟩ => ⟨S8192x1, .f32⟩
  | .hbm, ⟨7, _⟩ => ⟨S8192x8192, .bf16⟩
  | .hbm, ⟨8, _⟩ => ⟨S_, .f32⟩
  | .hbm, ⟨9, _⟩ => ⟨S8192x1, .f32⟩
  | .hbm, ⟨10, _⟩ => ⟨S8192x1, .i1⟩
  | .hbm, ⟨11, _⟩ => ⟨S_, .f32⟩
  | .hbm, ⟨12, _⟩ => ⟨S8192x1, .f32⟩
  | .hbm, ⟨13, _⟩ => ⟨S8192x1, .i1⟩
  | .hbm, ⟨14, _⟩ => ⟨S_, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x64, .f32⟩
  | .hbm, ⟨24, _⟩ => ⟨S8192x64, .f32⟩
  | .hbm, ⟨25, _⟩ => ⟨S8192x64, .f32⟩
  | .hbm, ⟨26, _⟩ => ⟨S8192x64, .bf16⟩
  | .hbm, ⟨27, _⟩ => ⟨S8192x64, .f32⟩
  | .hbm, ⟨28, _⟩ => ⟨S8192x64, .f32⟩
  | .hbm, ⟨29, _⟩ => ⟨S8192x64, .f32⟩
  | .hbm, ⟨30, _⟩ => ⟨S8192x64, .f32⟩
  | .hbm, ⟨31, _⟩ => ⟨S8192x64, .bf16⟩
  | .hbm, ⟨32, _⟩ => ⟨S8192x64, .f32⟩
  | .hbm, ⟨33, _⟩ => ⟨S8192x10, .f32⟩
  | .hbm, ⟨34, _⟩ => ⟨S1x10, .f32⟩
  | .hbm, ⟨35, _⟩ => ⟨S8192x10, .f32⟩
  | .hbm, ⟨36, _⟩ => ⟨S8192x10, .f32⟩
  | .local _ .vmem, ⟨0, _⟩ => ⟨S2048x1024, .f32⟩
  | .local _ .vmem, ⟨1, _⟩ => ⟨S2048x1024, .f32⟩
  | .local _ .vmem, ⟨2, _⟩ => ⟨S2048x1, .f32⟩
  | .local _ .vmem, ⟨3, _⟩ => ⟨S2048x1, .f32⟩
  | .local _ .vmem, ⟨4, _⟩ => ⟨S2048x1024, .bf16⟩
  | .local _ .vmem, ⟨5, _⟩ => ⟨S2048x1024, .bf16⟩
  | .local _ .vmem, ⟨6, _⟩ => ⟨S2048x2048, .bf16⟩
  | .local _ .vmem, ⟨7, _⟩ => ⟨S2048x2048, .bf16⟩
  | .local _ .vmem, ⟨8, _⟩ => ⟨S2048x64, .bf16⟩
  | .local _ .vmem, ⟨9, _⟩ => ⟨S2048x64, .bf16⟩
  | .local _ .vmem, ⟨10, _⟩ => ⟨S2048x1, .f32⟩
  | .local _ .vmem, ⟨11, _⟩ => ⟨S2048x1, .f32⟩
  | .local _ .vmem, ⟨12, _⟩ => ⟨S2048x64, .f32⟩
  | .local _ .vmem, ⟨13, _⟩ => ⟨S2048x64, .f32⟩
  | .local _ .vmem, ⟨14, _⟩ => ⟨S2048x64, .f32⟩
  | .local _ .vmem, ⟨15, _⟩ => ⟨S2048x2048, .bf16⟩
  | .local _ .vmem, ⟨16, _⟩ => ⟨S2048x2048, .bf16⟩
  | .local _ .vmem, ⟨17, _⟩ => ⟨S2048x64, .bf16⟩
  | .local _ .vmem, ⟨18, _⟩ => ⟨S2048x64, .bf16⟩
  | .local _ .vmem, ⟨19, _⟩ => ⟨S2048x1, .f32⟩
  | .local _ .vmem, ⟨20, _⟩ => ⟨S2048x1, .f32⟩
  | .local _ .vmem, ⟨21, _⟩ => ⟨S2048x64, .f32⟩
  | .local _ .vmem, ⟨22, _⟩ => ⟨S2048x64, .f32⟩
  | .local _ .vmem, ⟨23, _⟩ => ⟨S2048x64, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_call1_v0 : Ref sig .tc := ⟨.hbm, 20, rfl⟩
abbrev main_call1_v1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2048x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![4, 4], ![false, false]⟩

def k2_cond2 (i : grid2.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S2048x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  inb_S2048x1_S2048x1_0_0 : ∀ a, (![0, 0] : Fin 2 → Nat) a + S2048x1.size a ≤ S2048x1.size a
  h_S2048x1 : 0 < S2048x1.numel
  inb_S2048x1024_S2048x1024_0_0 : ∀ a, (![0, 0] : Fin 2 → Nat) a + S2048x1024.size a ≤ S2048x1024.size a
  h_S2048x1024 : 0 < S2048x1024.numel
  shapeCasts_S2048x1_S2048x1 : S2048x1.ShapeCasts S2048x1
  reduces_S2048x1024_S2048 : S2048x1024.Reduces [1] S2048
  shapeCasts_S2048_S2048x1 : S2048.ShapeCasts S2048x1
  bitsLt_bf16_f32 : FTy.bits .bf16 < FTy.bits .f32
  packedbf16_S2048x1024_S2048x1024_0_0 : (Rect.unit (s := S2048x1024) ![0, 0] S2048x1024.size inb_S2048x1024_S2048x1024_0_0).PackedRows (EltTy.packing .bf16)
  bcast_S_S8192x1 : S_.BroadcastsInDim S8192x1 (![] : Fin 0 → Fin S8192x1.rank)
  bcast_S8192x1_S8192x64_0_1 : S8192x1.BroadcastsInDim S8192x64 (![0, 1] : Fin 2 → Fin S8192x64.rank)
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  broadcasts_S2048x1_S2048x64 : S2048x1.Broadcasts S2048x64
  bcast_S10_S1x10_1 : S10.BroadcastsInDim S1x10 (![1] : Fin 1 → Fin S1x10.rank)
  bcast_S1x10_S8192x10_0_1 : S1x10.BroadcastsInDim S8192x10 (![0, 1] : Fin 2 → Fin S8192x10.rank)
  dot_S8192x64_S64x64_S8192x64_1_0_0_1_n_n_wf : DotDims.WF S8192x64 S64x64 S8192x64 [1] [0] [0] [1] [] []
  dot_S2048x2048_S2048x64_S2048x64_1_0_0_1_n_n_wf : DotDims.WF S2048x2048 S2048x64 S2048x64 [1] [0] [0] [1] [] []
  dot_S8192x64_S64x10_S8192x10_1_0_0_1_n_n_wf : DotDims.WF S8192x64 S64x10 S8192x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x8192.size a
  hwx0_0 : ∀ i : grid0.Coords, EltTy.bits .f32 = 32 ∨ (Rect.block (s := S8192x8192) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S8192x1.size a
  hwx0_1 : ∀ i : grid0.Coords, EltTy.bits .f32 = 32 ∨ (Rect.block (s := S8192x1) S2048x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S8192x8192.size a
  hwx0_2 : ∀ i : grid0.Coords, EltTy.bits .bf16 = 32 ∨ (Rect.block (s := S8192x8192) S2048x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S8192x8192.size a
  hwx1_0 : ∀ i : grid1.Coords, EltTy.bits .bf16 = 32 ∨ (Rect.block (s := S8192x8192) S2048x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S8192x64.size a
  hwx1_1 : ∀ i : grid1.Coords, EltTy.bits .bf16 = 32 ∨ (Rect.block (s := S8192x64) S2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S8192x1.size a
  hwx1_2 : ∀ i : grid1.Coords, EltTy.bits .f32 = 32 ∨ (Rect.block (s := S8192x1) S2048x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x64.size a ≤ S8192x64.size a
  hwx1_3 : ∀ i : grid1.Coords, EltTy.bits .f32 = 32 ∨ (Rect.block (s := S8192x64) S2048x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x2048.size a ≤ S8192x8192.size a
  hwx2_0 : ∀ i : grid2.Coords, EltTy.bits .bf16 = 32 ∨ (Rect.block (s := S8192x8192) S2048x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x64.size a ≤ S8192x64.size a
  hwx2_1 : ∀ i : grid2.Coords, EltTy.bits .bf16 = 32 ∨ (Rect.block (s := S8192x64) S2048x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1.size a ≤ S8192x1.size a
  hwx2_2 : ∀ i : grid2.Coords, EltTy.bits .f32 = 32 ∨ (Rect.block (s := S8192x1) S2048x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x64.size a ≤ S8192x64.size a
  hwx2_3 : ∀ i : grid2.Coords, EltTy.bits .f32 = 32 ∨ (Rect.block (s := S8192x64) S2048x64.size (cc2_transform_3 i) (hinb2_3 i)).WholeWords (EltTy.packing .f32)

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf
def dot_S8192x64_S64x10_S8192x10_1_0_0_1_n_n : DotDims S8192x64 S64x10 S8192x10 where
  lhsContracting := [1]
  rhsContracting := [0]
  lhsNonContracting := [0]
  rhsNonContracting := [1]
  lhsBatch := []
  rhsBatch := []
  wf := dot_S8192x64_S64x10_S8192x10_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S2048x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0_1) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S2048x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v0_1) S2048x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S2048x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S2048x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v17) S2048x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x64 : Shape := ⟨2, ![8192, 64]⟩
abbrev S64x64 : Shape := ⟨2, ![64, 64]⟩
abbrev S64x10 : Shape := ⟨2, ![64, 10]⟩
abbrev S10 : Shape := ⟨1, ![10]⟩
abbrev S_ : Shape := ⟨0, ![]⟩
abbrev S8192 : Shape := ⟨1, ![8192]⟩
abbrev S8192x1 : Shape := ⟨2, ![8192, 1]⟩
abbrev S8192x10 : Shape := ⟨2, ![8192, 10]⟩
abbrev S1x10 : Shape := ⟨2, ![1, 10]⟩

abbrev nBuf : Space → Nat
  | .hbm => 49
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x64, .f32⟩
  | .hbm, ⟨2, _⟩ => ⟨S64x64, .f32⟩
  | .hbm, ⟨3, _⟩ => ⟨S64x64, .f32⟩
  | .hbm, ⟨4, _⟩ => ⟨S64x10, .f32⟩
  | .hbm, ⟨5, _⟩ => ⟨S10, .f32⟩
  | .hbm, ⟨6, _⟩ => ⟨S_, .f32⟩
  | .hbm, ⟨7, _⟩ => ⟨S8192, .f32⟩
  | .hbm, ⟨8, _⟩ => ⟨S_, .f32⟩
  | .hbm, ⟨9, _⟩ => ⟨S8192, .f32⟩
  | .hbm, ⟨10, _⟩ => ⟨S8192, .i1⟩
  | .hbm, ⟨11, _⟩ => ⟨S_, .f32⟩
  | .hbm, ⟨12, _⟩ => ⟨S8192, .f32⟩
  | .hbm, ⟨13, _⟩ => ⟨S8192, .i1⟩
  | .hbm, ⟨14, _⟩ => ⟨S_, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S8192, .f32⟩
  | .hbm, ⟨19, _⟩ => ⟨S_, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x64, .f32⟩
  | .hbm, ⟨24, _⟩ => ⟨S8192x1, .f32⟩
  | .hbm, ⟨25, _⟩ => ⟨S8192x1, .f32⟩
  | .hbm, ⟨26, _⟩ => ⟨S8192x64, .f32⟩
  | .hbm, ⟨27, _⟩ => ⟨S8192x64, .f32⟩
  | .hbm, ⟨28, _⟩ => ⟨S8192x64, .f32⟩
  | .hbm, ⟨29, _⟩ => ⟨S8192x64, .f32⟩
  | .hbm, ⟨30, _⟩ => ⟨S8192x64, .f32⟩
  | .hbm, ⟨31, _⟩ => ⟨S_, .f32⟩
  | .hbm, ⟨32, _⟩ => ⟨S8192x64, .f32⟩
  | .hbm, ⟨33, _⟩ => ⟨S8192x64, .f32⟩
  | .hbm, ⟨34, _⟩ => ⟨S8192x64, .f32⟩
  | .hbm, ⟨35, _⟩ => ⟨S8192x1, .f32⟩
  | .hbm, ⟨36, _⟩ => ⟨S8192x1, .f32⟩
  | .hbm, ⟨37, _⟩ => ⟨S8192x64, .f32⟩
  | .hbm, ⟨38, _⟩ => ⟨S8192x64, .f32⟩
  | .hbm, ⟨39, _⟩ => ⟨S8192x64, .f32⟩
  | .hbm, ⟨40, _⟩ => ⟨S8192x64, .f32⟩
  | .hbm, ⟨41, _⟩ => ⟨S8192x64, .f32⟩
  | .hbm, ⟨42, _⟩ => ⟨S_, .f32⟩
  | .hbm, ⟨43, _⟩ => ⟨S8192x64, .f32⟩
  | .hbm, ⟨44, _⟩ => ⟨S8192x64, .f32⟩
  | .hbm, ⟨45, _⟩ => ⟨S8192x10, .f32⟩
  | .hbm, ⟨46, _⟩ => ⟨S1x10, .f32⟩
  | .hbm, ⟨47, _⟩ => ⟨S8192x10, .f32⟩
  | .hbm, ⟨48, _⟩ => ⟨S8192x10, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_v5 : Ref sig .tc := ⟨.hbm, 17, rfl⟩
abbrev main_v6 : Ref sig .tc := ⟨.hbm, 18, rfl⟩
abbrev main_cst_3 : Ref sig .tc := ⟨.hbm, 19, rfl⟩
abbrev main_call1_v0 : Ref sig .tc := ⟨.hbm, 20, rfl⟩
abbrev main_call1_v1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call2_cst : Ref sig .tc := ⟨.hbm, 31, rfl⟩
abbrev main_call2_v0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call3_cst : Ref sig .tc := ⟨.hbm, 42, rfl⟩
abbrev main_call3_v0 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  bcast_S_S8192x64 : S_.BroadcastsInDim S8192x64 (![] : Fin 0 → Fin S8192x64.rank)
  bcast_S10_S1x10_1 : S10.BroadcastsInDim S1x10 (![1] : Fin 1 → Fin S1x10.rank)
  bcast_S1x10_S8192x10_0_1 : S1x10.BroadcastsInDim S8192x10 (![0, 1] : Fin 2 → Fin S8192x10.rank)
  dot_S8192x64_S64x64_S8192x64_1_0_0_1_n_n_wf : DotDims.WF S8192x64 S64x64 S8192x64 [1] [0] [0] [1] [] []
  dot_S8192x8192_S8192x64_S8192x64_1_0_0_1_n_n_wf : DotDims.WF S8192x8192 S8192x64 S8192x64 [1] [0] [0] [1] [] []
  dot_S8192x64_S64x10_S8192x10_1_0_0_1_n_n_wf : DotDims.WF S8192x64 S64x10 S8192x10 [1] [0] [0] [1] [] []

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x64_S64x10_S8192x10_1_0_0_1_n_n : DotDims S8192x64 S64x10 S8192x10 where
  lhsContracting := [1]
  rhsContracting := [0]
  lhsNonContracting := [0]
  rhsNonContracting := [1]
  lhsBatch := []
  rhsBatch := []
  wf := dot_S8192x64_S64x10_S8192x10_1_0_0_1_n_n_wf

class Facts : Prop extends Facts₀ where

variable [Facts]
-- ==== Proof.K.R0.Runs.lean ====
/- Region 0 (the row-sum kernel, grid 4x8) of the three-region program: what the runs of its body share.
   The region's half is stated at a PARAMETER `V` — the TensorCore's buffer contents when the region is
   entered — so that the program's run can instantiate it at whatever the host prefix leaves. Here: each
   window's block at a point, the input window's buffer at every point, the body's one branch condition in
   closed form over the grid, and the staging memrefs the pipeline passes the body. -/
import proofs.«177097_j68143951118910_2_alg».proof.Proof.Gen.Kernel.Launch
import proofs.«177097_j68143951118910_2_alg».proof.Proof.Gen.Kernel.Skeleton
import proofs.«177097_j68143951118910_2_alg».proof.Proof.Gen.Kernel.Points
import Idealize.ShloMosaic.Lib.Pipeline.FrameBody
import Idealize.ShloMosaic.Lib.Ring
import Idealize.ShloMosaic.Lib.Tactic

-- membership in a rectangle of large extents unfolds once per coordinate of the long axes, hence the deeper recursion bound
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for ANY proof data whose array is
    `V`'s (`hA`) and whose body leaves the block in place (`hafter`): the window is fetched before every
    point, uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's branch condition -/

/-- The condition of the body's one `scf.if`: the second grid coordinate is zero (the first tile of a row of
    tiles), as the kernel's scalar chain computes it. -/
abbrev cond0_0 (i : grid0.Coords) : Prop := (Scalar.cmpi .ne (Scalar.extui (Scalar.cmpi .eq (BitVec.ofNat 32 (i 1).val) 0#32)) 0#32) = 1#1
/-- It holds at the points ≡ 0 (mod 8) — decided over the grid. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## Where the windows are idle: nowhere -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl

/-! ## The staging memrefs -/

/-- One staging buffer of each output window, through which its contents are stated (the choice does not matter:
    pieces covering a buffer read back the same over any prior contents). -/
abbrev VO0_1 : View sig .tc .vmem S2048x1 .f32 := (Memref.whole cc0_stg1_0 : Memref sig .tc .vmem S2048x1 .f32).view
abbrev VO0_2 : View sig .tc .vmem S2048x1024 .bf16 := (Memref.whole cc0_stg2_0 : Memref sig .tc .vmem S2048x1024 .bf16).view
/-- Each window's current staging memref at point `t`, spelled as the pipeline passes it to the body, and its wholeness. -/
abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1024 .bf16 := win0_2.stage (cfg0.slots t 2)
abbrev hs0_2 (t : Fin cfg0.N) : (ms0_2 t).IsWhole := hstage0_2 ((cfg0.slots t 2).cast nbuf0_2)

end Cert.Kernel.Hand

end
-- ==== Proof.K.R0.RunA.lean ====
/- Region 0's body run whole IN CASE A (the branch taken: the first tile of a row of tiles, where the running
   row sums are zeroed before the tile's are added). The pieces each output's staging buffer ends with are the
   witness the run finds. -/
import proofs.«177097_j68143951118910_2_alg».proof.Proof.K.R0.Runs

-- membership in a rectangle of large extents unfolds once per coordinate of the long axes, hence the deeper recursion bound
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each output's staging memref, as pieces (last first) IN CASE A, WITH the proof
    that on whole staging memrefs — the input's at its contents `x0`, the outputs' at anything — the body runs to
    the continuation holding the input's as it was and each output's buffer with its pieces written. -/
noncomputable def kernelRun0_A (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1024 .bf16) (harg4 : arg4.IsWhole) (hc0 : cond0_0 i)
    (x0 : Vec F S2048x1024 .f32) :
    Σ' (L1 : List (View.Piece (Elt F) S2048x1 .f32)), { L2 : List (View.Piece (Elt F) S2048x1024 .bf16) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2)) -∗ K ⟨⟩))
          ⊢ wp frame (wpE (defs₀ (F := F)) Variants.none c none) E (cc0__rowsum_kernel i arg2 harg2 arg3 harg3 arg4 harg4) K } := by
  refine ⟨?_, ?_, fun E K => ?run⟩
  case run =>
    simp only [cc0__rowsum_kernel_eq_skeleton]; unfold cc0__rowsum_kernel_skel
    unfold owns
    iintro ⟨⟨%f0, %hf0, H0⟩, ⟨%d1, %f1, -, H1⟩, ⟨%d2, %f2, -, H2⟩, Hk⟩
    obtain rfl := harg2.eq_unread hf0
    sl_exec (disch := first | exact hc0)
    sl_step
    iapply Hk
    isplitl [H0]
    · iexists _; isplitr; · ipureintro; exact harg2.read_unread _
      iexact H0
    isplitl [H1]; · iexists _; iexact H1
    iexists _; iexact H2

end Cert.Kernel.Hand

end
-- ==== Proof.K.R0.RunB.lean ====
/- Region 0's body run whole IN CASE B (the branch not taken: a later tile of a row of tiles, where the tile's
   row sums are added to the running ones). The pieces each output's staging buffer ends with are the witness
   the run finds. -/
import proofs.«177097_j68143951118910_2_alg».proof.Proof.K.R0.RunA

-- membership in a rectangle of large extents unfolds once per coordinate of the long axes, hence the deeper recursion bound
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each output's staging memref, as pieces (last first) IN CASE B, WITH the proof
    that on whole staging memrefs — the input's at its contents `x0`, the running row sums' at `xo1` (what the
    point before left), the copy's at anything — the body runs to the continuation holding the input's as it was
    and each output's buffer with its pieces written. -/
noncomputable def kernelRun0_B (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1024 .bf16) (harg4 : arg4.IsWhole) (hc0 : ¬cond0_0 i)
    (x0 : Vec F S2048x1024 .f32) (xo1 : Vec F S2048x1 .f32) :
    Σ' (L1 : List (View.Piece (Elt F) S2048x1 .f32)), { L2 : List (View.Piece (Elt F) S2048x1024 .bf16) //
      ∀ (E : Set ℕ) (K : PUnit → sProp 𝕄),
        iprop(owns (c : Thread nD τ) arg2 fullShare x0 ∗ owns (c : Thread nD τ) arg3 fullShare xo1 ∗ (∃ d, owns (c : Thread nD τ) arg4 fullShare d)
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2)) -∗ K ⟨⟩))
          ⊢ wp frame (wpE (defs₀ (F := F)) Variants.none c none) E (cc0__rowsum_kernel i arg2 harg2 arg3 harg3 arg4 harg4) K } := by
  refine ⟨?_, ?_, fun E K => ?run⟩
  case run =>
    simp only [cc0__rowsum_kernel_eq_skeleton]; unfold cc0__rowsum_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]; · iexists _; iexact H1
    iexists _; iexact H2

end Cert.Kernel.Hand

end
-- ==== Proof.K.R0.Frame.lean ====
/- Region 0 (the row-sum kernel) of the three-region program: its half of the frame certificate at a PARAMETER
   `V` (the TensorCore's buffer contents when the region is entered). What each case's pieces cover and leave
   (`cover0_κ_W`, `out0_κ_W`), what the two outputs' staging buffers hold point by point (`outsAt0`: the running
   row sums, carried from the point before within a row of tiles, and the tile's copy), the proof data (`dat0`) and
   the body obligation (`body_obligation0`). -/
import proofs.«177097_j68143951118910_2_alg».proof.Proof.K.R0.RunB

-- membership in a rectangle of large extents unfolds once per coordinate of the long axes, hence the deeper recursion bound
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A's pieces for output 1 (the running row sums) tile its block, so they cover it. -/
theorem cover0_A_1 (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1024 .bf16) (harg4 : arg4.IsWhole) (hc0 : cond0_0 i)
    (x0 : Vec F S2048x1024 .f32) (y : S2048x1.Idx) :
    ∃ pc ∈ (kernelRun0_A c i arg2 harg2 arg3 harg3 arg4 harg4 hc0 x0).1, y ∈ pc.1.set :=
  View.cover_of_tiledL (kernelRun0_A c i arg2 harg2 arg3 harg3 arg4 harg4 hc0 x0).1 S2048x1.size (by sl_kernel_rfl) y

/-- What case A leaves in output 1's staging buffer: its pieces read back over junk. -/
def out0_A_1 (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1024 .bf16) (harg4 : arg4.IsWhole) (hc0 : cond0_0 i)
    (x0 : Vec F S2048x1024 .f32) : Vec F S2048x1 .f32 :=
  VO0_1.read (Elt F) (VO0_1.writes (Elt F) VO0_1.junk (kernelRun0_A c i arg2 harg2 arg3 harg3 arg4 harg4 hc0 x0).1)

/-- Case A's pieces for output 2 (the tile's copy) tile its block, so they cover it. -/
theorem cover0_A_2 (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1024 .bf16) (harg4 : arg4.IsWhole) (hc0 : cond0_0 i)
    (x0 : Vec F S2048x1024 .f32) (y : S2048x1024.Idx) :
    ∃ pc ∈ (kernelRun0_A c i arg2 harg2 arg3 harg3 arg4 harg4 hc0 x0).2.1, y ∈ pc.1.set :=
  View.cover_of_tiledL (kernelRun0_A c i arg2 harg2 arg3 harg3 arg4 harg4 hc0 x0).2.1 S2048x1024.size (by sl_kernel_rfl) y

/-- What case A leaves in output 2's staging buffer: its pieces read back over junk. -/
def out0_A_2 (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1024 .bf16) (harg4 : arg4.IsWhole) (hc0 : cond0_0 i)
    (x0 : Vec F S2048x1024 .f32) : Vec F S2048x1024 .bf16 :=
  VO0_2.read (Elt F) (VO0_2.writes (Elt F) VO0_2.junk (kernelRun0_A c i arg2 harg2 arg3 harg3 arg4 harg4 hc0 x0).2.1)

/-- Case B's pieces for output 1 (the running row sums) tile its block, so they cover it. -/
theorem cover0_B_1 (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1024 .bf16) (harg4 : arg4.IsWhole) (hc0 : ¬cond0_0 i)
    (x0 : Vec F S2048x1024 .f32) (xo1 : Vec F S2048x1 .f32) (y : S2048x1.Idx) :
    ∃ pc ∈ (kernelRun0_B c i arg2 harg2 arg3 harg3 arg4 harg4 hc0 x0 xo1).1, y ∈ pc.1.set :=
  View.cover_of_tiledL (kernelRun0_B c i arg2 harg2 arg3 harg3 arg4 harg4 hc0 x0 xo1).1 S2048x1.size (by sl_kernel_rfl) y

/-- What case B leaves in output 1's staging buffer: its pieces read back over junk. -/
def out0_B_1 (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1024 .bf16) (harg4 : arg4.IsWhole) (hc0 : ¬cond0_0 i)
    (x0 : Vec F S2048x1024 .f32) (xo1 : Vec F S2048x1 .f32) : Vec F S2048x1 .f32 :=
  VO0_1.read (Elt F) (VO0_1.writes (Elt F) VO0_1.junk (kernelRun0_B c i arg2 harg2 arg3 harg3 arg4 harg4 hc0 x0 xo1).1)

/-- Case B's pieces for output 2 (the tile's copy) tile its block, so they cover it. -/
theorem cover0_B_2 (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1024 .bf16) (harg4 : arg4.IsWhole) (hc0 : ¬cond0_0 i)
    (x0 : Vec F S2048x1024 .f32) (xo1 : Vec F S2048x1 .f32) (y : S2048x1024.Idx) :
    ∃ pc ∈ (kernelRun0_B c i arg2 harg2 arg3 harg3 arg4 harg4 hc0 x0 xo1).2.1, y ∈ pc.1.set :=
  View.cover_of_tiledL (kernelRun0_B c i arg2 harg2 arg3 harg3 arg4 harg4 hc0 x0 xo1).2.1 S2048x1024.size (by sl_kernel_rfl) y

/-- What case B leaves in output 2's staging buffer: its pieces read back over junk. -/
def out0_B_2 (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1024 .bf16) (harg4 : arg4.IsWhole) (hc0 : ¬cond0_0 i)
    (x0 : Vec F S2048x1024 .f32) (xo1 : Vec F S2048x1 .f32) : Vec F S2048x1024 .bf16 :=
  VO0_2.read (Elt F) (VO0_2.writes (Elt F) VO0_2.junk (kernelRun0_B c i arg2 harg2 arg3 harg3 arg4 harg4 hc0 x0 xo1).2.1)

section Region0
variable (V : (c : Dev nD) → (b : Ref sig .tc) → Buf (Elt F) ((c : Thread nD τ).loc b))

/-! ## What the outputs hold after each point -/

/-- THE ACCUMULATION. What the two outputs' staging buffers hold after the body at position `n`: the case the
    closed form selects at `n`, run at the point's memrefs and input block; in case B the running row sums at what
    this leaves at `n - 1` (their buffer is not written back between). -/
def outsAt0 (c : Dev nD) : (n : ℕ) → n < cfg0.N → Vec F S2048x1 .f32 × Vec F S2048x1024 .bf16
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk0 V c 0 ⟨0, hn⟩),
      out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk0 V c 0 ⟨0, hn⟩))
  | n + 1, hn =>
    if h0 : (n + 1) % 8 = 0 then
      (out0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk0 V c 0 ⟨n + 1, hn⟩),
        out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk0 V c 0 ⟨n + 1, hn⟩))
    else
      (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk0 V c 0 ⟨n + 1, hn⟩) (outsAt0 c n (Nat.lt_of_succ_lt hn)).1,
        out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk0 V c 0 ⟨n + 1, hn⟩) (outsAt0 c n (Nat.lt_of_succ_lt hn)).1)

/-- `outsAt0` at a point of case A: that case's contents. -/
theorem outsAt0_A (c : Dev nD) (t : Fin cfg0.N) (h0 : t.val % 8 = 0) :
    outsAt0 V c t.val t.isLt = (out0_A_1 c (grid0.coords t) (ms0_0 t) (hs0_0 t) (ms0_1 t) (hs0_1 t) (ms0_2 t) (hs0_2 t) ((hcond0_0 t).mpr h0) (iblk0 V c 0 t),
      out0_A_2 c (grid0.coords t) (ms0_0 t) (hs0_0 t) (ms0_1 t) (hs0_1 t) (ms0_2 t) (hs0_2 t) ((hcond0_0 t).mpr h0) (iblk0 V c 0 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 8 = 0) :
    outsAt0 V c t.val t.isLt = (out0_B_1 c (grid0.coords t) (ms0_0 t) (hs0_0 t) (ms0_1 t) (hs0_1 t) (ms0_2 t) (hs0_2 t) (fun h => h0 ((hcond0_0 t).mp h)) (iblk0 V c 0 t) (outsAt0 V c (t.val - 1) (Nat.lt_of_le_of_lt (Nat.sub_le _ _) t.isLt)).1,
      out0_B_2 c (grid0.coords t) (ms0_0 t) (hs0_0 t) (ms0_1 t) (hs0_1 t) (ms0_2 t) (hs0_2 t) (fun h => h0 ((hcond0_0 t).mp h)) (iblk0 V c 0 t) (outsAt0 V c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 0 on core `c`: the arrays as the region finds them (`V`); after the body at point
    `t` the input's buffer at its block and the outputs' at `outsAt0`; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2
  Φ _ := Pipeline.ΦA spec0 c
  q _ := fullShare
  owed _ := 0

/-- The proof data's arrays are the region-entry contents (the definition projected, `V` never unfolded). -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2 := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-- At a point of case B output 1's current staging buffer holds what the body left at the point before: the
    point is not the first, and the buffer was not written back between (that happens only after the last tile of
    a row of tiles); the window is live and uncut. -/
theorem before0_1_B (c : Dev nD) (t : Fin cfg0.N) (h0 : ¬t.val % 8 = 0) (d) :
    (dat0 V c).before 1 t d = (outsAt0 V c (t.val - 1) (Nat.lt_of_le_of_lt (Nat.sub_le _ _) t.isLt)).1 := by
  have hN : t.val < 32 := lt_of_lt_of_eq t.isLt (show cfg0.N = 32 from N_0)
  rw [Dat.before_out_kept _ 1 rfl t (by omega) (Bool.eq_false_iff.mpr fun h => by have := (flush0_1 _).mp h; dsimp only at this; omega)
    (fun _ => rfl) (fun _ _ => rfl)]
  dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 1600000 in
/-- The body at any point: the input's memref holds its block; the closed form says which case the point is in;
    in case B the running row sums' buffer holds what the point before left; so that case's run applies. The
    invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  have hN : t.val < 32 := lt_of_lt_of_eq t.isLt (show cfg0.N = 32 from N_0)
  by_cases h0 : t.val % 8 = 0
  · rw [outsAt0_A V c t h0]
    unfold out0_A_1 out0_A_2; (try dsimp only)
    iintro ⟨HΦ, Ho, ⟨%d0, H0⟩, ⟨%d1, H1⟩, ⟨%d2, H2⟩⟩
    iapply ((kernelRun0_A c (grid0.coords t) _ _ _ _ _ _ ((hcond0_0 t).mpr h0) (iblk0 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_A_1 c _ _ _ _ _ _ _ _ _)
    unfold owns; iexists _; isplitr
    swap; · iexact H2
    ipureintro; exact View.read_writes_of_cover _ _ _ _ _ (cover0_A_2 c _ _ _ _ _ _ _ _ _)
  · rw [outsAt0_B V c t h0]
    simp only [before0_1_B V c t h0]
    unfold out0_B_1 out0_B_2; (try dsimp only)
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk0 V c 0 t) _).2.2 Set.univ _)
    isplitl [H0]; · iexact H0
    isplitl [H1]; · iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_B_1 c _ _ _ _ _ _ _ _ _ _)
    unfold owns; iexists _; isplitr
    swap; · iexact H2
    ipureintro; exact View.read_writes_of_cover _ _ _ _ _ (cover0_B_2 c _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.R1.Runs.lean ====
/- Region 1 (the first graph-convolution layer kernel, grid 4x4, point t = 4*i + k): what the runs of its body
   share, stated at a parameter `V` — the contents of the core's buffers when the region is entered. The windows'
   blocks read off `V`; the body's two branch conditions in closed form over the grid (k = 0: the accumulator is
   zeroed; k = 3: the output block relu(d * acc) is stored); where the output window is idle; the staging memrefs
   and the scratch accumulator the kernel carries from point to point. -/
import proofs.«177097_j68143951118910_2_alg».proof.Proof.Gen.Kernel.Launch
import proofs.«177097_j68143951118910_2_alg».proof.Proof.Gen.Kernel.Skeleton
import proofs.«177097_j68143951118910_2_alg».proof.Proof.Gen.Kernel.Points
import Idealize.ShloMosaic.Lib.Pipeline.FrameBody
import Idealize.ShloMosaic.Lib.Ring
import Idealize.ShloMosaic.Lib.Tactic

-- membership in a rectangle of large extents unfolds once per coordinate of the long axes, hence the deeper recursion bound
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the core's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the adjacency tile) holds its block at every point, for any proof data whose array is `V`'s and
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the feature tile, block index k) holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the degree-scaling column, block index i) holds its block at every point, fetched there (k = 0)
    or not (its block index does not move along k). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- The condition of the body's first conditional (k = 0: zero the accumulator), from the grid coordinates. -/
abbrev cond1_0 (i : grid1.Coords) : Prop := (Scalar.cmpi .ne (Scalar.extui (Scalar.cmpi .eq (BitVec.ofNat 32 (i 1).val) 0#32)) 0#32) = 1#1
/-- It holds at the points with k = 0 — decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second conditional (k = 3: store the output block), from the grid coordinates. -/
abbrev cond1_1 (i : grid1.Coords) : Prop := k1_cond2 i = 1#1
/-- It holds at the points with k = 3 — decided over the grid. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the points of case A (k = 0) the output window is idle: the case stores nothing into it, -/
theorem idleAt1_3_A : ∀ t : Fin cfg1.N, cond1_0 (grid1.coords t) → ¬cond1_1 (grid1.coords t) → cfg1.idle 3 (grid1.coords t) = true := by decide +kernel
/-- and its block is not written back there. -/
theorem noFlush1_3_A : ∀ t : Fin cfg1.N, cond1_0 (grid1.coords t) → ¬cond1_1 (grid1.coords t) → (cfg1.win 3).flush t = false := by decide +kernel
/-- At the points of case B (k = 1, 2) the output window is idle, -/
theorem idleAt1_3_B : ∀ t : Fin cfg1.N, ¬cond1_0 (grid1.coords t) → ¬cond1_1 (grid1.coords t) → cfg1.idle 3 (grid1.coords t) = true := by decide +kernel
/-- and its block is not written back there. -/
theorem noFlush1_3_B : ∀ t : Fin cfg1.N, ¬cond1_0 (grid1.coords t) → ¬cond1_1 (grid1.coords t) → (cfg1.win 3).flush t = false := by decide +kernel
/-- At the points of case C (k = 3) the output window is live: the case stores into it. -/
theorem liveAt1_3_C : ∀ t : Fin cfg1.N, ¬cond1_0 (grid1.coords t) → cond1_1 (grid1.coords t) → cfg1.idle 3 (grid1.coords t) = false := by decide +kernel

/-! ## The staging memrefs and the scratch accumulator -/

/-- One staging buffer of the output window, through which its contents are stated (the choice does not matter). -/
abbrev VO1_3 : View sig .tc .vmem S2048x64 .f32 := (Memref.whole cc1_stg3_0 : Memref sig .tc .vmem S2048x64 .f32).view
/-- Each window's current staging memref at point `t`, spelled as the pipeline passes it, and its wholeness. -/
abbrev ms1_0 (t : Fin cfg1.N) : Memref sig .tc .vmem S2048x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x64 .f32 := win1_3.stage (cfg1.slots t 3)
abbrev hs1_3 (t : Fin cfg1.N) : (ms1_3 t).IsWhole := hstage1_3 ((cfg1.slots t 3).cast nbuf1_3)
/-- The scratch accumulator: a whole scoped buffer of the kernel's own, passed beside the windows. -/
abbrev scM1_0 : Memref sig .tc .vmem S2048x64 .f32 := Memref.whole cc1_scratch0
/-- The same as a view: what it holds is stated through it. -/
abbrev VS1_0 : View sig .tc .vmem S2048x64 .f32 := scM1_0.view

/-- The core's scoped buffers that are neither a staging buffer of this region nor its scratch accumulator (the other
    regions' staging buffers and scratch), each whole at some contents: the region never touches them. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f))

/-- The region's invariant gives the scratch accumulator as a memref owned at some contents, beside the other scoped
    buffers and the generator register (the launch lists the scoped buffers in their declared order, the accumulator
    seventh), -/
theorem PhiA1_split (c : Dev nD) :
    (Pipeline.ΦA spec1 c : sProp 𝕄) ⊢ iprop(iprop((∃ d, owns (c : Thread nD τ) scM1_0 fullShare d) ∗ others1 c) ∗ (∃ r, prngReg c r)) := by
  unfold Pipeline.ΦA others1; rw [scopedRest1_eq]; simp only [scM1_0, owns_whole]
  iintro ⟨⟨B1, B2, B3, B4, B5, B6, HS, B7, B8, B9, B10, B11, B12, B13, B14, B15⟩, Hg⟩
  isplitr [Hg]
  · isplitl [HS]; · iexact HS
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [B14]; · iexact B14
    iexact B15
  iexact Hg

/-- and is given back by them. -/
theorem PhiA1_join (c : Dev nD) :
    iprop(iprop((∃ d, owns (c : Thread nD τ) scM1_0 fullShare d) ∗ others1 c) ∗ (∃ r, prngReg c r)) ⊢ (Pipeline.ΦA spec1 c : sProp 𝕄) := by
  unfold Pipeline.ΦA others1; rw [scopedRest1_eq]; simp only [scM1_0, owns_whole]
  iintro ⟨⟨HS, B1, B2, B3, B4, B5, B6, B7, B8, B9, B10, B11, B12, B13, B14, B15⟩, Hg⟩
  isplitr [Hg]
  ·
    isplitl [B1]; · iexact B1
    isplitl [B2]; · iexact B2
    isplitl [B3]; · iexact B3
    isplitl [B4]; · iexact B4
    isplitl [B5]; · iexact B5
    isplitl [B6]; · iexact B6
    isplitl [HS]; · iexact HS
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [B14]; · iexact B14
    iexact B15
  iexact Hg

/-- The two are equal (entailment is antisymmetric): what the body obligation hands the run and takes back. -/
theorem PhiA1_eq (c : Dev nD) :
    (Pipeline.ΦA spec1 c : sProp 𝕄) = iprop(iprop((∃ d, owns (c : Thread nD τ) scM1_0 fullShare d) ∗ others1 c) ∗ (∃ r, prngReg c r)) :=
  Entails.antisymm (PhiA1_split c) (PhiA1_join c)

end Cert.Kernel.Hand

end
-- ==== Proof.K.R1.RunA.lean ====
/- Region 1, case A of the body's run: the body's triple over its skeleton, the pieces each buffer ends with found by the
   run. Each of the three cases of the body is treated by itself. -/
import proofs.«177097_j68143951118910_2_alg».proof.Proof.K.R1.Runs

-- membership in a rectangle of large extents unfolds once per coordinate of the long axes, hence the deeper recursion bound
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- CASE A (k = 0; the first conditional taken, the second not). The body zeroes the accumulator and then stores into it
    the sum of what it then holds and the tile product; it stores nothing into the output window. On whole staging
    memrefs — the three inputs' at their contents, the output's at contents `xi3` handed back untouched, the accumulator at
    anything — the body runs to the continuation holding the inputs' as they were, the output's untouched and the
    accumulator with its pieces written (`LS0`, last first): the pieces are the witness the run finds. -/
noncomputable def kernelRun1_A (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : cond1_0 i) (hc1 : ¬cond1_1 i)
    (x0 : Vec F S2048x2048 .bf16) (x1 : Vec F S2048x64 .bf16) (x2 : Vec F S2048x1 .f32) :
    Σ' (L3 : List (View.Piece (Elt F) S2048x64 .f32)), { LS0 : List (View.Piece (Elt F) S2048x64 .f32) //
      ∀ (xi3 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gcn_layer_kernel i arg2 harg2 arg3 harg3 arg4 harg4 arg5 harg5 arg6 harg6) K } := by
  refine ⟨[], ?_, fun xi3 E K => ?run⟩
  case run =>
    simp only [cc1__gcn_layer_kernel_eq_skeleton]; unfold cc1__gcn_layer_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.R1.RunB.lean ====
/- Region 1, case B of the body's run: the body's triple over its skeleton, the pieces each buffer ends with found by the
   run. Each of the three cases of the body is treated by itself. -/
import proofs.«177097_j68143951118910_2_alg».proof.Proof.K.R1.RunA

-- membership in a rectangle of large extents unfolds once per coordinate of the long axes, hence the deeper recursion bound
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- CASE B (k = 1, 2; neither conditional taken). The body stores into the accumulator the sum of what the point
    before left in it (`xs0`) and the tile product; it stores nothing into the output window. On whole staging memrefs —
    the three inputs' at their contents, the output's at contents `xi3` handed back untouched, the accumulator at `xs0` —
    the body runs to the continuation holding the inputs' as they were, the output's untouched and the accumulator with
    its pieces written (`LS0`, last first): the pieces are the witness the run finds. -/
noncomputable def kernelRun1_B (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : ¬cond1_1 i)
    (x0 : Vec F S2048x2048 .bf16) (x1 : Vec F S2048x64 .bf16) (x2 : Vec F S2048x1 .f32) (xs0 : Vec F S2048x64 .f32) :
    Σ' (L3 : List (View.Piece (Elt F) S2048x64 .f32)), { LS0 : List (View.Piece (Elt F) S2048x64 .f32) //
      ∀ (xi3 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gcn_layer_kernel i arg2 harg2 arg3 harg3 arg4 harg4 arg5 harg5 arg6 harg6) K } := by
  refine ⟨[], ?_, fun xi3 E K => ?run⟩
  case run =>
    simp only [cc1__gcn_layer_kernel_eq_skeleton]; unfold cc1__gcn_layer_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.R1.RunC.lean ====
/- Region 1, case C of the body's run: the body's triple over its skeleton, the pieces each buffer ends with found by the
   run. Each of the three cases of the body is treated by itself. -/
import proofs.«177097_j68143951118910_2_alg».proof.Proof.K.R1.RunB

-- membership in a rectangle of large extents unfolds once per coordinate of the long axes, hence the deeper recursion bound
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- CASE C (k = 3; the first conditional not taken, the second taken). The body stores into the accumulator the sum of
    what the point before left in it (`xs0`) and the tile product, then stores relu(d * acc) into the output window. On
    whole staging memrefs — the three inputs' at their contents, the output's at anything, the accumulator at `xs0` — the
    body runs to the continuation holding the inputs' as they were, the output's with its pieces written (`L3`) and the
    accumulator with its pieces written (`LS0`), last first: the pieces are the witness the run finds. -/
noncomputable def kernelRun1_C (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x2048 .bf16) (x1 : Vec F S2048x64 .bf16) (x2 : Vec F S2048x1 .f32) (xs0 : Vec F S2048x64 .f32) :
    Σ' (L3 : List (View.Piece (Elt F) S2048x64 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__gcn_layer_kernel i arg2 harg2 arg3 harg3 arg4 harg4 arg5 harg5 arg6 harg6) K } := by
  refine ⟨?_, ?_, fun E K => ?run⟩
  case run =>
    simp only [cc1__gcn_layer_kernel_eq_skeleton]; unfold cc1__gcn_layer_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.R1.Frame.lean ====
/- Region 1 (the first graph-convolution layer kernel), the frame half at a parameter `V`: what the output window and
   the scratch accumulator hold case by case (from the pieces the runs found) and point by point (`outsAt1`), the
   invariant carrying the accumulator from point to point (`PhiS1`), the proof data (`dat1`), the body obligation
   (`body_obligation1`) and the invariant's two ends (`hin1`, `hout1`). -/
import proofs.«177097_j68143951118910_2_alg».proof.Proof.K.R1.RunC

-- membership in a rectangle of large extents unfolds once per coordinate of the long axes, hence the deeper recursion bound
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A stores nothing into the output window (idle at its points and not written back there): no pieces — the
    value read back is arbitrary, and nothing depends on it. -/
def out1_A_3 (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : cond1_0 i) (hc1 : ¬cond1_1 i)
    (x0 : Vec F S2048x2048 .bf16) (x1 : Vec F S2048x64 .bf16) (x2 : Vec F S2048x1 .f32) : Vec F S2048x64 .f32 :=
  VO1_3.read (Elt F) (VO1_3.writes (Elt F) VO1_3.junk (kernelRun1_A c i arg2 harg2 arg3 harg3 arg4 harg4 arg5 harg5 arg6 harg6 hc0 hc1 x0 x1 x2).1)

/-- Case A's pieces for the scratch accumulator cover it (whole-buffer stores). -/
theorem scover1_A_0 (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : cond1_0 i) (hc1 : ¬cond1_1 i)
    (x0 : Vec F S2048x2048 .bf16) (x1 : Vec F S2048x64 .bf16) (x2 : Vec F S2048x1 .f32) (y : S2048x64.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S2048x64.size (by sl_kernel_rfl) y

/-- What case A leaves in the scratch accumulator: its pieces read back over junk. -/
def sout1_A_0 (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : cond1_0 i) (hc1 : ¬cond1_1 i)
    (x0 : Vec F S2048x2048 .bf16) (x1 : Vec F S2048x64 .bf16) (x2 : Vec F S2048x1 .f32) : Vec F S2048x64 .f32 :=
  VS1_0.read (Elt F) (VS1_0.writes (Elt F) VS1_0.junk (kernelRun1_A c i arg2 harg2 arg3 harg3 arg4 harg4 arg5 harg5 arg6 harg6 hc0 hc1 x0 x1 x2).2.1)

/-- Case B stores nothing into the output window (idle at its points and not written back there): no pieces — the
    value read back is arbitrary, and nothing depends on it. -/
def out1_B_3 (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : ¬cond1_1 i)
    (x0 : Vec F S2048x2048 .bf16) (x1 : Vec F S2048x64 .bf16) (x2 : Vec F S2048x1 .f32) (xs0 : Vec F S2048x64 .f32) : Vec F S2048x64 .f32 :=
  VO1_3.read (Elt F) (VO1_3.writes (Elt F) VO1_3.junk (kernelRun1_B c i arg2 harg2 arg3 harg3 arg4 harg4 arg5 harg5 arg6 harg6 hc0 hc1 x0 x1 x2 xs0).1)

/-- Case B's pieces for the scratch accumulator cover it (whole-buffer stores). -/
theorem scover1_B_0 (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : ¬cond1_1 i)
    (x0 : Vec F S2048x2048 .bf16) (x1 : Vec F S2048x64 .bf16) (x2 : Vec F S2048x1 .f32) (xs0 : Vec F S2048x64 .f32) (y : S2048x64.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S2048x64.size (by sl_kernel_rfl) y

/-- What case B leaves in the scratch accumulator: its pieces read back over junk. -/
def sout1_B_0 (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : ¬cond1_1 i)
    (x0 : Vec F S2048x2048 .bf16) (x1 : Vec F S2048x64 .bf16) (x2 : Vec F S2048x1 .f32) (xs0 : Vec F S2048x64 .f32) : Vec F S2048x64 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- Case C's pieces for the output window tile its block (one store of the whole block), so they cover it. -/
theorem cover1_C_3 (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x2048 .bf16) (x1 : Vec F S2048x64 .bf16) (x2 : Vec F S2048x1 .f32) (xs0 : Vec F S2048x64 .f32) (y : S2048x64.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S2048x64.size (by sl_kernel_rfl) y

/-- What case C leaves in the output window's staging buffer: its pieces read back over junk. -/
def out1_C_3 (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x2048 .bf16) (x1 : Vec F S2048x64 .bf16) (x2 : Vec F S2048x1 .f32) (xs0 : Vec F S2048x64 .f32) : Vec F S2048x64 .f32 :=
  VO1_3.read (Elt F) (VO1_3.writes (Elt F) VO1_3.junk (kernelRun1_C c i arg2 harg2 arg3 harg3 arg4 harg4 arg5 harg5 arg6 harg6 hc0 hc1 x0 x1 x2 xs0).1)

/-- Case C's pieces for the scratch accumulator cover it (whole-buffer stores). -/
theorem scover1_C_0 (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x2048 .bf16) (x1 : Vec F S2048x64 .bf16) (x2 : Vec F S2048x1 .f32) (xs0 : Vec F S2048x64 .f32) (y : S2048x64.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S2048x64.size (by sl_kernel_rfl) y

/-- What case C leaves in the scratch accumulator: its pieces read back over junk. -/
def sout1_C_0 (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x2048 .bf16) (x1 : Vec F S2048x64 .bf16) (x2 : Vec F S2048x1 .f32) (xs0 : Vec F S2048x64 .f32) : Vec F S2048x64 .f32 :=
  VS1_0.read (Elt F) (VS1_0.writes (Elt F) VS1_0.junk (kernelRun1_C c i arg2 harg2 arg3 harg3 arg4 harg4 arg5 harg5 arg6 harg6 hc0 hc1 x0 x1 x2 xs0).2.1)

section Region1
-- the core's buffer contents when the region is entered
variable (V : (c : Dev nD) → (b : Ref sig .tc) → Buf (Elt F) ((c : Thread nD τ).loc b))

/-! ## What the output window and the accumulator hold after each point -/

/-- THE ACCUMULATION. What the output window's staging buffer and the scratch accumulator hold after the body at position
    `n` (a pair: output, accumulator): the case k = n % 4 selects, run at the point's memrefs and input blocks, the
    accumulator in cases B and C over what this leaves at `n - 1`. The assignment "k = 0 and k = 3" is met by no point. -/
def outsAt1 (c : Dev nD) : (n : ℕ) → n < cfg1.N → Vec F S2048x64 .f32 × Vec F S2048x64 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point of case A: that case's contents. -/
theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the launch hands the region (the accumulator
    at anything); afterwards the accumulator at what the point before left in it (`outsAt1`'s second component), the
    other scoped buffers and the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(owns (c : Thread nD τ) scM1_0 fullShare ((outsAt1 V c n hn).2) ∗ others1 c) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ others1 c) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks (`before1_W`); k = t % 4 says which case the point is in;
    the case's run applies; the invariant hands the body the accumulator at what the point before left (at anything at
    the first point) and takes it back at this point's contents (the run's pieces cover it); the other scoped buffers,
    the generator register and what the core owes pass through untouched; in cases A and B the output window's buffer
    is handed back as found, in case C at the block stored. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 4 = 0
  · by_cases h1 : t.val % 4 = 3
    · exfalso; omega
    · -- case A (k = 0)
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hr⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitr [Hg]
          · isplitl [HS0]
            · unfold owns; iexists _; isplitr
              swap; · iexact HS0
              ipureintro; exact View.read_writes_of_cover _ _ _ _ _ (scover1_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hr⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hr Hg]
        · isplitr [Hg]
          · isplitl [HS0]
            · unfold owns; iexists _; isplitr
              swap; · iexact HS0
              ipureintro; exact View.read_writes_of_cover _ _ _ _ _ (scover1_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · by_cases h1 : t.val % 4 = 3
    · -- case C (k = 3)
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      by_cases hz : t.val = 0
      · exfalso; omega
      · rw [PhiS1_castSucc V c t, PhiS1_pos V c _ _ hz]
        iintro ⟨⟨⟨HS0, Hr⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hr Hg]
        · isplitr [Hg]
          · isplitl [HS0]
            · unfold owns; iexists _; isplitr
              swap; · iexact HS0
              ipureintro; exact View.read_writes_of_cover _ _ _ _ _ (scover1_C_0 c _ _ _ _ _ _ _ _ _ _ _ _ _ _ _ _ _)
            iexact Hr
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · -- case B (k = 1, 2)
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, Hr⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitr [Hg]
          · isplitl [HS0]
            · unfold owns; iexists _; isplitr
              swap; · iexact HS0
              ipureintro; exact View.read_writes_of_cover _ _ _ _ _ (scover1_B_0 c _ _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but none the invariant gives back what the launch handed the region: the accumulator's named contents
    are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitr [Hg]
  · isplitl [HS0]
    · iexists _; iexact HS0
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 16 := N_1; omega)

end Region1

end Cert.Kernel.Hand

end
-- ==== Proof.K.R2.Runs.lean ====
/- Region 2 (the second graph-convolution layer kernel, grid 4x4, point t = 4*i + k): what the runs of its body
   share, stated at a parameter `V` — the contents of the core's buffers when the region is entered. The windows'
   blocks read off `V`; the body's two branch conditions in closed form over the grid (k = 0: the accumulator is
   zeroed; k = 3: the output block relu(d * acc) is stored); where the output window is idle; the staging memrefs
   and the scratch accumulator the kernel carries from point to point. -/
import proofs.«177097_j68143951118910_2_alg».proof.Proof.Gen.Kernel.Launch
import proofs.«177097_j68143951118910_2_alg».proof.Proof.Gen.Kernel.Skeleton
import proofs.«177097_j68143951118910_2_alg».proof.Proof.Gen.Kernel.Points
import Idealize.ShloMosaic.Lib.Pipeline.FrameBody
import Idealize.ShloMosaic.Lib.Ring
import Idealize.ShloMosaic.Lib.Tactic

-- membership in a rectangle of large extents unfolds once per coordinate of the long axes, hence the deeper recursion bound
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the core's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the adjacency tile) holds its block at every point, for any proof data whose array is `V`'s and
    whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the feature tile, block index k) holds its block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the degree-scaling column, block index i) holds its block at every point, fetched there (k = 0)
    or not (its block index does not move along k). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end Region2

/-! ## The body's branch conditions -/

/-- The condition of the body's first conditional (k = 0: zero the accumulator), from the grid coordinates. -/
abbrev cond2_0 (i : grid2.Coords) : Prop := (Scalar.cmpi .ne (Scalar.extui (Scalar.cmpi .eq (BitVec.ofNat 32 (i 1).val) 0#32)) 0#32) = 1#1
/-- It holds at the points with k = 0 — decided over the grid. -/
theorem hcond2_0 : ∀ t : Fin cfg2.N, cond2_0 (grid2.coords t) ↔ t.val % 4 = 0 :=
  (by decide +kernel : ∀ t : Fin grid2.N, cond2_0 (grid2.coords t) ↔ t.val % 4 = 0)

/-- The condition of the body's second conditional (k = 3: store the output block), from the grid coordinates. -/
abbrev cond2_1 (i : grid2.Coords) : Prop := k2_cond2 i = 1#1
/-- It holds at the points with k = 3 — decided over the grid. -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

/-- The input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- At the points of case A (k = 0) the output window is idle: the case stores nothing into it, -/
theorem idleAt2_3_A : ∀ t : Fin cfg2.N, cond2_0 (grid2.coords t) → ¬cond2_1 (grid2.coords t) → cfg2.idle 3 (grid2.coords t) = true := by decide +kernel
/-- and its block is not written back there. -/
theorem noFlush2_3_A : ∀ t : Fin cfg2.N, cond2_0 (grid2.coords t) → ¬cond2_1 (grid2.coords t) → (cfg2.win 3).flush t = false := by decide +kernel
/-- At the points of case B (k = 1, 2) the output window is idle, -/
theorem idleAt2_3_B : ∀ t : Fin cfg2.N, ¬cond2_0 (grid2.coords t) → ¬cond2_1 (grid2.coords t) → cfg2.idle 3 (grid2.coords t) = true := by decide +kernel
/-- and its block is not written back there. -/
theorem noFlush2_3_B : ∀ t : Fin cfg2.N, ¬cond2_0 (grid2.coords t) → ¬cond2_1 (grid2.coords t) → (cfg2.win 3).flush t = false := by decide +kernel
/-- At the points of case C (k = 3) the output window is live: the case stores into it. -/
theorem liveAt2_3_C : ∀ t : Fin cfg2.N, ¬cond2_0 (grid2.coords t) → cond2_1 (grid2.coords t) → cfg2.idle 3 (grid2.coords t) = false := by decide +kernel

/-! ## The staging memrefs and the scratch accumulator -/

/-- One staging buffer of the output window, through which its contents are stated (the choice does not matter). -/
abbrev VO2_3 : View sig .tc .vmem S2048x64 .f32 := (Memref.whole cc2_stg3_0 : Memref sig .tc .vmem S2048x64 .f32).view
/-- Each window's current staging memref at point `t`, spelled as the pipeline passes it, and its wholeness. -/
abbrev ms2_0 (t : Fin cfg2.N) : Memref sig .tc .vmem S2048x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x64 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x64 .f32 := win2_3.stage (cfg2.slots t 3)
abbrev hs2_3 (t : Fin cfg2.N) : (ms2_3 t).IsWhole := hstage2_3 ((cfg2.slots t 3).cast nbuf2_3)
/-- The scratch accumulator: a whole scoped buffer of the kernel's own, passed beside the windows. -/
abbrev scM2_0 : Memref sig .tc .vmem S2048x64 .f32 := Memref.whole cc2_scratch0
/-- The same as a view: what it holds is stated through it. -/
abbrev VS2_0 : View sig .tc .vmem S2048x64 .f32 := scM2_0.view

/-- The core's scoped buffers that are neither a staging buffer of this region nor its scratch accumulator (the other
    regions' staging buffers and scratch), each whole at some contents: the region never touches them. -/
def others2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The region's invariant gives the scratch accumulator as a memref owned at some contents, beside the other scoped
    buffers and the generator register (the launch lists the scoped buffers in their declared order, the accumulator
    last), -/
theorem PhiA2_split (c : Dev nD) :
    (Pipeline.ΦA spec2 c : sProp 𝕄) ⊢ iprop(iprop((∃ d, owns (c : Thread nD τ) scM2_0 fullShare d) ∗ others2 c) ∗ (∃ r, prngReg c r)) := by
  unfold Pipeline.ΦA others2; rw [scopedRest2_eq]; simp only [scM2_0, owns_whole]
  iintro ⟨⟨B1, B2, B3, B4, B5, B6, B7, B8, B9, B10, B11, B12, B13, B14, B15, HS⟩, Hg⟩
  isplitr [Hg]
  · isplitl [HS]; · iexact HS
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [B14]; · iexact B14
    iexact B15
  iexact Hg

/-- and is given back by them. -/
theorem PhiA2_join (c : Dev nD) :
    iprop(iprop((∃ d, owns (c : Thread nD τ) scM2_0 fullShare d) ∗ others2 c) ∗ (∃ r, prngReg c r)) ⊢ (Pipeline.ΦA spec2 c : sProp 𝕄) := by
  unfold Pipeline.ΦA others2; rw [scopedRest2_eq]; simp only [scM2_0, owns_whole]
  iintro ⟨⟨HS, B1, B2, B3, B4, B5, B6, B7, B8, B9, B10, B11, B12, B13, B14, B15⟩, Hg⟩
  isplitr [Hg]
  ·
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [B14]; · iexact B14
    isplitl [B15]; · iexact B15
    iexact HS
  iexact Hg

/-- The two are equal (entailment is antisymmetric): what the body obligation hands the run and takes back. -/
theorem PhiA2_eq (c : Dev nD) :
    (Pipeline.ΦA spec2 c : sProp 𝕄) = iprop(iprop((∃ d, owns (c : Thread nD τ) scM2_0 fullShare d) ∗ others2 c) ∗ (∃ r, prngReg c r)) :=
  Entails.antisymm (PhiA2_split c) (PhiA2_join c)

end Cert.Kernel.Hand

end
-- ==== Proof.K.R2.RunA.lean ====
/- Region 2, case A of the body's run: the body's triple over its skeleton, the pieces each buffer ends with found by the
   run. Each of the three cases of the body is treated by itself. -/
import proofs.«177097_j68143951118910_2_alg».proof.Proof.K.R2.Runs

-- membership in a rectangle of large extents unfolds once per coordinate of the long axes, hence the deeper recursion bound
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- CASE A (k = 0; the first conditional taken, the second not). The body zeroes the accumulator and then stores into it
    the sum of what it then holds and the tile product; it stores nothing into the output window. On whole staging
    memrefs — the three inputs' at their contents, the output's at contents `xi3` handed back untouched, the accumulator at
    anything — the body runs to the continuation holding the inputs' as they were, the output's untouched and the
    accumulator with its pieces written (`LS0`, last first): the pieces are the witness the run finds. -/
noncomputable def kernelRun2_A (c : Dev nD) (i : grid2.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : cond2_0 i) (hc1 : ¬cond2_1 i)
    (x0 : Vec F S2048x2048 .bf16) (x1 : Vec F S2048x64 .bf16) (x2 : Vec F S2048x1 .f32) :
    Σ' (L3 : List (View.Piece (Elt F) S2048x64 .f32)), { LS0 : List (View.Piece (Elt F) S2048x64 .f32) //
      ∀ (xi3 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__gcn_layer_kernel i arg2 harg2 arg3 harg3 arg4 harg4 arg5 harg5 arg6 harg6) K } := by
  refine ⟨[], ?_, fun xi3 E K => ?run⟩
  case run =>
    simp only [cc2__gcn_layer_kernel_eq_skeleton]; unfold cc2__gcn_layer_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.R2.RunB.lean ====
/- Region 2, case B of the body's run: the body's triple over its skeleton, the pieces each buffer ends with found by the
   run. Each of the three cases of the body is treated by itself. -/
import proofs.«177097_j68143951118910_2_alg».proof.Proof.K.R2.RunA

-- membership in a rectangle of large extents unfolds once per coordinate of the long axes, hence the deeper recursion bound
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- CASE B (k = 1, 2; neither conditional taken). The body stores into the accumulator the sum of what the point
    before left in it (`xs0`) and the tile product; it stores nothing into the output window. On whole staging memrefs —
    the three inputs' at their contents, the output's at contents `xi3` handed back untouched, the accumulator at `xs0` —
    the body runs to the continuation holding the inputs' as they were, the output's untouched and the accumulator with
    its pieces written (`LS0`, last first): the pieces are the witness the run finds. -/
noncomputable def kernelRun2_B (c : Dev nD) (i : grid2.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : ¬cond2_0 i) (hc1 : ¬cond2_1 i)
    (x0 : Vec F S2048x2048 .bf16) (x1 : Vec F S2048x64 .bf16) (x2 : Vec F S2048x1 .f32) (xs0 : Vec F S2048x64 .f32) :
    Σ' (L3 : List (View.Piece (Elt F) S2048x64 .f32)), { LS0 : List (View.Piece (Elt F) S2048x64 .f32) //
      ∀ (xi3 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__gcn_layer_kernel i arg2 harg2 arg3 harg3 arg4 harg4 arg5 harg5 arg6 harg6) K } := by
  refine ⟨[], ?_, fun xi3 E K => ?run⟩
  case run =>
    simp only [cc2__gcn_layer_kernel_eq_skeleton]; unfold cc2__gcn_layer_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.R2.RunC.lean ====
/- Region 2, case C of the body's run: the body's triple over its skeleton, the pieces each buffer ends with found by the
   run. Each of the three cases of the body is treated by itself. -/
import proofs.«177097_j68143951118910_2_alg».proof.Proof.K.R2.RunB

-- membership in a rectangle of large extents unfolds once per coordinate of the long axes, hence the deeper recursion bound
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- CASE C (k = 3; the first conditional not taken, the second taken). The body stores into the accumulator the sum of
    what the point before left in it (`xs0`) and the tile product, then stores relu(d * acc) into the output window. On
    whole staging memrefs — the three inputs' at their contents, the output's at anything, the accumulator at `xs0` — the
    body runs to the continuation holding the inputs' as they were, the output's with its pieces written (`L3`) and the
    accumulator with its pieces written (`LS0`), last first: the pieces are the witness the run finds. -/
noncomputable def kernelRun2_C (c : Dev nD) (i : grid2.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : ¬cond2_0 i) (hc1 : cond2_1 i)
    (x0 : Vec F S2048x2048 .bf16) (x1 : Vec F S2048x64 .bf16) (x2 : Vec F S2048x1 .f32) (xs0 : Vec F S2048x64 .f32) :
    Σ' (L3 : List (View.Piece (Elt F) S2048x64 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__gcn_layer_kernel i arg2 harg2 arg3 harg3 arg4 harg4 arg5 harg5 arg6 harg6) K } := by
  refine ⟨?_, ?_, fun E K => ?run⟩
  case run =>
    simp only [cc2__gcn_layer_kernel_eq_skeleton]; unfold cc2__gcn_layer_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.R2.Frame.lean ====
/- Region 2 (the second graph-convolution layer kernel), the frame half at a parameter `V`: what the output window and
   the scratch accumulator hold case by case (from the pieces the runs found) and point by point (`outsAt2`), the
   invariant carrying the accumulator from point to point (`PhiS2`), the proof data (`dat2`), the body obligation
   (`body_obligation2`) and the invariant's two ends (`hin2`, `hout2`). -/
import proofs.«177097_j68143951118910_2_alg».proof.Proof.K.R2.RunC

-- membership in a rectangle of large extents unfolds once per coordinate of the long axes, hence the deeper recursion bound
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A stores nothing into the output window (idle at its points and not written back there): no pieces — the
    value read back is arbitrary, and nothing depends on it. -/
def out2_A_3 (c : Dev nD) (i : grid2.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : cond2_0 i) (hc1 : ¬cond2_1 i)
    (x0 : Vec F S2048x2048 .bf16) (x1 : Vec F S2048x64 .bf16) (x2 : Vec F S2048x1 .f32) : Vec F S2048x64 .f32 :=
  VO2_3.read (Elt F) (VO2_3.writes (Elt F) VO2_3.junk (kernelRun2_A c i arg2 harg2 arg3 harg3 arg4 harg4 arg5 harg5 arg6 harg6 hc0 hc1 x0 x1 x2).1)

/-- Case A's pieces for the scratch accumulator cover it (whole-buffer stores). -/
theorem scover2_A_0 (c : Dev nD) (i : grid2.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : cond2_0 i) (hc1 : ¬cond2_1 i)
    (x0 : Vec F S2048x2048 .bf16) (x1 : Vec F S2048x64 .bf16) (x2 : Vec F S2048x1 .f32) (y : S2048x64.Idx) :
    ∃ pc ∈ (kernelRun2_A c i arg2 harg2 arg3 harg3 arg4 harg4 arg5 harg5 arg6 harg6 hc0 hc1 x0 x1 x2).2.1, y ∈ pc.1.set :=
  View.cover_of_tiledL (kernelRun2_A c i arg2 harg2 arg3 harg3 arg4 harg4 arg5 harg5 arg6 harg6 hc0 hc1 x0 x1 x2).2.1 S2048x64.size (by sl_kernel_rfl) y

/-- What case A leaves in the scratch accumulator: its pieces read back over junk. -/
def sout2_A_0 (c : Dev nD) (i : grid2.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : cond2_0 i) (hc1 : ¬cond2_1 i)
    (x0 : Vec F S2048x2048 .bf16) (x1 : Vec F S2048x64 .bf16) (x2 : Vec F S2048x1 .f32) : Vec F S2048x64 .f32 :=
  VS2_0.read (Elt F) (VS2_0.writes (Elt F) VS2_0.junk (kernelRun2_A c i arg2 harg2 arg3 harg3 arg4 harg4 arg5 harg5 arg6 harg6 hc0 hc1 x0 x1 x2).2.1)

/-- Case B stores nothing into the output window (idle at its points and not written back there): no pieces — the
    value read back is arbitrary, and nothing depends on it. -/
def out2_B_3 (c : Dev nD) (i : grid2.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : ¬cond2_0 i) (hc1 : ¬cond2_1 i)
    (x0 : Vec F S2048x2048 .bf16) (x1 : Vec F S2048x64 .bf16) (x2 : Vec F S2048x1 .f32) (xs0 : Vec F S2048x64 .f32) : Vec F S2048x64 .f32 :=
  VO2_3.read (Elt F) (VO2_3.writes (Elt F) VO2_3.junk (kernelRun2_B c i arg2 harg2 arg3 harg3 arg4 harg4 arg5 harg5 arg6 harg6 hc0 hc1 x0 x1 x2 xs0).1)

/-- Case B's pieces for the scratch accumulator cover it (whole-buffer stores). -/
theorem scover2_B_0 (c : Dev nD) (i : grid2.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : ¬cond2_0 i) (hc1 : ¬cond2_1 i)
    (x0 : Vec F S2048x2048 .bf16) (x1 : Vec F S2048x64 .bf16) (x2 : Vec F S2048x1 .f32) (xs0 : Vec F S2048x64 .f32) (y : S2048x64.Idx) :
    ∃ pc ∈ (kernelRun2_B c i arg2 harg2 arg3 harg3 arg4 harg4 arg5 harg5 arg6 harg6 hc0 hc1 x0 x1 x2 xs0).2.1, y ∈ pc.1.set :=
  View.cover_of_tiledL (kernelRun2_B c i arg2 harg2 arg3 harg3 arg4 harg4 arg5 harg5 arg6 harg6 hc0 hc1 x0 x1 x2 xs0).2.1 S2048x64.size (by sl_kernel_rfl) y

/-- What case B leaves in the scratch accumulator: its pieces read back over junk. -/
def sout2_B_0 (c : Dev nD) (i : grid2.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : ¬cond2_0 i) (hc1 : ¬cond2_1 i)
    (x0 : Vec F S2048x2048 .bf16) (x1 : Vec F S2048x64 .bf16) (x2 : Vec F S2048x1 .f32) (xs0 : Vec F S2048x64 .f32) : Vec F S2048x64 .f32 :=
  VS2_0.read (Elt F) (VS2_0.writes (Elt F) VS2_0.junk (kernelRun2_B c i arg2 harg2 arg3 harg3 arg4 harg4 arg5 harg5 arg6 harg6 hc0 hc1 x0 x1 x2 xs0).2.1)

/-- Case C's pieces for the output window tile its block (one store of the whole block), so they cover it. -/
theorem cover2_C_3 (c : Dev nD) (i : grid2.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : ¬cond2_0 i) (hc1 : cond2_1 i)
    (x0 : Vec F S2048x2048 .bf16) (x1 : Vec F S2048x64 .bf16) (x2 : Vec F S2048x1 .f32) (xs0 : Vec F S2048x64 .f32) (y : S2048x64.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S2048x64.size (by sl_kernel_rfl) y

/-- What case C leaves in the output window's staging buffer: its pieces read back over junk. -/
def out2_C_3 (c : Dev nD) (i : grid2.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : ¬cond2_0 i) (hc1 : cond2_1 i)
    (x0 : Vec F S2048x2048 .bf16) (x1 : Vec F S2048x64 .bf16) (x2 : Vec F S2048x1 .f32) (xs0 : Vec F S2048x64 .f32) : Vec F S2048x64 .f32 :=
  VO2_3.read (Elt F) (VO2_3.writes (Elt F) VO2_3.junk (kernelRun2_C c i arg2 harg2 arg3 harg3 arg4 harg4 arg5 harg5 arg6 harg6 hc0 hc1 x0 x1 x2 xs0).1)

/-- Case C's pieces for the scratch accumulator cover it (whole-buffer stores). -/
theorem scover2_C_0 (c : Dev nD) (i : grid2.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : ¬cond2_0 i) (hc1 : cond2_1 i)
    (x0 : Vec F S2048x2048 .bf16) (x1 : Vec F S2048x64 .bf16) (x2 : Vec F S2048x1 .f32) (xs0 : Vec F S2048x64 .f32) (y : S2048x64.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S2048x64.size (by sl_kernel_rfl) y

/-- What case C leaves in the scratch accumulator: its pieces read back over junk. -/
def sout2_C_0 (c : Dev nD) (i : grid2.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : ¬cond2_0 i) (hc1 : cond2_1 i)
    (x0 : Vec F S2048x2048 .bf16) (x1 : Vec F S2048x64 .bf16) (x2 : Vec F S2048x1 .f32) (xs0 : Vec F S2048x64 .f32) : Vec F S2048x64 .f32 :=
  VS2_0.read (Elt F) (VS2_0.writes (Elt F) VS2_0.junk (kernelRun2_C c i arg2 harg2 arg3 harg3 arg4 harg4 arg5 harg5 arg6 harg6 hc0 hc1 x0 x1 x2 xs0).2.1)

section Region2
-- the core's buffer contents when the region is entered
variable (V : (c : Dev nD) → (b : Ref sig .tc) → Buf (Elt F) ((c : Thread nD τ).loc b))

/-! ## What the output window and the accumulator hold after each point -/

/-- THE ACCUMULATION. What the output window's staging buffer and the scratch accumulator hold after the body at position
    `n` (a pair: output, accumulator): the case k = n % 4 selects, run at the point's memrefs and input blocks, the
    accumulator in cases B and C over what this leaves at `n - 1`. The assignment "k = 0 and k = 3" is met by no point. -/
def outsAt2 (c : Dev nD) : (n : ℕ) → n < cfg2.N → Vec F S2048x64 .f32 × Vec F S2048x64 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 4 = 0 then
      if h1 : (n + 1) % 4 = 3 then
        False.elim (by omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 4 = 3 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

/-- `outsAt2` at a point of case A: that case's contents. -/
theorem outsAt2_A (c : Dev nD) (t : Fin cfg2.N) (h0 : t.val % 4 = 0) (h1 : ¬t.val % 4 = 3) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 4 = 0) (h1 : ¬t.val % 4 = 3) :
    outsAt2 V c t.val t.isLt = (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left. -/
theorem outsAt2_C (c : Dev nD) (t : Fin cfg2.N) (h0 : ¬t.val % 4 = 0) (h1 : t.val % 4 = 3) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the launch hands the region (the accumulator
    at anything); afterwards the accumulator at what the point before left in it (`outsAt2`'s second component), the
    other scoped buffers and the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ others2 c) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulator at that point's contents. -/
theorem PhiS2_succ (c : Dev nD) (n : ℕ) (hn : n < cfg2.N) :
    PhiS2 V c (n + 1) hn = iprop(iprop(owns (c : Thread nD τ) scM2_0 fullShare ((outsAt2 V c n hn).2) ∗ others2 c) ∗ (∃ r, prngReg c r)) := rfl

/-- Before a point that is not the first: the accumulator at what the point before left. -/
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ others2 c) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block and the output's at `outsAt2`'s first component; the invariant `PhiS2`;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start (the proof data at `t.castSucc`), restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks (`before2_W`); k = t % 4 says which case the point is in;
    the case's run applies; the invariant hands the body the accumulator at what the point before left (at anything at
    the first point) and takes it back at this point's contents (the run's pieces cover it); the other scoped buffers,
    the generator register and what the core owes pass through untouched; in cases A and B the output window's buffer
    is handed back as found, in case C at the block stored. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 4 = 0
  · by_cases h1 : t.val % 4 = 3
    · exfalso; omega
    · -- case A (k = 0)
      rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, Hr⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitr [Hg]
          · isplitl [HS0]
            · unfold owns; iexists _; isplitr
              swap; · iexact HS0
              ipureintro; exact View.read_writes_of_cover _ _ _ _ _ (scover2_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      · rw [PhiS2_castSucc V c t, PhiS2_pos V c _ _ hz]
        iintro ⟨⟨⟨HS0, Hr⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hr Hg]
        · isplitr [Hg]
          · isplitl [HS0]
            · unfold owns; iexists _; isplitr
              swap; · iexact HS0
              ipureintro; exact View.read_writes_of_cover _ _ _ _ _ (scover2_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · by_cases h1 : t.val % 4 = 3
    · -- case C (k = 3)
      rw [show (dat2 V c).leavesExact 3 t = owns (c : Thread nD τ) (ms2_3 t) fullShare ((dat2 V c).after 3 t) from by
        unfold Dat.leavesExact; rw [liveAt2_3_C t (fun h => h0 ((hcond2_0 t).mp h)) ((hcond2_1 t).mpr h1)], after2_3]
      rw [outsAt2_C V c t h0 h1]
      unfold out2_C_3 sout2_C_0; (try dsimp only)
      by_cases hz : t.val = 0
      · exfalso; omega
      · rw [PhiS2_castSucc V c t, PhiS2_pos V c _ _ hz]
        iintro ⟨⟨⟨HS0, Hr⟩, Hg⟩, Ho, ⟨%d0, H0⟩, ⟨%d1, H1⟩, ⟨%d2, H2⟩, ⟨%d3, H3⟩⟩
        iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hr Hg]
        · isplitr [Hg]
          · isplitl [HS0]
            · unfold owns; iexists _; isplitr
              swap; · iexact HS0
              ipureintro; exact View.read_writes_of_cover _ _ _ _ _ (scover2_C_0 c _ _ _ _ _ _ _ _ _ _ _ _ _ _ _ _ _)
            iexact Hr
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover2_C_3 c _ _ _ _ _ _ _ _ _ _ _ _ _ _ _ _ _)
    · -- case B (k = 1, 2)
      rw [Dat.leavesExact_idle (dat2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨⟨HS0, Hr⟩, Hg⟩, Ho, ⟨%d0, H0⟩, ⟨%d1, H1⟩, ⟨%d2, H2⟩, ⟨%d3, H3⟩⟩
        iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitr [Hg]
          · isplitl [HS0]
            · unfold owns; iexists _; isplitr
              swap; · iexact HS0
              ipureintro; exact View.read_writes_of_cover _ _ _ _ _ (scover2_B_0 c _ _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but none the invariant gives back what the launch handed the region: the accumulator's named contents
    are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hr⟩, Hg⟩
  isplitr [Hg]
  · isplitl [HS0]
    · iexists _; iexact HS0
    iexact Hr
  iexact Hg

/-- The same after the last point. -/
theorem hout2 (c : Dev nD) : (dat2 V c).Φ (Fin.last cfg2.N) ⊢ Pipeline.ΦA spec2 c :=
  Phi_out2 V c _ (by rw [Fin.val_last]; have : cfg2.N = 16 := N_2; omega)

end Region2

end Cert.Kernel.Hand

end
-- ==== Proof.K.Run.lean ====
/- The kernel program's run, assembled over the ten items of its @main: region 0 (the row sums and the copy of the
   adjacency matrix), five stretches of host operations (the normalizing factors d and the first layer's scaled features),
   region 1 (the first graph-convolution layer), a stretch (the second layer's scaled features), region 2 (the second
   layer), a stretch (the linear head).

   The buffers' contents are folded through the items from the launch memory: a stretch applies its operations; a region
   replaces its windows' arrays by what its write-backs leave and touches nothing else. Each region is entered with every
   unscoped buffer at the fold's contents there and leaves them at the next; the launch theorem for a list of segments
   composes them. Its post names every unscoped buffer after the run, from which the frame (the arguments end as
   launched, since no item writes one) and the result's contents are read. Everything here holds at any float instance. -/
import proofs.«177097_j68143951118910_2_alg».proof.Proof.Gen.Kernel.Launch
import proofs.«177097_j68143951118910_2_alg».proof.Proof.Gen.Kernel.Skeleton
import proofs.«177097_j68143951118910_2_alg».proof.Proof.Gen.Kernel.Points
import proofs.«177097_j68143951118910_2_alg».proof.Proof.K.R0.Frame
import proofs.«177097_j68143951118910_2_alg».proof.Proof.K.R1.Frame
import proofs.«177097_j68143951118910_2_alg».proof.Proof.K.R2.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary of @main: a fold from the launch memory

@main is: region 0; five stretches of host operations; region 1; a stretch; region 2; a stretch. `Bj` is what core `c`'s
buffers hold after item j-1. -/

/-- Core `c`'s buffers at launch. -/
abbrev B0 : Dev nD → Valuation τ sig (Elt F) := fun c b => (s₀ m ρ).mem ((c : Dev nD), b)
/-- The same read at the TensorCore's references (what region 0's proof data take). -/
abbrev VB0 : (c : Dev nD) → (b : Ref sig .tc) → Buf (Elt F) ((c : Thread nD τ).loc b) := fun c b => B0 m ρ c b
/-- At region 0's exit: its arrays at what the pipeline leaves (the inputs as entered, each output's write-backs folded),
    every other buffer as entered. -/
def B1 (c : Dev nD) : Valuation τ sig (Elt F) :=
  Pipeline.withArrays spec0 c (B0 m ρ c) fun w => (dat0 (VB0 m ρ) c).arrAt w cfg0.N
theorem B1_arr (c : Dev nD) (w : Fin cfg0.W) :
    B1 m ρ c (Proc.devRef .tc (Pipeline.arrRef spec0 w)) = (dat0 (VB0 m ρ) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m ρ c (Proc.devRef .tc b) = B0 m ρ c (Proc.devRef .tc b) := by
  unfold B1; exact Pipeline.withArrays_of_ne spec0 c _ _ b hb
/-- The same read at the TensorCore's references (region 0's exit contents). -/
abbrev VB1 : (c : Dev nD) → (b : Ref sig .tc) → Buf (Elt F) ((c : Thread nD τ).loc b) := fun c b => B1 m ρ c b
theorem hF0 (c : Dev nD) (w : Fin cfg0.W) : (dat0 (VB0 m ρ) c).arrAt w cfg0.N = VB1 m ρ c (Pipeline.arrRef spec0 w) :=
  (B1_arr m ρ c w).symm
theorem hrest0 (c : Dev nD) : ∀ b, b ∉ Finset.univ.image (Pipeline.arrRef spec0) → VB1 m ρ c b = VB0 m ρ c b :=
  fun b hb => B1_of_ne m ρ c b fun w e => hb (Finset.mem_image.mpr ⟨w, Finset.mem_univ _, e⟩)

abbrev B2 : Dev nD → Valuation τ sig (Elt F) := fun c => StableHlo.after hostOps1 (B1 m ρ c)
abbrev B3 : Dev nD → Valuation τ sig (Elt F) := fun c => StableHlo.after hostOps1_1 (B2 m ρ c)
abbrev B4 : Dev nD → Valuation τ sig (Elt F) := fun c => StableHlo.after hostOps1_2 (B3 m ρ c)
abbrev B5 : Dev nD → Valuation τ sig (Elt F) := fun c => StableHlo.after hostOps1_3 (B4 m ρ c)
abbrev B6 : Dev nD → Valuation τ sig (Elt F) := fun c => StableHlo.after hostOps1_4 (B5 m ρ c)
/-- The same read at the TensorCore's references (what region 1's proof data take). -/
abbrev VB6 : (c : Dev nD) → (b : Ref sig .tc) → Buf (Elt F) ((c : Thread nD τ).loc b) := fun c b => B6 m ρ c b
/-- At region 1's exit: its arrays at what the pipeline leaves (the inputs as entered, each output's write-backs folded),
    every other buffer as entered. -/
def B7 (c : Dev nD) : Valuation τ sig (Elt F) :=
  Pipeline.withArrays spec1 c (B6 m ρ c) fun w => (dat1 (VB6 m ρ) c).arrAt w cfg1.N
theorem B7_arr (c : Dev nD) (w : Fin cfg1.W) :
    B7 m ρ c (Proc.devRef .tc (Pipeline.arrRef spec1 w)) = (dat1 (VB6 m ρ) c).arrAt w cfg1.N := by
  unfold B7; exact Pipeline.withArrays_arr spec1 launch1.win.arr_inj c _ _ w
theorem B7_of_ne (c : Dev nD) (b : Ref sig .tc) (hb : ∀ w, Pipeline.arrRef spec1 w ≠ b) :
    B7 m ρ c (Proc.devRef .tc b) = B6 m ρ c (Proc.devRef .tc b) := by
  unfold B7; exact Pipeline.withArrays_of_ne spec1 c _ _ b hb
/-- The same read at the TensorCore's references (region 1's exit contents). -/
abbrev VB7 : (c : Dev nD) → (b : Ref sig .tc) → Buf (Elt F) ((c : Thread nD τ).loc b) := fun c b => B7 m ρ c b
theorem hF1 (c : Dev nD) (w : Fin cfg1.W) : (dat1 (VB6 m ρ) c).arrAt w cfg1.N = VB7 m ρ c (Pipeline.arrRef spec1 w) :=
  (B7_arr m ρ c w).symm
theorem hrest1 (c : Dev nD) : ∀ b, b ∉ Finset.univ.image (Pipeline.arrRef spec1) → VB7 m ρ c b = VB6 m ρ c b :=
  fun b hb => B7_of_ne m ρ c b fun w e => hb (Finset.mem_image.mpr ⟨w, Finset.mem_univ _, e⟩)

abbrev B8 : Dev nD → Valuation τ sig (Elt F) := fun c => StableHlo.after hostOps2 (B7 m ρ c)
/-- The same read at the TensorCore's references (what region 2's proof data take). -/
abbrev VB8 : (c : Dev nD) → (b : Ref sig .tc) → Buf (Elt F) ((c : Thread nD τ).loc b) := fun c b => B8 m ρ c b
/-- At region 2's exit: its arrays at what the pipeline leaves (the inputs as entered, each output's write-backs folded),
    every other buffer as entered. -/
def B9 (c : Dev nD) : Valuation τ sig (Elt F) :=
  Pipeline.withArrays spec2 c (B8 m ρ c) fun w => (dat2 (VB8 m ρ) c).arrAt w cfg2.N
theorem B9_arr (c : Dev nD) (w : Fin cfg2.W) :
    B9 m ρ c (Proc.devRef .tc (Pipeline.arrRef spec2 w)) = (dat2 (VB8 m ρ) c).arrAt w cfg2.N := by
  unfold B9; exact Pipeline.withArrays_arr spec2 launch2.win.arr_inj c _ _ w
theorem B9_of_ne (c : Dev nD) (b : Ref sig .tc) (hb : ∀ w, Pipeline.arrRef spec2 w ≠ b) :
    B9 m ρ c (Proc.devRef .tc b) = B8 m ρ c (Proc.devRef .tc b) := by
  unfold B9; exact Pipeline.withArrays_of_ne spec2 c _ _ b hb
/-- The same read at the TensorCore's references (region 2's exit contents). -/
abbrev VB9 : (c : Dev nD) → (b : Ref sig .tc) → Buf (Elt F) ((c : Thread nD τ).loc b) := fun c b => B9 m ρ c b
theorem hF2 (c : Dev nD) (w : Fin cfg2.W) : (dat2 (VB8 m ρ) c).arrAt w cfg2.N = VB9 m ρ c (Pipeline.arrRef spec2 w) :=
  (B9_arr m ρ c w).symm
theorem hrest2 (c : Dev nD) : ∀ b, b ∉ Finset.univ.image (Pipeline.arrRef spec2) → VB9 m ρ c b = VB8 m ρ c b :=
  fun b hb => B9_of_ne m ρ c b fun w e => hb (Finset.mem_image.mpr ⟨w, Finset.mem_univ _, e⟩)

abbrev B10 : Dev nD → Valuation τ sig (Elt F) := fun c => StableHlo.after hostOps3 (B9 m ρ c)

/-! ## The arguments end as launched: no host operation writes one, and a region either reads it through an input window
    or does not touch it -/

theorem B10_main_arg0 (c : Dev nD) : B10 m ρ c (Proc.devRef .tc main_arg0) = m ((c : Thread nD τ).loc main_arg0) :=
  calc B10 m ρ c (Proc.devRef .tc main_arg0)
    _ = B9 m ρ c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B8 m ρ c (Proc.devRef .tc main_arg0) := B9_of_ne m ρ c main_arg0 (by decide)
    _ = B7 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B6 m ρ c (Proc.devRef .tc main_arg0) := B7_of_ne m ρ c main_arg0 (by decide)
    _ = B5 m ρ c (Proc.devRef .tc main_arg0) := StableHlo.after_of_forall_not_mem (b := Proc.devRef .tc main_arg0) _ _ (List.forall_iff_forall_mem.mp (by
          simp only [hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B4 m ρ c (Proc.devRef .tc main_arg0) := StableHlo.after_of_forall_not_mem (b := Proc.devRef .tc main_arg0) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B3 m ρ c (Proc.devRef .tc main_arg0) := StableHlo.after_of_forall_not_mem (b := Proc.devRef .tc main_arg0) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B2 m ρ c (Proc.devRef .tc main_arg0) := StableHlo.after_of_forall_not_mem (b := Proc.devRef .tc main_arg0) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B0 m ρ c (Proc.devRef .tc main_arg0) := (B1_arr m ρ c 0).trans (((dat0 (VB0 m ρ) c).arrAt_in 0 rfl _).trans (A_eq0 (VB0 m ρ) c 0))
    _ = m ((c : Thread nD τ).loc main_arg0) := rfl

theorem B10_main_arg1 (c : Dev nD) : B10 m ρ c (Proc.devRef .tc main_arg1) = m ((c : Thread nD τ).loc main_arg1) :=
  calc B10 m ρ c (Proc.devRef .tc main_arg1)
    _ = B9 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B8 m ρ c (Proc.devRef .tc main_arg1) := B9_of_ne m ρ c main_arg1 (by decide)
    _ = B7 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B6 m ρ c (Proc.devRef .tc main_arg1) := B7_of_ne m ρ c main_arg1 (by decide)
    _ = B5 m ρ c (Proc.devRef .tc main_arg1) := StableHlo.after_of_forall_not_mem (b := Proc.devRef .tc main_arg1) _ _ (List.forall_iff_forall_mem.mp (by
          simp only [hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B4 m ρ c (Proc.devRef .tc main_arg1) := StableHlo.after_of_forall_not_mem (b := Proc.devRef .tc main_arg1) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B3 m ρ c (Proc.devRef .tc main_arg1) := StableHlo.after_of_forall_not_mem (b := Proc.devRef .tc main_arg1) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B2 m ρ c (Proc.devRef .tc main_arg1) := StableHlo.after_of_forall_not_mem (b := Proc.devRef .tc main_arg1) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B0 m ρ c (Proc.devRef .tc main_arg1) := B1_of_ne m ρ c main_arg1 (by decide)
    _ = m ((c : Thread nD τ).loc main_arg1) := rfl

theorem B10_main_arg2 (c : Dev nD) : B10 m ρ c (Proc.devRef .tc main_arg2) = m ((c : Thread nD τ).loc main_arg2) :=
  calc B10 m ρ c (Proc.devRef .tc main_arg2)
    _ = B9 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B8 m ρ c (Proc.devRef .tc main_arg2) := B9_of_ne m ρ c main_arg2 (by decide)
    _ = B7 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B6 m ρ c (Proc.devRef .tc main_arg2) := B7_of_ne m ρ c main_arg2 (by decide)
    _ = B5 m ρ c (Proc.devRef .tc main_arg2) := StableHlo.after_of_forall_not_mem (b := Proc.devRef .tc main_arg2) _ _ (List.forall_iff_forall_mem.mp (by
          simp only [hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B4 m ρ c (Proc.devRef .tc main_arg2) := StableHlo.after_of_forall_not_mem (b := Proc.devRef .tc main_arg2) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B3 m ρ c (Proc.devRef .tc main_arg2) := StableHlo.after_of_forall_not_mem (b := Proc.devRef .tc main_arg2) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B2 m ρ c (Proc.devRef .tc main_arg2) := StableHlo.after_of_forall_not_mem (b := Proc.devRef .tc main_arg2) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B0 m ρ c (Proc.devRef .tc main_arg2) := B1_of_ne m ρ c main_arg2 (by decide)
    _ = m ((c : Thread nD τ).loc main_arg2) := rfl

theorem B10_main_arg3 (c : Dev nD) : B10 m ρ c (Proc.devRef .tc main_arg3) = m ((c : Thread nD τ).loc main_arg3) :=
  calc B10 m ρ c (Proc.devRef .tc main_arg3)
    _ = B9 m ρ c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B8 m ρ c (Proc.devRef .tc main_arg3) := B9_of_ne m ρ c main_arg3 (by decide)
    _ = B7 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B6 m ρ c (Proc.devRef .tc main_arg3) := B7_of_ne m ρ c main_arg3 (by decide)
    _ = B5 m ρ c (Proc.devRef .tc main_arg3) := StableHlo.after_of_forall_not_mem (b := Proc.devRef .tc main_arg3) _ _ (List.forall_iff_forall_mem.mp (by
          simp only [hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B4 m ρ c (Proc.devRef .tc main_arg3) := StableHlo.after_of_forall_not_mem (b := Proc.devRef .tc main_arg3) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B3 m ρ c (Proc.devRef .tc main_arg3) := StableHlo.after_of_forall_not_mem (b := Proc.devRef .tc main_arg3) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B2 m ρ c (Proc.devRef .tc main_arg3) := StableHlo.after_of_forall_not_mem (b := Proc.devRef .tc main_arg3) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B0 m ρ c (Proc.devRef .tc main_arg3) := B1_of_ne m ρ c main_arg3 (by decide)
    _ = m ((c : Thread nD τ).loc main_arg3) := rfl

theorem B10_main_arg4 (c : Dev nD) : B10 m ρ c (Proc.devRef .tc main_arg4) = m ((c : Thread nD τ).loc main_arg4) :=
  calc B10 m ρ c (Proc.devRef .tc main_arg4)
    _ = B9 m ρ c (Proc.devRef .tc main_arg4) := StableHlo.after_of_forall_not_mem (b := Proc.devRef .tc main_arg4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B8 m ρ c (Proc.devRef .tc main_arg4) := B9_of_ne m ρ c main_arg4 (by decide)
    _ = B7 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B6 m ρ c (Proc.devRef .tc main_arg4) := B7_of_ne m ρ c main_arg4 (by decide)
    _ = B5 m ρ c (Proc.devRef .tc main_arg4) := StableHlo.after_of_forall_not_mem (b := Proc.devRef .tc main_arg4) _ _ (List.forall_iff_forall_mem.mp (by
          simp only [hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B4 m ρ c (Proc.devRef .tc main_arg4) := StableHlo.after_of_forall_not_mem (b := Proc.devRef .tc main_arg4) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B3 m ρ c (Proc.devRef .tc main_arg4) := StableHlo.after_of_forall_not_mem (b := Proc.devRef .tc main_arg4) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B2 m ρ c (Proc.devRef .tc main_arg4) := StableHlo.after_of_forall_not_mem (b := Proc.devRef .tc main_arg4) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B0 m ρ c (Proc.devRef .tc main_arg4) := B1_of_ne m ρ c main_arg4 (by decide)
    _ = m ((c : Thread nD τ).loc main_arg4) := rfl

theorem B10_main_arg5 (c : Dev nD) : B10 m ρ c (Proc.devRef .tc main_arg5) = m ((c : Thread nD τ).loc main_arg5) :=
  calc B10 m ρ c (Proc.devRef .tc main_arg5)
    _ = B9 m ρ c (Proc.devRef .tc main_arg5) := StableHlo.after_of_forall_not_mem (b := Proc.devRef .tc main_arg5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B8 m ρ c (Proc.devRef .tc main_arg5) := B9_of_ne m ρ c main_arg5 (by decide)
    _ = B7 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B6 m ρ c (Proc.devRef .tc main_arg5) := B7_of_ne m ρ c main_arg5 (by decide)
    _ = B5 m ρ c (Proc.devRef .tc main_arg5) := StableHlo.after_of_forall_not_mem (b := Proc.devRef .tc main_arg5) _ _ (List.forall_iff_forall_mem.mp (by
          simp only [hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B4 m ρ c (Proc.devRef .tc main_arg5) := StableHlo.after_of_forall_not_mem (b := Proc.devRef .tc main_arg5) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B3 m ρ c (Proc.devRef .tc main_arg5) := StableHlo.after_of_forall_not_mem (b := Proc.devRef .tc main_arg5) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B2 m ρ c (Proc.devRef .tc main_arg5) := StableHlo.after_of_forall_not_mem (b := Proc.devRef .tc main_arg5) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B0 m ρ c (Proc.devRef .tc main_arg5) := B1_of_ne m ρ c main_arg5 (by decide)
    _ = m ((c : Thread nD τ).loc main_arg5) := rfl

/-! ## The proof data family and the thread state -/

/-- No pipeline has a prefetched table. -/
abbrev admH : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) admH p) c
  | ⟨0, _⟩ => fun c => dat0 (VB0 m ρ) c
  | ⟨1, _⟩ => fun c => dat1 (VB6 m ρ) c
  | ⟨2, _⟩ => fun c => dat2 (VB8 m ρ) c
abbrev 𝒱H : Variants := Variants.none
/-- No core owes another anything: no level is assigned. -/
abbrev LH : GSem nD τ sig → Finset Unit := fun _ => ∅
abbrev lvH : GSem nD τ sig → Unit → ℕ := fun _ _ => 0
/-- What rides beside the buffers through every segment: the generator register at some state, and nothing owed. -/
abbrev RH (c : Dev nD) : sProp 𝕄 := iprop((∃ r, prngReg c r) ∗ ∃ W, owes (c : Thread nD τ) (0 : CellTallies nD τ sig Unit) W)
/-- A stretch of host operations as a segment over the unscoped buffers from the contents `W`. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

theorem hostOps1_freshH : (hostOps1 : List (HloOp τ sig (Elt F))).Forall fun op => op.fresh = ∅ := by
  simp only [List.Forall]; repeat' constructor
theorem hostOps1_1_freshH : (hostOps1_1 : List (HloOp τ sig (Elt F))).Forall fun op => op.fresh = ∅ := by
  simp only [List.Forall]; repeat' constructor
theorem hostOps1_2_freshH : (hostOps1_2 : List (HloOp τ sig (Elt F))).Forall fun op => op.fresh = ∅ := by
  simp only [List.Forall]; repeat' constructor
theorem hostOps1_3_freshH : (hostOps1_3 : List (HloOp τ sig (Elt F))).Forall fun op => op.fresh = ∅ := by
  simp only [List.Forall]; repeat' constructor
theorem hostOps1_4_freshH : (hostOps1_4 : List (HloOp τ sig (Elt F))).Forall fun op => op.fresh = ∅ := by
  simp only [List.Forall]; repeat' constructor
theorem hostOps2_freshH : (hostOps2 : List (HloOp τ sig (Elt F))).Forall fun op => op.fresh = ∅ := by
  simp only [List.Forall]; repeat' constructor
theorem hostOps3_freshH : (hostOps3 : List (HloOp τ sig (Elt F))).Forall fun op => op.fresh = ∅ := by
  simp only [List.Forall]; repeat' constructor
/-- An unscoped TensorCore reference is among those the thread state holds. -/
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register
    at some state. -/
abbrev TnH (c : Dev nD) : sProp 𝕄 := iprop(StableHlo.held (c : Thread nD τ) (Pipeline.ucRefs τ sig) (B10 m ρ c) ∗ ∃ r, prngReg c r)

/-! ## The regions as segments -/

set_option backward.isDefEq.respectTransparency.types false in
/-- Region 0 as a segment: entered with every unscoped buffer at `B0`, left with them at `B1`. Its arrays are
    split out of the unscoped buffers at entry and put back at their final contents at exit; the generator register goes
    into the region invariant and comes back; nothing is owed; the kernel has no semaphore of its own. -/
def reg0 : Pipeline.RegionSeg (pcfgs (F := F)) admH (pdats m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (VB0 m ρ) c).loose
  hwaits := Pipeline.hwaits_of_owed_zero _ _ _ _ LH lvH 0 fun _ _ => rfl
  pre c := iprop(StableHlo.held (c : Thread nD τ) (Pipeline.ucRefs τ sig) (B0 m ρ c) ∗ RH c)
  post c := iprop(StableHlo.held (c : Thread nD τ) (Pipeline.ucRefs τ sig) (B1 m ρ c) ∗ RH c)
  X c := iprop(∃ r, prngReg c r)
  Y c := iprop(∃ r, prngReg c r)
  Z c := Pipeline.unscopedRest (Ix := Unit) (Name := ℕ) (U := UR sig nD τ) (Lvl := ℕ) spec0 c (VB0 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (VB0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (VB0 m ρ c) (VB1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `B6`, left with them at `B7`. Its arrays are
    split out of the unscoped buffers at entry and put back at their final contents at exit; the generator register goes
    into the region invariant and comes back; nothing is owed; the kernel has no semaphore of its own. -/
def reg1 : Pipeline.RegionSeg (pcfgs (F := F)) admH (pdats m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (VB6 m ρ) c).loose
  hwaits := Pipeline.hwaits_of_owed_zero _ _ _ _ LH lvH 1 fun _ _ => rfl
  pre c := iprop(StableHlo.held (c : Thread nD τ) (Pipeline.ucRefs τ sig) (B6 m ρ c) ∗ RH c)
  post c := iprop(StableHlo.held (c : Thread nD τ) (Pipeline.ucRefs τ sig) (B7 m ρ c) ∗ RH c)
  X c := iprop(∃ r, prngReg c r)
  Y c := iprop(∃ r, prngReg c r)
  Z c := Pipeline.unscopedRest (Ix := Unit) (Name := ℕ) (U := UR sig nD τ) (Lvl := ℕ) spec1 c (VB6 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (VB6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : Pipeline.ΦA spec1 c ⊢ (pdats m ρ 1 c).Φ 0 := hin1 (VB6 m ρ) c
    unfold Pipeline.ΦA at h1
    iintro ⟨Hp, -, Hr⟩
    iapply h1
    isplitl [Hr]; · iexact Hr
    iexact Hp
  hout c := by
    rw [Pipeline.ownSems0_none]
    have h1 : (pdats m ρ 1 c).Φ (Fin.last _) ⊢ Pipeline.ΦA spec1 c := hout1 (VB6 m ρ) c
    unfold Pipeline.ΦA at h1
    iintro HP
    ihave H := h1 $$ HP
    icases H with ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (VB6 m ρ c) (VB7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `B8`, left with them at `B9`. Its arrays are
    split out of the unscoped buffers at entry and put back at their final contents at exit; the generator register goes
    into the region invariant and comes back; nothing is owed; the kernel has no semaphore of its own. -/
def reg2 : Pipeline.RegionSeg (pcfgs (F := F)) admH (pdats m ρ) () defs₀ 𝒱H LH lvH 2 where
  win := launch2.win.to₀
  block_pos := launch2.block_pos
  stage_whole := launch2.stage_whole
  K := PEmpty
  osem k := k.elim
  ho := Pipeline.OwnSemFacts.none _
  hbody c := (body_obligation2 (VB8 m ρ) c).loose
  hwaits := Pipeline.hwaits_of_owed_zero _ _ _ _ LH lvH 2 fun _ _ => rfl
  pre c := iprop(StableHlo.held (c : Thread nD τ) (Pipeline.ucRefs τ sig) (B8 m ρ c) ∗ RH c)
  post c := iprop(StableHlo.held (c : Thread nD τ) (Pipeline.ucRefs τ sig) (B9 m ρ c) ∗ RH c)
  X c := iprop(∃ r, prngReg c r)
  Y c := iprop(∃ r, prngReg c r)
  Z c := Pipeline.unscopedRest (Ix := Unit) (Name := ℕ) (U := UR sig nD τ) (Lvl := ℕ) spec2 c (VB8 m ρ c)
  hentry c := by
    rw [Pipeline.ownSems0_none]
    have hsplit := Pipeline.arrays_of_unscopedBufs (p := 2) (pcfgs (F := F)) admH (pdats m ρ) launch2.win launch2.arr_whole c
      ((pdats m ρ 2 c).share_full fun _ => rfl) (VB8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : Pipeline.ΦA spec2 c ⊢ (pdats m ρ 2 c).Φ 0 := hin2 (VB8 m ρ) c
    unfold Pipeline.ΦA at h1
    iintro ⟨Hp, -, Hr⟩
    iapply h1
    isplitl [Hr]; · iexact Hr
    iexact Hp
  hout c := by
    rw [Pipeline.ownSems0_none]
    have h1 : (pdats m ρ 2 c).Φ (Fin.last _) ⊢ Pipeline.ΦA spec2 c := hout2 (VB8 m ρ) c
    unfold Pipeline.ΦA at h1
    iintro HP
    ihave H := h1 $$ HP
    icases H with ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m ρ) ((pdats m ρ 2 c).share_full fun _ => rfl)
      (VB8 m ρ c) (VB9 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's ten items in order. -/
abbrev segsH : List (Pipeline.Seg (pcfgs (F := F)) admH (pdats m ρ) () defs₀ 𝒱H LH lvH) :=
  [ .region (reg0 m ρ),
    .host (hsegH hostOps1 hostOps1_sub hostOps1_freshH (B1 m ρ)),
    .host (hsegH hostOps1_1 hostOps1_1_sub hostOps1_1_freshH (B2 m ρ)),
    .host (hsegH hostOps1_2 hostOps1_2_sub hostOps1_2_freshH (B3 m ρ)),
    .host (hsegH hostOps1_3 hostOps1_3_sub hostOps1_3_freshH (B4 m ρ)),
    .host (hsegH hostOps1_4 hostOps1_4_sub hostOps1_4_freshH (B5 m ρ)),
    .region (reg1 m ρ),
    .host (hsegH hostOps2 hostOps2_sub hostOps2_freshH (B7 m ρ)),
    .region (reg2 m ρ),
    .host (hsegH hostOps3 hostOps3_sub hostOps3_freshH (B9 m ρ)) ]

set_option backward.isDefEq.respectTransparency.types false in
/-- THE RUN. From any memory with zero counters every weakly fair execution of @main on the TensorCores terminates, nothing
    faulting, and in every final state each unscoped buffer holds the last boundary's contents `B10`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B10 m ρ c b) :=
  Pipeline.θ_run_regions_kit (pcfgs (F := F)) admH (pdats m ρ) () cellOf_inj emb₁ defs₀ 𝒱H LH lvH m ρ main (segsH m ρ)
    (fun c Q => by
      rewrite [main_chain c, Pipeline.Seg.run_eq_chain,
        show (segsH m ρ).map Pipeline.Seg.prog = [
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          Prog.lift (.customCall (Pipeline.entry 2) ()),
          StableHlo.seq hostOps3 ] from rfl]
      exact .rfl)
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ RH c)) (Tₙ := TnH m ρ)
    (hch := ⟨fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (B10 m ρ c) ∗ RH c)
          ⊢ iprop(TnH m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach LH lvH fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B10 m ρ c b)
    (hfin := fun c s' => by
      iintro ⟨⟨Hh, -⟩, HSI⟩
      unfold StableHlo.held
      imodintro
      iapply (pointsTo_read_all (Pipeline.ucRefs τ sig) (fun b => (((c : Thread nD τ)).1, b)) (B10 m ρ c) s')
      isplitl [Hh] <;> iassumption)
    (hQ := fun s h c => h c)

/-! ## What a region leaves untouched -/

/-- Region 0 changes only its two result arrays: every other buffer (its input among them) is as at launch. -/
theorem B1_keep (c : Dev nD) (b : Ref sig .tc) (h0 : b ≠ main_v0_0) (h1 : b ≠ main_v0_1) :
    B1 m ρ c (Proc.devRef .tc b) = B0 m ρ c (Proc.devRef .tc b) := by
  by_cases hb : b = main_arg0
  · subst hb; exact (B1_arr m ρ c 0).trans (((dat0 (VB0 m ρ) c).arrAt_in 0 rfl _).trans (A_eq0 (VB0 m ρ) c 0))
  · exact B1_of_ne m ρ c b (fun w => match w with
      | ⟨0, _⟩ => fun e => hb e.symm
      | ⟨1, _⟩ => fun e => h0 e.symm
      | ⟨2, _⟩ => fun e => h1 e.symm)

/-- Region 1 changes only its result array. -/
theorem B7_keep (c : Dev nD) (b : Ref sig .tc) (h : b ≠ main_v12) :
    B7 m ρ c (Proc.devRef .tc b) = B6 m ρ c (Proc.devRef .tc b) := by
  by_cases h0 : b = main_v0_1
  · subst h0; exact (B7_arr m ρ c 0).trans (((dat1 (VB6 m ρ) c).arrAt_in 0 rfl _).trans (A_eq1 (VB6 m ρ) c 0))
  by_cases h1 : b = main_v11
  · subst h1; exact (B7_arr m ρ c 1).trans (((dat1 (VB6 m ρ) c).arrAt_in 1 rfl _).trans (A_eq1 (VB6 m ρ) c 1))
  by_cases h2 : b = main_v7
  · subst h2; exact (B7_arr m ρ c 2).trans (((dat1 (VB6 m ρ) c).arrAt_in 2 rfl _).trans (A_eq1 (VB6 m ρ) c 2))
  exact B7_of_ne m ρ c b (fun w => match w with
    | ⟨0, _⟩ => fun e => h0 e.symm
    | ⟨1, _⟩ => fun e => h1 e.symm
    | ⟨2, _⟩ => fun e => h2 e.symm
    | ⟨3, _⟩ => fun e => h e.symm)

/-- Region 2 changes only its result array. -/
theorem B9_keep (c : Dev nD) (b : Ref sig .tc) (h : b ≠ main_v17) :
    B9 m ρ c (Proc.devRef .tc b) = B8 m ρ c (Proc.devRef .tc b) := by
  by_cases h0 : b = main_v0_1
  · subst h0; exact (B9_arr m ρ c 0).trans (((dat2 (VB8 m ρ) c).arrAt_in 0 rfl _).trans (A_eq2 (VB8 m ρ) c 0))
  by_cases h1 : b = main_v16
  · subst h1; exact (B9_arr m ρ c 1).trans (((dat2 (VB8 m ρ) c).arrAt_in 1 rfl _).trans (A_eq2 (VB8 m ρ) c 1))
  by_cases h2 : b = main_v7
  · subst h2; exact (B9_arr m ρ c 2).trans (((dat2 (VB8 m ρ) c).arrAt_in 2 rfl _).trans (A_eq2 (VB8 m ρ) c 2))
  exact B9_of_ne m ρ c b (fun w => match w with
    | ⟨0, _⟩ => fun e => h0 e.symm
    | ⟨1, _⟩ => fun e => h1 e.symm
    | ⟨2, _⟩ => fun e => h2 e.symm
    | ⟨3, _⟩ => fun e => h e.symm)

/-! ## The frame, and the run with the result named -/

/-- The argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_ucH main_arg0 (by decide))).trans (B10_main_arg0 m ρ c),
     (h c _ (mem_ucH main_arg1 (by decide))).trans (B10_main_arg1 m ρ c),
     (h c _ (mem_ucH main_arg2 (by decide))).trans (B10_main_arg2 m ρ c),
     (h c _ (mem_ucH main_arg3 (by decide))).trans (B10_main_arg3 m ρ c),
     (h c _ (mem_ucH main_arg4 (by decide))).trans (B10_main_arg4 m ρ c),
     (h c _ (mem_ucH main_arg5 (by decide))).trans (B10_main_arg5 m ρ c)⟩) (run_all m ρ)

/-- The same run with the result array named: it ends at the last boundary's contents. -/
theorem run_result : θ_run defs (onTc (τ := τ) (main (F := F))) ⟨m, fun _ => 0, ρ⟩ (fun r => ∀ c : Dev nD,
      r.2.mem ((c.tc : Thread nD τ).loc main_v21) = B10 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_ucH main_v21 (by decide)),
     (h c _ (mem_ucH main_arg0 (by decide))).trans (B10_main_arg0 m ρ c),
     (h c _ (mem_ucH main_arg1 (by decide))).trans (B10_main_arg1 m ρ c),
     (h c _ (mem_ucH main_arg2 (by decide))).trans (B10_main_arg2 m ρ c),
     (h c _ (mem_ucH main_arg3 (by decide))).trans (B10_main_arg3 m ρ c),
     (h c _ (mem_ucH main_arg4 (by decide))).trans (B10_main_arg4 m ρ c),
     (h c _ (mem_ucH main_arg5 (by decide))).trans (B10_main_arg5 m ρ c)⟩) (run_all m ρ)

end Cert.Kernel.Hand

end
-- ==== Proof.KI.R0.Runs.lean ====
/- Region 0 (the row-sum kernel, grid 4x8) of the three-region program: what the runs of its body share.
   The region's half is stated at a PARAMETER `V` — the TensorCore's buffer contents when the region is
   entered — so that the program's run can instantiate it at whatever the host prefix leaves. Here: each
   window's block at a point, the input window's buffer at every point, the body's one branch condition in
   closed form over the grid, and the staging memrefs the pipeline passes the body. -/
import proofs.«177097_j68143951118910_2_alg».proof.Proof.Gen.KernelIdeal.Launch
import proofs.«177097_j68143951118910_2_alg».proof.Proof.Gen.KernelIdeal.Skeleton
import proofs.«177097_j68143951118910_2_alg».proof.Proof.Gen.KernelIdeal.Points
import Idealize.ShloMosaic.Lib.Pipeline.FrameBody
import Idealize.ShloMosaic.Lib.Ring
import Idealize.ShloMosaic.Lib.Tactic

-- membership in a rectangle of large extents unfolds once per coordinate of the long axes, hence the deeper recursion bound
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for ANY proof data whose array is
    `V`'s (`hA`) and whose body leaves the block in place (`hafter`): the window is fetched before every
    point, uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's branch condition -/

/-- The condition of the body's one `scf.if`: the second grid coordinate is zero (the first tile of a row of
    tiles), as the kernel's scalar chain computes it. -/
abbrev cond0_0 (i : grid0.Coords) : Prop := (Scalar.cmpi .ne (Scalar.extui (Scalar.cmpi .eq (BitVec.ofNat 32 (i 1).val) 0#32)) 0#32) = 1#1
/-- It holds at the points ≡ 0 (mod 8) — decided over the grid. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## Where the windows are idle: nowhere -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl

/-! ## The staging memrefs -/

/-- One staging buffer of each output window, through which its contents are stated (the choice does not matter:
    pieces covering a buffer read back the same over any prior contents). -/
abbrev VO0_1 : View sig .tc .vmem S2048x1 .f32 := (Memref.whole cc0_stg1_0 : Memref sig .tc .vmem S2048x1 .f32).view
abbrev VO0_2 : View sig .tc .vmem S2048x1024 .bf16 := (Memref.whole cc0_stg2_0 : Memref sig .tc .vmem S2048x1024 .bf16).view
/-- Each window's current staging memref at point `t`, spelled as the pipeline passes it to the body, and its wholeness. -/
abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1024 .bf16 := win0_2.stage (cfg0.slots t 2)
abbrev hs0_2 (t : Fin cfg0.N) : (ms0_2 t).IsWhole := hstage0_2 ((cfg0.slots t 2).cast nbuf0_2)

end Cert.KernelIdeal.Hand

end
-- ==== Proof.KI.R0.RunA.lean ====
/- Region 0's body run whole IN CASE A (the branch taken: the first tile of a row of tiles, where the running
   row sums are zeroed before the tile's are added). The pieces each output's staging buffer ends with are the
   witness the run finds. -/
import proofs.«177097_j68143951118910_2_alg».proof.Proof.KI.R0.Runs

-- membership in a rectangle of large extents unfolds once per coordinate of the long axes, hence the deeper recursion bound
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each output's staging memref, as pieces (last first) IN CASE A, WITH the proof
    that on whole staging memrefs — the input's at its contents `x0`, the outputs' at anything — the body runs to
    the continuation holding the input's as it was and each output's buffer with its pieces written. -/
noncomputable def kernelRun0_A (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1024 .bf16) (harg4 : arg4.IsWhole) (hc0 : cond0_0 i)
    (x0 : Vec F S2048x1024 .f32) :
    Σ' (L1 : List (View.Piece (Elt F) S2048x1 .f32)), { L2 : List (View.Piece (Elt F) S2048x1024 .bf16) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2)) -∗ K ⟨⟩))
          ⊢ wp frame (wpE (defs₀ (F := F)) Variants.none c none) E (cc0__rowsum_kernel i arg2 harg2 arg3 harg3 arg4 harg4) K } := by
  refine ⟨?_, ?_, fun E K => ?run⟩
  case run =>
    simp only [cc0__rowsum_kernel_eq_skeleton]; unfold cc0__rowsum_kernel_skel
    unfold owns
    iintro ⟨⟨%f0, %hf0, H0⟩, ⟨%d1, %f1, -, H1⟩, ⟨%d2, %f2, -, H2⟩, Hk⟩
    obtain rfl := harg2.eq_unread hf0
    sl_exec (disch := first | exact hc0)
    sl_step
    iapply Hk
    isplitl [H0]
    · iexists _; isplitr; · ipureintro; exact harg2.read_unread _
      iexact H0
    isplitl [H1]; · iexists _; iexact H1
    iexists _; iexact H2

end Cert.KernelIdeal.Hand

end
-- ==== Proof.KI.R0.RunB.lean ====
/- Region 0's body run whole IN CASE B (the branch not taken: a later tile of a row of tiles, where the tile's
   row sums are added to the running ones). The pieces each output's staging buffer ends with are the witness
   the run finds. -/
import proofs.«177097_j68143951118910_2_alg».proof.Proof.KI.R0.RunA

-- membership in a rectangle of large extents unfolds once per coordinate of the long axes, hence the deeper recursion bound
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each output's staging memref, as pieces (last first) IN CASE B, WITH the proof
    that on whole staging memrefs — the input's at its contents `x0`, the running row sums' at `xo1` (what the
    point before left), the copy's at anything — the body runs to the continuation holding the input's as it was
    and each output's buffer with its pieces written. -/
noncomputable def kernelRun0_B (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1024 .bf16) (harg4 : arg4.IsWhole) (hc0 : ¬cond0_0 i)
    (x0 : Vec F S2048x1024 .f32) (xo1 : Vec F S2048x1 .f32) :
    Σ' (L1 : List (View.Piece (Elt F) S2048x1 .f32)), { L2 : List (View.Piece (Elt F) S2048x1024 .bf16) //
      ∀ (E : Set ℕ) (K : PUnit → sProp 𝕄),
        iprop(owns (c : Thread nD τ) arg2 fullShare x0 ∗ owns (c : Thread nD τ) arg3 fullShare xo1 ∗ (∃ d, owns (c : Thread nD τ) arg4 fullShare d)
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2)) -∗ K ⟨⟩))
          ⊢ wp frame (wpE (defs₀ (F := F)) Variants.none c none) E (cc0__rowsum_kernel i arg2 harg2 arg3 harg3 arg4 harg4) K } := by
  refine ⟨?_, ?_, fun E K => ?run⟩
  case run =>
    simp only [cc0__rowsum_kernel_eq_skeleton]; unfold cc0__rowsum_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]; · iexists _; iexact H1
    iexists _; iexact H2

end Cert.KernelIdeal.Hand

end
-- ==== Proof.KI.R0.Frame.lean ====
/- Region 0 (the row-sum kernel) of the three-region program: its half of the frame certificate at a PARAMETER
   `V` (the TensorCore's buffer contents when the region is entered). What each case's pieces cover and leave
   (`cover0_κ_W`, `out0_κ_W`), what the two outputs' staging buffers hold point by point (`outsAt0`: the running
   row sums, carried from the point before within a row of tiles, and the tile's copy), the proof data (`dat0`) and
   the body obligation (`body_obligation0`). -/
import proofs.«177097_j68143951118910_2_alg».proof.Proof.KI.R0.RunB

-- membership in a rectangle of large extents unfolds once per coordinate of the long axes, hence the deeper recursion bound
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A's pieces for output 1 (the running row sums) tile its block, so they cover it. -/
theorem cover0_A_1 (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1024 .bf16) (harg4 : arg4.IsWhole) (hc0 : cond0_0 i)
    (x0 : Vec F S2048x1024 .f32) (y : S2048x1.Idx) :
    ∃ pc ∈ (kernelRun0_A c i arg2 harg2 arg3 harg3 arg4 harg4 hc0 x0).1, y ∈ pc.1.set :=
  View.cover_of_tiledL (kernelRun0_A c i arg2 harg2 arg3 harg3 arg4 harg4 hc0 x0).1 S2048x1.size (by sl_kernel_rfl) y

/-- What case A leaves in output 1's staging buffer: its pieces read back over junk. -/
def out0_A_1 (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1024 .bf16) (harg4 : arg4.IsWhole) (hc0 : cond0_0 i)
    (x0 : Vec F S2048x1024 .f32) : Vec F S2048x1 .f32 :=
  VO0_1.read (Elt F) (VO0_1.writes (Elt F) VO0_1.junk (kernelRun0_A c i arg2 harg2 arg3 harg3 arg4 harg4 hc0 x0).1)

/-- Case A's pieces for output 2 (the tile's copy) tile its block, so they cover it. -/
theorem cover0_A_2 (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1024 .bf16) (harg4 : arg4.IsWhole) (hc0 : cond0_0 i)
    (x0 : Vec F S2048x1024 .f32) (y : S2048x1024.Idx) :
    ∃ pc ∈ (kernelRun0_A c i arg2 harg2 arg3 harg3 arg4 harg4 hc0 x0).2.1, y ∈ pc.1.set :=
  View.cover_of_tiledL (kernelRun0_A c i arg2 harg2 arg3 harg3 arg4 harg4 hc0 x0).2.1 S2048x1024.size (by sl_kernel_rfl) y

/-- What case A leaves in output 2's staging buffer: its pieces read back over junk. -/
def out0_A_2 (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1024 .bf16) (harg4 : arg4.IsWhole) (hc0 : cond0_0 i)
    (x0 : Vec F S2048x1024 .f32) : Vec F S2048x1024 .bf16 :=
  VO0_2.read (Elt F) (VO0_2.writes (Elt F) VO0_2.junk (kernelRun0_A c i arg2 harg2 arg3 harg3 arg4 harg4 hc0 x0).2.1)

/-- Case B's pieces for output 1 (the running row sums) tile its block, so they cover it. -/
theorem cover0_B_1 (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1024 .bf16) (harg4 : arg4.IsWhole) (hc0 : ¬cond0_0 i)
    (x0 : Vec F S2048x1024 .f32) (xo1 : Vec F S2048x1 .f32) (y : S2048x1.Idx) :
    ∃ pc ∈ (kernelRun0_B c i arg2 harg2 arg3 harg3 arg4 harg4 hc0 x0 xo1).1, y ∈ pc.1.set :=
  View.cover_of_tiledL (kernelRun0_B c i arg2 harg2 arg3 harg3 arg4 harg4 hc0 x0 xo1).1 S2048x1.size (by sl_kernel_rfl) y

/-- What case B leaves in output 1's staging buffer: its pieces read back over junk. -/
def out0_B_1 (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1024 .bf16) (harg4 : arg4.IsWhole) (hc0 : ¬cond0_0 i)
    (x0 : Vec F S2048x1024 .f32) (xo1 : Vec F S2048x1 .f32) : Vec F S2048x1 .f32 :=
  VO0_1.read (Elt F) (VO0_1.writes (Elt F) VO0_1.junk (kernelRun0_B c i arg2 harg2 arg3 harg3 arg4 harg4 hc0 x0 xo1).1)

/-- Case B's pieces for output 2 (the tile's copy) tile its block, so they cover it. -/
theorem cover0_B_2 (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1024 .bf16) (harg4 : arg4.IsWhole) (hc0 : ¬cond0_0 i)
    (x0 : Vec F S2048x1024 .f32) (xo1 : Vec F S2048x1 .f32) (y : S2048x1024.Idx) :
    ∃ pc ∈ (kernelRun0_B c i arg2 harg2 arg3 harg3 arg4 harg4 hc0 x0 xo1).2.1, y ∈ pc.1.set :=
  View.cover_of_tiledL (kernelRun0_B c i arg2 harg2 arg3 harg3 arg4 harg4 hc0 x0 xo1).2.1 S2048x1024.size (by sl_kernel_rfl) y

/-- What case B leaves in output 2's staging buffer: its pieces read back over junk. -/
def out0_B_2 (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1024 .bf16) (harg4 : arg4.IsWhole) (hc0 : ¬cond0_0 i)
    (x0 : Vec F S2048x1024 .f32) (xo1 : Vec F S2048x1 .f32) : Vec F S2048x1024 .bf16 :=
  VO0_2.read (Elt F) (VO0_2.writes (Elt F) VO0_2.junk (kernelRun0_B c i arg2 harg2 arg3 harg3 arg4 harg4 hc0 x0 xo1).2.1)

section Region0
variable (V : (c : Dev nD) → (b : Ref sig .tc) → Buf (Elt F) ((c : Thread nD τ).loc b))

/-! ## What the outputs hold after each point -/

/-- THE ACCUMULATION. What the two outputs' staging buffers hold after the body at position `n`: the case the
    closed form selects at `n`, run at the point's memrefs and input block; in case B the running row sums at what
    this leaves at `n - 1` (their buffer is not written back between). -/
def outsAt0 (c : Dev nD) : (n : ℕ) → n < cfg0.N → Vec F S2048x1 .f32 × Vec F S2048x1024 .bf16
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk0 V c 0 ⟨0, hn⟩),
      out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk0 V c 0 ⟨0, hn⟩))
  | n + 1, hn =>
    if h0 : (n + 1) % 8 = 0 then
      (out0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk0 V c 0 ⟨n + 1, hn⟩),
        out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk0 V c 0 ⟨n + 1, hn⟩))
    else
      (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk0 V c 0 ⟨n + 1, hn⟩) (outsAt0 c n (Nat.lt_of_succ_lt hn)).1,
        out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk0 V c 0 ⟨n + 1, hn⟩) (outsAt0 c n (Nat.lt_of_succ_lt hn)).1)

/-- `outsAt0` at a point of case A: that case's contents. -/
theorem outsAt0_A (c : Dev nD) (t : Fin cfg0.N) (h0 : t.val % 8 = 0) :
    outsAt0 V c t.val t.isLt = (out0_A_1 c (grid0.coords t) (ms0_0 t) (hs0_0 t) (ms0_1 t) (hs0_1 t) (ms0_2 t) (hs0_2 t) ((hcond0_0 t).mpr h0) (iblk0 V c 0 t),
      out0_A_2 c (grid0.coords t) (ms0_0 t) (hs0_0 t) (ms0_1 t) (hs0_1 t) (ms0_2 t) (hs0_2 t) ((hcond0_0 t).mpr h0) (iblk0 V c 0 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 8 = 0) :
    outsAt0 V c t.val t.isLt = (out0_B_1 c (grid0.coords t) (ms0_0 t) (hs0_0 t) (ms0_1 t) (hs0_1 t) (ms0_2 t) (hs0_2 t) (fun h => h0 ((hcond0_0 t).mp h)) (iblk0 V c 0 t) (outsAt0 V c (t.val - 1) (Nat.lt_of_le_of_lt (Nat.sub_le _ _) t.isLt)).1,
      out0_B_2 c (grid0.coords t) (ms0_0 t) (hs0_0 t) (ms0_1 t) (hs0_1 t) (ms0_2 t) (hs0_2 t) (fun h => h0 ((hcond0_0 t).mp h)) (iblk0 V c 0 t) (outsAt0 V c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 0 on core `c`: the arrays as the region finds them (`V`); after the body at point
    `t` the input's buffer at its block and the outputs' at `outsAt0`; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2
  Φ _ := Pipeline.ΦA spec0 c
  q _ := fullShare
  owed _ := 0

/-- The proof data's arrays are the region-entry contents (the definition projected, `V` never unfolded). -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2 := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-- At a point of case B output 1's current staging buffer holds what the body left at the point before: the
    point is not the first, and the buffer was not written back between (that happens only after the last tile of
    a row of tiles); the window is live and uncut. -/
theorem before0_1_B (c : Dev nD) (t : Fin cfg0.N) (h0 : ¬t.val % 8 = 0) (d) :
    (dat0 V c).before 1 t d = (outsAt0 V c (t.val - 1) (Nat.lt_of_le_of_lt (Nat.sub_le _ _) t.isLt)).1 := by
  have hN : t.val < 32 := lt_of_lt_of_eq t.isLt (show cfg0.N = 32 from N_0)
  rw [Dat.before_out_kept _ 1 rfl t (by omega) (Bool.eq_false_iff.mpr fun h => by have := (flush0_1 _).mp h; dsimp only at this; omega)
    (fun _ => rfl) (fun _ _ => rfl)]
  dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 1600000 in
/-- The body at any point: the input's memref holds its block; the closed form says which case the point is in;
    in case B the running row sums' buffer holds what the point before left; so that case's run applies. The
    invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  have hN : t.val < 32 := lt_of_lt_of_eq t.isLt (show cfg0.N = 32 from N_0)
  by_cases h0 : t.val % 8 = 0
  · rw [outsAt0_A V c t h0]
    unfold out0_A_1 out0_A_2; (try dsimp only)
    iintro ⟨HΦ, Ho, ⟨%d0, H0⟩, ⟨%d1, H1⟩, ⟨%d2, H2⟩⟩
    iapply ((kernelRun0_A c (grid0.coords t) _ _ _ _ _ _ ((hcond0_0 t).mpr h0) (iblk0 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_A_1 c _ _ _ _ _ _ _ _ _)
    unfold owns; iexists _; isplitr
    swap; · iexact H2
    ipureintro; exact View.read_writes_of_cover _ _ _ _ _ (cover0_A_2 c _ _ _ _ _ _ _ _ _)
  · rw [outsAt0_B V c t h0]
    simp only [before0_1_B V c t h0]
    unfold out0_B_1 out0_B_2; (try dsimp only)
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk0 V c 0 t) _).2.2 Set.univ _)
    isplitl [H0]; · iexact H0
    isplitl [H1]; · iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_B_1 c _ _ _ _ _ _ _ _ _ _)
    unfold owns; iexists _; isplitr
    swap; · iexact H2
    ipureintro; exact View.read_writes_of_cover _ _ _ _ _ (cover0_B_2 c _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.R1.Runs.lean ====
/- Region 1 (the first graph-convolution layer kernel, grid 4x4, point t = 4*i + k): what the runs of its body
   share, stated at a parameter `V` — the contents of the core's buffers when the region is entered. The windows'
   blocks read off `V`; the body's two branch conditions in closed form over the grid (k = 0: the accumulator is
   zeroed; k = 3: the output block relu(d * acc) is stored); where the output window is idle; the staging memrefs
   and the scratch accumulator the kernel carries from point to point. -/
import proofs.«177097_j68143951118910_2_alg».proof.Proof.Gen.KernelIdeal.Launch
import proofs.«177097_j68143951118910_2_alg».proof.Proof.Gen.KernelIdeal.Skeleton
import proofs.«177097_j68143951118910_2_alg».proof.Proof.Gen.KernelIdeal.Points
import Idealize.ShloMosaic.Lib.Pipeline.FrameBody
import Idealize.ShloMosaic.Lib.Ring
import Idealize.ShloMosaic.Lib.Tactic

-- membership in a rectangle of large extents unfolds once per coordinate of the long axes, hence the deeper recursion bound
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the core's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the adjacency tile) holds its block at every point, for any proof data whose array is `V`'s and
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the feature tile, block index k) holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the degree-scaling column, block index i) holds its block at every point, fetched there (k = 0)
    or not (its block index does not move along k). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- The condition of the body's first conditional (k = 0: zero the accumulator), from the grid coordinates. -/
abbrev cond1_0 (i : grid1.Coords) : Prop := (Scalar.cmpi .ne (Scalar.extui (Scalar.cmpi .eq (BitVec.ofNat 32 (i 1).val) 0#32)) 0#32) = 1#1
/-- It holds at the points with k = 0 — decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second conditional (k = 3: store the output block), from the grid coordinates. -/
abbrev cond1_1 (i : grid1.Coords) : Prop := k1_cond2 i = 1#1
/-- It holds at the points with k = 3 — decided over the grid. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the points of case A (k = 0) the output window is idle: the case stores nothing into it, -/
theorem idleAt1_3_A : ∀ t : Fin cfg1.N, cond1_0 (grid1.coords t) → ¬cond1_1 (grid1.coords t) → cfg1.idle 3 (grid1.coords t) = true := by decide +kernel
/-- and its block is not written back there. -/
theorem noFlush1_3_A : ∀ t : Fin cfg1.N, cond1_0 (grid1.coords t) → ¬cond1_1 (grid1.coords t) → (cfg1.win 3).flush t = false := by decide +kernel
/-- At the points of case B (k = 1, 2) the output window is idle, -/
theorem idleAt1_3_B : ∀ t : Fin cfg1.N, ¬cond1_0 (grid1.coords t) → ¬cond1_1 (grid1.coords t) → cfg1.idle 3 (grid1.coords t) = true := by decide +kernel
/-- and its block is not written back there. -/
theorem noFlush1_3_B : ∀ t : Fin cfg1.N, ¬cond1_0 (grid1.coords t) → ¬cond1_1 (grid1.coords t) → (cfg1.win 3).flush t = false := by decide +kernel
/-- At the points of case C (k = 3) the output window is live: the case stores into it. -/
theorem liveAt1_3_C : ∀ t : Fin cfg1.N, ¬cond1_0 (grid1.coords t) → cond1_1 (grid1.coords t) → cfg1.idle 3 (grid1.coords t) = false := by decide +kernel

/-! ## The staging memrefs and the scratch accumulator -/

/-- One staging buffer of the output window, through which its contents are stated (the choice does not matter). -/
abbrev VO1_3 : View sig .tc .vmem S2048x64 .f32 := (Memref.whole cc1_stg3_0 : Memref sig .tc .vmem S2048x64 .f32).view
/-- Each window's current staging memref at point `t`, spelled as the pipeline passes it, and its wholeness. -/
abbrev ms1_0 (t : Fin cfg1.N) : Memref sig .tc .vmem S2048x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x64 .f32 := win1_3.stage (cfg1.slots t 3)
abbrev hs1_3 (t : Fin cfg1.N) : (ms1_3 t).IsWhole := hstage1_3 ((cfg1.slots t 3).cast nbuf1_3)
/-- The scratch accumulator: a whole scoped buffer of the kernel's own, passed beside the windows. -/
abbrev scM1_0 : Memref sig .tc .vmem S2048x64 .f32 := Memref.whole cc1_scratch0
/-- The same as a view: what it holds is stated through it. -/
abbrev VS1_0 : View sig .tc .vmem S2048x64 .f32 := scM1_0.view

/-- The core's scoped buffers that are neither a staging buffer of this region nor its scratch accumulator (the other
    regions' staging buffers and scratch), each whole at some contents: the region never touches them. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f))

/-- The region's invariant gives the scratch accumulator as a memref owned at some contents, beside the other scoped
    buffers and the generator register (the launch lists the scoped buffers in their declared order, the accumulator
    seventh), -/
theorem PhiA1_split (c : Dev nD) :
    (Pipeline.ΦA spec1 c : sProp 𝕄) ⊢ iprop(iprop((∃ d, owns (c : Thread nD τ) scM1_0 fullShare d) ∗ others1 c) ∗ (∃ r, prngReg c r)) := by
  unfold Pipeline.ΦA others1; rw [scopedRest1_eq]; simp only [scM1_0, owns_whole]
  iintro ⟨⟨B1, B2, B3, B4, B5, B6, HS, B7, B8, B9, B10, B11, B12, B13, B14, B15⟩, Hg⟩
  isplitr [Hg]
  · isplitl [HS]; · iexact HS
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [B14]; · iexact B14
    iexact B15
  iexact Hg

/-- and is given back by them. -/
theorem PhiA1_join (c : Dev nD) :
    iprop(iprop((∃ d, owns (c : Thread nD τ) scM1_0 fullShare d) ∗ others1 c) ∗ (∃ r, prngReg c r)) ⊢ (Pipeline.ΦA spec1 c : sProp 𝕄) := by
  unfold Pipeline.ΦA others1; rw [scopedRest1_eq]; simp only [scM1_0, owns_whole]
  iintro ⟨⟨HS, B1, B2, B3, B4, B5, B6, B7, B8, B9, B10, B11, B12, B13, B14, B15⟩, Hg⟩
  isplitr [Hg]
  ·
    isplitl [B1]; · iexact B1
    isplitl [B2]; · iexact B2
    isplitl [B3]; · iexact B3
    isplitl [B4]; · iexact B4
    isplitl [B5]; · iexact B5
    isplitl [B6]; · iexact B6
    isplitl [HS]; · iexact HS
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [B14]; · iexact B14
    iexact B15
  iexact Hg

/-- The two are equal (entailment is antisymmetric): what the body obligation hands the run and takes back. -/
theorem PhiA1_eq (c : Dev nD) :
    (Pipeline.ΦA spec1 c : sProp 𝕄) = iprop(iprop((∃ d, owns (c : Thread nD τ) scM1_0 fullShare d) ∗ others1 c) ∗ (∃ r, prngReg c r)) :=
  Entails.antisymm (PhiA1_split c) (PhiA1_join c)

end Cert.KernelIdeal.Hand

end
-- ==== Proof.KI.R1.RunA.lean ====
/- Region 1, case A of the body's run: the body's triple over its skeleton, the pieces each buffer ends with found by the
   run. Each of the three cases of the body is treated by itself. -/
import proofs.«177097_j68143951118910_2_alg».proof.Proof.KI.R1.Runs

-- membership in a rectangle of large extents unfolds once per coordinate of the long axes, hence the deeper recursion bound
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- CASE A (k = 0; the first conditional taken, the second not). The body zeroes the accumulator and then stores into it
    the sum of what it then holds and the tile product; it stores nothing into the output window. On whole staging
    memrefs — the three inputs' at their contents, the output's at contents `xi3` handed back untouched, the accumulator at
    anything — the body runs to the continuation holding the inputs' as they were, the output's untouched and the
    accumulator with its pieces written (`LS0`, last first): the pieces are the witness the run finds. -/
noncomputable def kernelRun1_A (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : cond1_0 i) (hc1 : ¬cond1_1 i)
    (x0 : Vec F S2048x2048 .bf16) (x1 : Vec F S2048x64 .bf16) (x2 : Vec F S2048x1 .f32) :
    Σ' (L3 : List (View.Piece (Elt F) S2048x64 .f32)), { LS0 : List (View.Piece (Elt F) S2048x64 .f32) //
      ∀ (xi3 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gcn_layer_kernel i arg2 harg2 arg3 harg3 arg4 harg4 arg5 harg5 arg6 harg6) K } := by
  refine ⟨[], ?_, fun xi3 E K => ?run⟩
  case run =>
    simp only [cc1__gcn_layer_kernel_eq_skeleton]; unfold cc1__gcn_layer_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.R1.RunB.lean ====
/- Region 1, case B of the body's run: the body's triple over its skeleton, the pieces each buffer ends with found by the
   run. Each of the three cases of the body is treated by itself. -/
import proofs.«177097_j68143951118910_2_alg».proof.Proof.KI.R1.RunA

-- membership in a rectangle of large extents unfolds once per coordinate of the long axes, hence the deeper recursion bound
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- CASE B (k = 1, 2; neither conditional taken). The body stores into the accumulator the sum of what the point
    before left in it (`xs0`) and the tile product; it stores nothing into the output window. On whole staging memrefs —
    the three inputs' at their contents, the output's at contents `xi3` handed back untouched, the accumulator at `xs0` —
    the body runs to the continuation holding the inputs' as they were, the output's untouched and the accumulator with
    its pieces written (`LS0`, last first): the pieces are the witness the run finds. -/
noncomputable def kernelRun1_B (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : ¬cond1_1 i)
    (x0 : Vec F S2048x2048 .bf16) (x1 : Vec F S2048x64 .bf16) (x2 : Vec F S2048x1 .f32) (xs0 : Vec F S2048x64 .f32) :
    Σ' (L3 : List (View.Piece (Elt F) S2048x64 .f32)), { LS0 : List (View.Piece (Elt F) S2048x64 .f32) //
      ∀ (xi3 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gcn_layer_kernel i arg2 harg2 arg3 harg3 arg4 harg4 arg5 harg5 arg6 harg6) K } := by
  refine ⟨[], ?_, fun xi3 E K => ?run⟩
  case run =>
    simp only [cc1__gcn_layer_kernel_eq_skeleton]; unfold cc1__gcn_layer_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.R1.RunC.lean ====
/- Region 1, case C of the body's run: the body's triple over its skeleton, the pieces each buffer ends with found by the
   run. Each of the three cases of the body is treated by itself. -/
import proofs.«177097_j68143951118910_2_alg».proof.Proof.KI.R1.RunB

-- membership in a rectangle of large extents unfolds once per coordinate of the long axes, hence the deeper recursion bound
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- CASE C (k = 3; the first conditional not taken, the second taken). The body stores into the accumulator the sum of
    what the point before left in it (`xs0`) and the tile product, then stores relu(d * acc) into the output window. On
    whole staging memrefs — the three inputs' at their contents, the output's at anything, the accumulator at `xs0` — the
    body runs to the continuation holding the inputs' as they were, the output's with its pieces written (`L3`) and the
    accumulator with its pieces written (`LS0`), last first: the pieces are the witness the run finds. -/
noncomputable def kernelRun1_C (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x2048 .bf16) (x1 : Vec F S2048x64 .bf16) (x2 : Vec F S2048x1 .f32) (xs0 : Vec F S2048x64 .f32) :
    Σ' (L3 : List (View.Piece (Elt F) S2048x64 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__gcn_layer_kernel i arg2 harg2 arg3 harg3 arg4 harg4 arg5 harg5 arg6 harg6) K } := by
  refine ⟨?_, ?_, fun E K => ?run⟩
  case run =>
    simp only [cc1__gcn_layer_kernel_eq_skeleton]; unfold cc1__gcn_layer_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.R1.Frame.lean ====
/- Region 1 (the first graph-convolution layer kernel), the frame half at a parameter `V`: what the output window and
   the scratch accumulator hold case by case (from the pieces the runs found) and point by point (`outsAt1`), the
   invariant carrying the accumulator from point to point (`PhiS1`), the proof data (`dat1`), the body obligation
   (`body_obligation1`) and the invariant's two ends (`hin1`, `hout1`). -/
import proofs.«177097_j68143951118910_2_alg».proof.Proof.KI.R1.RunC

-- membership in a rectangle of large extents unfolds once per coordinate of the long axes, hence the deeper recursion bound
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A stores nothing into the output window (idle at its points and not written back there): no pieces — the
    value read back is arbitrary, and nothing depends on it. -/
def out1_A_3 (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : cond1_0 i) (hc1 : ¬cond1_1 i)
    (x0 : Vec F S2048x2048 .bf16) (x1 : Vec F S2048x64 .bf16) (x2 : Vec F S2048x1 .f32) : Vec F S2048x64 .f32 :=
  VO1_3.read (Elt F) (VO1_3.writes (Elt F) VO1_3.junk (kernelRun1_A c i arg2 harg2 arg3 harg3 arg4 harg4 arg5 harg5 arg6 harg6 hc0 hc1 x0 x1 x2).1)

/-- Case A's pieces for the scratch accumulator cover it (whole-buffer stores). -/
theorem scover1_A_0 (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : cond1_0 i) (hc1 : ¬cond1_1 i)
    (x0 : Vec F S2048x2048 .bf16) (x1 : Vec F S2048x64 .bf16) (x2 : Vec F S2048x1 .f32) (y : S2048x64.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S2048x64.size (by sl_kernel_rfl) y

/-- What case A leaves in the scratch accumulator: its pieces read back over junk. -/
def sout1_A_0 (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : cond1_0 i) (hc1 : ¬cond1_1 i)
    (x0 : Vec F S2048x2048 .bf16) (x1 : Vec F S2048x64 .bf16) (x2 : Vec F S2048x1 .f32) : Vec F S2048x64 .f32 :=
  VS1_0.read (Elt F) (VS1_0.writes (Elt F) VS1_0.junk (kernelRun1_A c i arg2 harg2 arg3 harg3 arg4 harg4 arg5 harg5 arg6 harg6 hc0 hc1 x0 x1 x2).2.1)

/-- Case B stores nothing into the output window (idle at its points and not written back there): no pieces — the
    value read back is arbitrary, and nothing depends on it. -/
def out1_B_3 (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : ¬cond1_1 i)
    (x0 : Vec F S2048x2048 .bf16) (x1 : Vec F S2048x64 .bf16) (x2 : Vec F S2048x1 .f32) (xs0 : Vec F S2048x64 .f32) : Vec F S2048x64 .f32 :=
  VO1_3.read (Elt F) (VO1_3.writes (Elt F) VO1_3.junk (kernelRun1_B c i arg2 harg2 arg3 harg3 arg4 harg4 arg5 harg5 arg6 harg6 hc0 hc1 x0 x1 x2 xs0).1)

/-- Case B's pieces for the scratch accumulator cover it (whole-buffer stores). -/
theorem scover1_B_0 (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : ¬cond1_1 i)
    (x0 : Vec F S2048x2048 .bf16) (x1 : Vec F S2048x64 .bf16) (x2 : Vec F S2048x1 .f32) (xs0 : Vec F S2048x64 .f32) (y : S2048x64.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S2048x64.size (by sl_kernel_rfl) y

/-- What case B leaves in the scratch accumulator: its pieces read back over junk. -/
def sout1_B_0 (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : ¬cond1_1 i)
    (x0 : Vec F S2048x2048 .bf16) (x1 : Vec F S2048x64 .bf16) (x2 : Vec F S2048x1 .f32) (xs0 : Vec F S2048x64 .f32) : Vec F S2048x64 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- Case C's pieces for the output window tile its block (one store of the whole block), so they cover it. -/
theorem cover1_C_3 (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x2048 .bf16) (x1 : Vec F S2048x64 .bf16) (x2 : Vec F S2048x1 .f32) (xs0 : Vec F S2048x64 .f32) (y : S2048x64.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S2048x64.size (by sl_kernel_rfl) y

/-- What case C leaves in the output window's staging buffer: its pieces read back over junk. -/
def out1_C_3 (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x2048 .bf16) (x1 : Vec F S2048x64 .bf16) (x2 : Vec F S2048x1 .f32) (xs0 : Vec F S2048x64 .f32) : Vec F S2048x64 .f32 :=
  VO1_3.read (Elt F) (VO1_3.writes (Elt F) VO1_3.junk (kernelRun1_C c i arg2 harg2 arg3 harg3 arg4 harg4 arg5 harg5 arg6 harg6 hc0 hc1 x0 x1 x2 xs0).1)

/-- Case C's pieces for the scratch accumulator cover it (whole-buffer stores). -/
theorem scover1_C_0 (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x2048 .bf16) (x1 : Vec F S2048x64 .bf16) (x2 : Vec F S2048x1 .f32) (xs0 : Vec F S2048x64 .f32) (y : S2048x64.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S2048x64.size (by sl_kernel_rfl) y

/-- What case C leaves in the scratch accumulator: its pieces read back over junk. -/
def sout1_C_0 (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x2048 .bf16) (x1 : Vec F S2048x64 .bf16) (x2 : Vec F S2048x1 .f32) (xs0 : Vec F S2048x64 .f32) : Vec F S2048x64 .f32 :=
  VS1_0.read (Elt F) (VS1_0.writes (Elt F) VS1_0.junk (kernelRun1_C c i arg2 harg2 arg3 harg3 arg4 harg4 arg5 harg5 arg6 harg6 hc0 hc1 x0 x1 x2 xs0).2.1)

section Region1
-- the core's buffer contents when the region is entered
variable (V : (c : Dev nD) → (b : Ref sig .tc) → Buf (Elt F) ((c : Thread nD τ).loc b))

/-! ## What the output window and the accumulator hold after each point -/

/-- THE ACCUMULATION. What the output window's staging buffer and the scratch accumulator hold after the body at position
    `n` (a pair: output, accumulator): the case k = n % 4 selects, run at the point's memrefs and input blocks, the
    accumulator in cases B and C over what this leaves at `n - 1`. The assignment "k = 0 and k = 3" is met by no point. -/
def outsAt1 (c : Dev nD) : (n : ℕ) → n < cfg1.N → Vec F S2048x64 .f32 × Vec F S2048x64 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point of case A: that case's contents. -/
theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the launch hands the region (the accumulator
    at anything); afterwards the accumulator at what the point before left in it (`outsAt1`'s second component), the
    other scoped buffers and the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(owns (c : Thread nD τ) scM1_0 fullShare ((outsAt1 V c n hn).2) ∗ others1 c) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ others1 c) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks (`before1_W`); k = t % 4 says which case the point is in;
    the case's run applies; the invariant hands the body the accumulator at what the point before left (at anything at
    the first point) and takes it back at this point's contents (the run's pieces cover it); the other scoped buffers,
    the generator register and what the core owes pass through untouched; in cases A and B the output window's buffer
    is handed back as found, in case C at the block stored. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 4 = 0
  · by_cases h1 : t.val % 4 = 3
    · exfalso; omega
    · -- case A (k = 0)
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hr⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitr [Hg]
          · isplitl [HS0]
            · unfold owns; iexists _; isplitr
              swap; · iexact HS0
              ipureintro; exact View.read_writes_of_cover _ _ _ _ _ (scover1_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hr⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hr Hg]
        · isplitr [Hg]
          · isplitl [HS0]
            · unfold owns; iexists _; isplitr
              swap; · iexact HS0
              ipureintro; exact View.read_writes_of_cover _ _ _ _ _ (scover1_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · by_cases h1 : t.val % 4 = 3
    · -- case C (k = 3)
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      by_cases hz : t.val = 0
      · exfalso; omega
      · rw [PhiS1_castSucc V c t, PhiS1_pos V c _ _ hz]
        iintro ⟨⟨⟨HS0, Hr⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hr Hg]
        · isplitr [Hg]
          · isplitl [HS0]
            · unfold owns; iexists _; isplitr
              swap; · iexact HS0
              ipureintro; exact View.read_writes_of_cover _ _ _ _ _ (scover1_C_0 c _ _ _ _ _ _ _ _ _ _ _ _ _ _ _ _ _)
            iexact Hr
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · -- case B (k = 1, 2)
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, Hr⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitr [Hg]
          · isplitl [HS0]
            · unfold owns; iexists _; isplitr
              swap; · iexact HS0
              ipureintro; exact View.read_writes_of_cover _ _ _ _ _ (scover1_B_0 c _ _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but none the invariant gives back what the launch handed the region: the accumulator's named contents
    are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitr [Hg]
  · isplitl [HS0]
    · iexists _; iexact HS0
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 16 := N_1; omega)

end Region1

end Cert.KernelIdeal.Hand

end
-- ==== Proof.KI.R2.Runs.lean ====
/- Region 2 (the second graph-convolution layer kernel, grid 4x4, point t = 4*i + k): what the runs of its body
   share, stated at a parameter `V` — the contents of the core's buffers when the region is entered. The windows'
   blocks read off `V`; the body's two branch conditions in closed form over the grid (k = 0: the accumulator is
   zeroed; k = 3: the output block relu(d * acc) is stored); where the output window is idle; the staging memrefs
   and the scratch accumulator the kernel carries from point to point. -/
import proofs.«177097_j68143951118910_2_alg».proof.Proof.Gen.KernelIdeal.Launch
import proofs.«177097_j68143951118910_2_alg».proof.Proof.Gen.KernelIdeal.Skeleton
import proofs.«177097_j68143951118910_2_alg».proof.Proof.Gen.KernelIdeal.Points
import Idealize.ShloMosaic.Lib.Pipeline.FrameBody
import Idealize.ShloMosaic.Lib.Ring
import Idealize.ShloMosaic.Lib.Tactic

-- membership in a rectangle of large extents unfolds once per coordinate of the long axes, hence the deeper recursion bound
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the core's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the adjacency tile) holds its block at every point, for any proof data whose array is `V`'s and
    whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the feature tile, block index k) holds its block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the degree-scaling column, block index i) holds its block at every point, fetched there (k = 0)
    or not (its block index does not move along k). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end Region2

/-! ## The body's branch conditions -/

/-- The condition of the body's first conditional (k = 0: zero the accumulator), from the grid coordinates. -/
abbrev cond2_0 (i : grid2.Coords) : Prop := (Scalar.cmpi .ne (Scalar.extui (Scalar.cmpi .eq (BitVec.ofNat 32 (i 1).val) 0#32)) 0#32) = 1#1
/-- It holds at the points with k = 0 — decided over the grid. -/
theorem hcond2_0 : ∀ t : Fin cfg2.N, cond2_0 (grid2.coords t) ↔ t.val % 4 = 0 :=
  (by decide +kernel : ∀ t : Fin grid2.N, cond2_0 (grid2.coords t) ↔ t.val % 4 = 0)

/-- The condition of the body's second conditional (k = 3: store the output block), from the grid coordinates. -/
abbrev cond2_1 (i : grid2.Coords) : Prop := k2_cond2 i = 1#1
/-- It holds at the points with k = 3 — decided over the grid. -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

/-- The input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- At the points of case A (k = 0) the output window is idle: the case stores nothing into it, -/
theorem idleAt2_3_A : ∀ t : Fin cfg2.N, cond2_0 (grid2.coords t) → ¬cond2_1 (grid2.coords t) → cfg2.idle 3 (grid2.coords t) = true := by decide +kernel
/-- and its block is not written back there. -/
theorem noFlush2_3_A : ∀ t : Fin cfg2.N, cond2_0 (grid2.coords t) → ¬cond2_1 (grid2.coords t) → (cfg2.win 3).flush t = false := by decide +kernel
/-- At the points of case B (k = 1, 2) the output window is idle, -/
theorem idleAt2_3_B : ∀ t : Fin cfg2.N, ¬cond2_0 (grid2.coords t) → ¬cond2_1 (grid2.coords t) → cfg2.idle 3 (grid2.coords t) = true := by decide +kernel
/-- and its block is not written back there. -/
theorem noFlush2_3_B : ∀ t : Fin cfg2.N, ¬cond2_0 (grid2.coords t) → ¬cond2_1 (grid2.coords t) → (cfg2.win 3).flush t = false := by decide +kernel
/-- At the points of case C (k = 3) the output window is live: the case stores into it. -/
theorem liveAt2_3_C : ∀ t : Fin cfg2.N, ¬cond2_0 (grid2.coords t) → cond2_1 (grid2.coords t) → cfg2.idle 3 (grid2.coords t) = false := by decide +kernel

/-! ## The staging memrefs and the scratch accumulator -/

/-- One staging buffer of the output window, through which its contents are stated (the choice does not matter). -/
abbrev VO2_3 : View sig .tc .vmem S2048x64 .f32 := (Memref.whole cc2_stg3_0 : Memref sig .tc .vmem S2048x64 .f32).view
/-- Each window's current staging memref at point `t`, spelled as the pipeline passes it, and its wholeness. -/
abbrev ms2_0 (t : Fin cfg2.N) : Memref sig .tc .vmem S2048x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x64 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x64 .f32 := win2_3.stage (cfg2.slots t 3)
abbrev hs2_3 (t : Fin cfg2.N) : (ms2_3 t).IsWhole := hstage2_3 ((cfg2.slots t 3).cast nbuf2_3)
/-- The scratch accumulator: a whole scoped buffer of the kernel's own, passed beside the windows. -/
abbrev scM2_0 : Memref sig .tc .vmem S2048x64 .f32 := Memref.whole cc2_scratch0
/-- The same as a view: what it holds is stated through it. -/
abbrev VS2_0 : View sig .tc .vmem S2048x64 .f32 := scM2_0.view

/-- The core's scoped buffers that are neither a staging buffer of this region nor its scratch accumulator (the other
    regions' staging buffers and scratch), each whole at some contents: the region never touches them. -/
def others2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The region's invariant gives the scratch accumulator as a memref owned at some contents, beside the other scoped
    buffers and the generator register (the launch lists the scoped buffers in their declared order, the accumulator
    last), -/
theorem PhiA2_split (c : Dev nD) :
    (Pipeline.ΦA spec2 c : sProp 𝕄) ⊢ iprop(iprop((∃ d, owns (c : Thread nD τ) scM2_0 fullShare d) ∗ others2 c) ∗ (∃ r, prngReg c r)) := by
  unfold Pipeline.ΦA others2; rw [scopedRest2_eq]; simp only [scM2_0, owns_whole]
  iintro ⟨⟨B1, B2, B3, B4, B5, B6, B7, B8, B9, B10, B11, B12, B13, B14, B15, HS⟩, Hg⟩
  isplitr [Hg]
  · isplitl [HS]; · iexact HS
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [B14]; · iexact B14
    iexact B15
  iexact Hg

/-- and is given back by them. -/
theorem PhiA2_join (c : Dev nD) :
    iprop(iprop((∃ d, owns (c : Thread nD τ) scM2_0 fullShare d) ∗ others2 c) ∗ (∃ r, prngReg c r)) ⊢ (Pipeline.ΦA spec2 c : sProp 𝕄) := by
  unfold Pipeline.ΦA others2; rw [scopedRest2_eq]; simp only [scM2_0, owns_whole]
  iintro ⟨⟨HS, B1, B2, B3, B4, B5, B6, B7, B8, B9, B10, B11, B12, B13, B14, B15⟩, Hg⟩
  isplitr [Hg]
  ·
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [B14]; · iexact B14
    isplitl [B15]; · iexact B15
    iexact HS
  iexact Hg

/-- The two are equal (entailment is antisymmetric): what the body obligation hands the run and takes back. -/
theorem PhiA2_eq (c : Dev nD) :
    (Pipeline.ΦA spec2 c : sProp 𝕄) = iprop(iprop((∃ d, owns (c : Thread nD τ) scM2_0 fullShare d) ∗ others2 c) ∗ (∃ r, prngReg c r)) :=
  Entails.antisymm (PhiA2_split c) (PhiA2_join c)

end Cert.KernelIdeal.Hand

end
-- ==== Proof.KI.R2.RunA.lean ====
/- Region 2, case A of the body's run: the body's triple over its skeleton, the pieces each buffer ends with found by the
   run. Each of the three cases of the body is treated by itself. -/
import proofs.«177097_j68143951118910_2_alg».proof.Proof.KI.R2.Runs

-- membership in a rectangle of large extents unfolds once per coordinate of the long axes, hence the deeper recursion bound
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- CASE A (k = 0; the first conditional taken, the second not). The body zeroes the accumulator and then stores into it
    the sum of what it then holds and the tile product; it stores nothing into the output window. On whole staging
    memrefs — the three inputs' at their contents, the output's at contents `xi3` handed back untouched, the accumulator at
    anything — the body runs to the continuation holding the inputs' as they were, the output's untouched and the
    accumulator with its pieces written (`LS0`, last first): the pieces are the witness the run finds. -/
noncomputable def kernelRun2_A (c : Dev nD) (i : grid2.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : cond2_0 i) (hc1 : ¬cond2_1 i)
    (x0 : Vec F S2048x2048 .bf16) (x1 : Vec F S2048x64 .bf16) (x2 : Vec F S2048x1 .f32) :
    Σ' (L3 : List (View.Piece (Elt F) S2048x64 .f32)), { LS0 : List (View.Piece (Elt F) S2048x64 .f32) //
      ∀ (xi3 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__gcn_layer_kernel i arg2 harg2 arg3 harg3 arg4 harg4 arg5 harg5 arg6 harg6) K } := by
  refine ⟨[], ?_, fun xi3 E K => ?run⟩
  case run =>
    simp only [cc2__gcn_layer_kernel_eq_skeleton]; unfold cc2__gcn_layer_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.R2.RunB.lean ====
/- Region 2, case B of the body's run: the body's triple over its skeleton, the pieces each buffer ends with found by the
   run. Each of the three cases of the body is treated by itself. -/
import proofs.«177097_j68143951118910_2_alg».proof.Proof.KI.R2.RunA

-- membership in a rectangle of large extents unfolds once per coordinate of the long axes, hence the deeper recursion bound
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- CASE B (k = 1, 2; neither conditional taken). The body stores into the accumulator the sum of what the point
    before left in it (`xs0`) and the tile product; it stores nothing into the output window. On whole staging memrefs —
    the three inputs' at their contents, the output's at contents `xi3` handed back untouched, the accumulator at `xs0` —
    the body runs to the continuation holding the inputs' as they were, the output's untouched and the accumulator with
    its pieces written (`LS0`, last first): the pieces are the witness the run finds. -/
noncomputable def kernelRun2_B (c : Dev nD) (i : grid2.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : ¬cond2_0 i) (hc1 : ¬cond2_1 i)
    (x0 : Vec F S2048x2048 .bf16) (x1 : Vec F S2048x64 .bf16) (x2 : Vec F S2048x1 .f32) (xs0 : Vec F S2048x64 .f32) :
    Σ' (L3 : List (View.Piece (Elt F) S2048x64 .f32)), { LS0 : List (View.Piece (Elt F) S2048x64 .f32) //
      ∀ (xi3 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__gcn_layer_kernel i arg2 harg2 arg3 harg3 arg4 harg4 arg5 harg5 arg6 harg6) K } := by
  refine ⟨[], ?_, fun xi3 E K => ?run⟩
  case run =>
    simp only [cc2__gcn_layer_kernel_eq_skeleton]; unfold cc2__gcn_layer_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.R2.RunC.lean ====
/- Region 2, case C of the body's run: the body's triple over its skeleton, the pieces each buffer ends with found by the
   run. Each of the three cases of the body is treated by itself. -/
import proofs.«177097_j68143951118910_2_alg».proof.Proof.KI.R2.RunB

-- membership in a rectangle of large extents unfolds once per coordinate of the long axes, hence the deeper recursion bound
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- CASE C (k = 3; the first conditional not taken, the second taken). The body stores into the accumulator the sum of
    what the point before left in it (`xs0`) and the tile product, then stores relu(d * acc) into the output window. On
    whole staging memrefs — the three inputs' at their contents, the output's at anything, the accumulator at `xs0` — the
    body runs to the continuation holding the inputs' as they were, the output's with its pieces written (`L3`) and the
    accumulator with its pieces written (`LS0`), last first: the pieces are the witness the run finds. -/
noncomputable def kernelRun2_C (c : Dev nD) (i : grid2.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : ¬cond2_0 i) (hc1 : cond2_1 i)
    (x0 : Vec F S2048x2048 .bf16) (x1 : Vec F S2048x64 .bf16) (x2 : Vec F S2048x1 .f32) (xs0 : Vec F S2048x64 .f32) :
    Σ' (L3 : List (View.Piece (Elt F) S2048x64 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__gcn_layer_kernel i arg2 harg2 arg3 harg3 arg4 harg4 arg5 harg5 arg6 harg6) K } := by
  refine ⟨?_, ?_, fun E K => ?run⟩
  case run =>
    simp only [cc2__gcn_layer_kernel_eq_skeleton]; unfold cc2__gcn_layer_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.R2.Frame.lean ====
/- Region 2 (the second graph-convolution layer kernel), the frame half at a parameter `V`: what the output window and
   the scratch accumulator hold case by case (from the pieces the runs found) and point by point (`outsAt2`), the
   invariant carrying the accumulator from point to point (`PhiS2`), the proof data (`dat2`), the body obligation
   (`body_obligation2`) and the invariant's two ends (`hin2`, `hout2`). -/
import proofs.«177097_j68143951118910_2_alg».proof.Proof.KI.R2.RunC

-- membership in a rectangle of large extents unfolds once per coordinate of the long axes, hence the deeper recursion bound
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A stores nothing into the output window (idle at its points and not written back there): no pieces — the
    value read back is arbitrary, and nothing depends on it. -/
def out2_A_3 (c : Dev nD) (i : grid2.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : cond2_0 i) (hc1 : ¬cond2_1 i)
    (x0 : Vec F S2048x2048 .bf16) (x1 : Vec F S2048x64 .bf16) (x2 : Vec F S2048x1 .f32) : Vec F S2048x64 .f32 :=
  VO2_3.read (Elt F) (VO2_3.writes (Elt F) VO2_3.junk (kernelRun2_A c i arg2 harg2 arg3 harg3 arg4 harg4 arg5 harg5 arg6 harg6 hc0 hc1 x0 x1 x2).1)

/-- Case A's pieces for the scratch accumulator cover it (whole-buffer stores). -/
theorem scover2_A_0 (c : Dev nD) (i : grid2.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : cond2_0 i) (hc1 : ¬cond2_1 i)
    (x0 : Vec F S2048x2048 .bf16) (x1 : Vec F S2048x64 .bf16) (x2 : Vec F S2048x1 .f32) (y : S2048x64.Idx) :
    ∃ pc ∈ (kernelRun2_A c i arg2 harg2 arg3 harg3 arg4 harg4 arg5 harg5 arg6 harg6 hc0 hc1 x0 x1 x2).2.1, y ∈ pc.1.set :=
  View.cover_of_tiledL (kernelRun2_A c i arg2 harg2 arg3 harg3 arg4 harg4 arg5 harg5 arg6 harg6 hc0 hc1 x0 x1 x2).2.1 S2048x64.size (by sl_kernel_rfl) y

/-- What case A leaves in the scratch accumulator: its pieces read back over junk. -/
def sout2_A_0 (c : Dev nD) (i : grid2.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : cond2_0 i) (hc1 : ¬cond2_1 i)
    (x0 : Vec F S2048x2048 .bf16) (x1 : Vec F S2048x64 .bf16) (x2 : Vec F S2048x1 .f32) : Vec F S2048x64 .f32 :=
  VS2_0.read (Elt F) (VS2_0.writes (Elt F) VS2_0.junk (kernelRun2_A c i arg2 harg2 arg3 harg3 arg4 harg4 arg5 harg5 arg6 harg6 hc0 hc1 x0 x1 x2).2.1)

/-- Case B stores nothing into the output window (idle at its points and not written back there): no pieces — the
    value read back is arbitrary, and nothing depends on it. -/
def out2_B_3 (c : Dev nD) (i : grid2.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : ¬cond2_0 i) (hc1 : ¬cond2_1 i)
    (x0 : Vec F S2048x2048 .bf16) (x1 : Vec F S2048x64 .bf16) (x2 : Vec F S2048x1 .f32) (xs0 : Vec F S2048x64 .f32) : Vec F S2048x64 .f32 :=
  VO2_3.read (Elt F) (VO2_3.writes (Elt F) VO2_3.junk (kernelRun2_B c i arg2 harg2 arg3 harg3 arg4 harg4 arg5 harg5 arg6 harg6 hc0 hc1 x0 x1 x2 xs0).1)

/-- Case B's pieces for the scratch accumulator cover it (whole-buffer stores). -/
theorem scover2_B_0 (c : Dev nD) (i : grid2.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : ¬cond2_0 i) (hc1 : ¬cond2_1 i)
    (x0 : Vec F S2048x2048 .bf16) (x1 : Vec F S2048x64 .bf16) (x2 : Vec F S2048x1 .f32) (xs0 : Vec F S2048x64 .f32) (y : S2048x64.Idx) :
    ∃ pc ∈ (kernelRun2_B c i arg2 harg2 arg3 harg3 arg4 harg4 arg5 harg5 arg6 harg6 hc0 hc1 x0 x1 x2 xs0).2.1, y ∈ pc.1.set :=
  View.cover_of_tiledL (kernelRun2_B c i arg2 harg2 arg3 harg3 arg4 harg4 arg5 harg5 arg6 harg6 hc0 hc1 x0 x1 x2 xs0).2.1 S2048x64.size (by sl_kernel_rfl) y

/-- What case B leaves in the scratch accumulator: its pieces read back over junk. -/
def sout2_B_0 (c : Dev nD) (i : grid2.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : ¬cond2_0 i) (hc1 : ¬cond2_1 i)
    (x0 : Vec F S2048x2048 .bf16) (x1 : Vec F S2048x64 .bf16) (x2 : Vec F S2048x1 .f32) (xs0 : Vec F S2048x64 .f32) : Vec F S2048x64 .f32 :=
  VS2_0.read (Elt F) (VS2_0.writes (Elt F) VS2_0.junk (kernelRun2_B c i arg2 harg2 arg3 harg3 arg4 harg4 arg5 harg5 arg6 harg6 hc0 hc1 x0 x1 x2 xs0).2.1)

/-- Case C's pieces for the output window tile its block (one store of the whole block), so they cover it. -/
theorem cover2_C_3 (c : Dev nD) (i : grid2.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : ¬cond2_0 i) (hc1 : cond2_1 i)
    (x0 : Vec F S2048x2048 .bf16) (x1 : Vec F S2048x64 .bf16) (x2 : Vec F S2048x1 .f32) (xs0 : Vec F S2048x64 .f32) (y : S2048x64.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S2048x64.size (by sl_kernel_rfl) y

/-- What case C leaves in the output window's staging buffer: its pieces read back over junk. -/
def out2_C_3 (c : Dev nD) (i : grid2.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : ¬cond2_0 i) (hc1 : cond2_1 i)
    (x0 : Vec F S2048x2048 .bf16) (x1 : Vec F S2048x64 .bf16) (x2 : Vec F S2048x1 .f32) (xs0 : Vec F S2048x64 .f32) : Vec F S2048x64 .f32 :=
  VO2_3.read (Elt F) (VO2_3.writes (Elt F) VO2_3.junk (kernelRun2_C c i arg2 harg2 arg3 harg3 arg4 harg4 arg5 harg5 arg6 harg6 hc0 hc1 x0 x1 x2 xs0).1)

/-- Case C's pieces for the scratch accumulator cover it (whole-buffer stores). -/
theorem scover2_C_0 (c : Dev nD) (i : grid2.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : ¬cond2_0 i) (hc1 : cond2_1 i)
    (x0 : Vec F S2048x2048 .bf16) (x1 : Vec F S2048x64 .bf16) (x2 : Vec F S2048x1 .f32) (xs0 : Vec F S2048x64 .f32) (y : S2048x64.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S2048x64.size (by sl_kernel_rfl) y

/-- What case C leaves in the scratch accumulator: its pieces read back over junk. -/
def sout2_C_0 (c : Dev nD) (i : grid2.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : ¬cond2_0 i) (hc1 : cond2_1 i)
    (x0 : Vec F S2048x2048 .bf16) (x1 : Vec F S2048x64 .bf16) (x2 : Vec F S2048x1 .f32) (xs0 : Vec F S2048x64 .f32) : Vec F S2048x64 .f32 :=
  VS2_0.read (Elt F) (VS2_0.writes (Elt F) VS2_0.junk (kernelRun2_C c i arg2 harg2 arg3 harg3 arg4 harg4 arg5 harg5 arg6 harg6 hc0 hc1 x0 x1 x2 xs0).2.1)

section Region2
-- the core's buffer contents when the region is entered
variable (V : (c : Dev nD) → (b : Ref sig .tc) → Buf (Elt F) ((c : Thread nD τ).loc b))

/-! ## What the output window and the accumulator hold after each point -/

/-- THE ACCUMULATION. What the output window's staging buffer and the scratch accumulator hold after the body at position
    `n` (a pair: output, accumulator): the case k = n % 4 selects, run at the point's memrefs and input blocks, the
    accumulator in cases B and C over what this leaves at `n - 1`. The assignment "k = 0 and k = 3" is met by no point. -/
def outsAt2 (c : Dev nD) : (n : ℕ) → n < cfg2.N → Vec F S2048x64 .f32 × Vec F S2048x64 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 4 = 0 then
      if h1 : (n + 1) % 4 = 3 then
        False.elim (by omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 4 = 3 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

/-- `outsAt2` at a point of case A: that case's contents. -/
theorem outsAt2_A (c : Dev nD) (t : Fin cfg2.N) (h0 : t.val % 4 = 0) (h1 : ¬t.val % 4 = 3) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 4 = 0) (h1 : ¬t.val % 4 = 3) :
    outsAt2 V c t.val t.isLt = (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left. -/
theorem outsAt2_C (c : Dev nD) (t : Fin cfg2.N) (h0 : ¬t.val % 4 = 0) (h1 : t.val % 4 = 3) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the launch hands the region (the accumulator
    at anything); afterwards the accumulator at what the point before left in it (`outsAt2`'s second component), the
    other scoped buffers and the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ others2 c) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulator at that point's contents. -/
theorem PhiS2_succ (c : Dev nD) (n : ℕ) (hn : n < cfg2.N) :
    PhiS2 V c (n + 1) hn = iprop(iprop(owns (c : Thread nD τ) scM2_0 fullShare ((outsAt2 V c n hn).2) ∗ others2 c) ∗ (∃ r, prngReg c r)) := rfl

/-- Before a point that is not the first: the accumulator at what the point before left. -/
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ others2 c) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block and the output's at `outsAt2`'s first component; the invariant `PhiS2`;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start (the proof data at `t.castSucc`), restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks (`before2_W`); k = t % 4 says which case the point is in;
    the case's run applies; the invariant hands the body the accumulator at what the point before left (at anything at
    the first point) and takes it back at this point's contents (the run's pieces cover it); the other scoped buffers,
    the generator register and what the core owes pass through untouched; in cases A and B the output window's buffer
    is handed back as found, in case C at the block stored. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 4 = 0
  · by_cases h1 : t.val % 4 = 3
    · exfalso; omega
    · -- case A (k = 0)
      rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, Hr⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitr [Hg]
          · isplitl [HS0]
            · unfold owns; iexists _; isplitr
              swap; · iexact HS0
              ipureintro; exact View.read_writes_of_cover _ _ _ _ _ (scover2_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      · rw [PhiS2_castSucc V c t, PhiS2_pos V c _ _ hz]
        iintro ⟨⟨⟨HS0, Hr⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hr Hg]
        · isplitr [Hg]
          · isplitl [HS0]
            · unfold owns; iexists _; isplitr
              swap; · iexact HS0
              ipureintro; exact View.read_writes_of_cover _ _ _ _ _ (scover2_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · by_cases h1 : t.val % 4 = 3
    · -- case C (k = 3)
      rw [show (dat2 V c).leavesExact 3 t = owns (c : Thread nD τ) (ms2_3 t) fullShare ((dat2 V c).after 3 t) from by
        unfold Dat.leavesExact; rw [liveAt2_3_C t (fun h => h0 ((hcond2_0 t).mp h)) ((hcond2_1 t).mpr h1)], after2_3]
      rw [outsAt2_C V c t h0 h1]
      unfold out2_C_3 sout2_C_0; (try dsimp only)
      by_cases hz : t.val = 0
      · exfalso; omega
      · rw [PhiS2_castSucc V c t, PhiS2_pos V c _ _ hz]
        iintro ⟨⟨⟨HS0, Hr⟩, Hg⟩, Ho, ⟨%d0, H0⟩, ⟨%d1, H1⟩, ⟨%d2, H2⟩, ⟨%d3, H3⟩⟩
        iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hr Hg]
        · isplitr [Hg]
          · isplitl [HS0]
            · unfold owns; iexists _; isplitr
              swap; · iexact HS0
              ipureintro; exact View.read_writes_of_cover _ _ _ _ _ (scover2_C_0 c _ _ _ _ _ _ _ _ _ _ _ _ _ _ _ _ _)
            iexact Hr
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover2_C_3 c _ _ _ _ _ _ _ _ _ _ _ _ _ _ _ _ _)
    · -- case B (k = 1, 2)
      rw [Dat.leavesExact_idle (dat2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨⟨HS0, Hr⟩, Hg⟩, Ho, ⟨%d0, H0⟩, ⟨%d1, H1⟩, ⟨%d2, H2⟩, ⟨%d3, H3⟩⟩
        iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitr [Hg]
          · isplitl [HS0]
            · unfold owns; iexists _; isplitr
              swap; · iexact HS0
              ipureintro; exact View.read_writes_of_cover _ _ _ _ _ (scover2_B_0 c _ _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but none the invariant gives back what the launch handed the region: the accumulator's named contents
    are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hr⟩, Hg⟩
  isplitr [Hg]
  · isplitl [HS0]
    · iexists _; iexact HS0
    iexact Hr
  iexact Hg

/-- The same after the last point. -/
theorem hout2 (c : Dev nD) : (dat2 V c).Φ (Fin.last cfg2.N) ⊢ Pipeline.ΦA spec2 c :=
  Phi_out2 V c _ (by rw [Fin.val_last]; have : cfg2.N = 16 := N_2; omega)

end Region2

end Cert.KernelIdeal.Hand

end
-- ==== Proof.KI.Run.lean ====
/- The kernel program's run, assembled over the ten items of its @main: region 0 (the row sums and the copy of the
   adjacency matrix), five stretches of host operations (the normalizing factors d and the first layer's scaled features),
   region 1 (the first graph-convolution layer), a stretch (the second layer's scaled features), region 2 (the second
   layer), a stretch (the linear head).

   The buffers' contents are folded through the items from the launch memory: a stretch applies its operations; a region
   replaces its windows' arrays by what its write-backs leave and touches nothing else. Each region is entered with every
   unscoped buffer at the fold's contents there and leaves them at the next; the launch theorem for a list of segments
   composes them. Its post names every unscoped buffer after the run, from which the frame (the arguments end as
   launched, since no item writes one) and the result's contents are read. Everything here holds at any float instance. -/
import proofs.«177097_j68143951118910_2_alg».proof.Proof.Gen.KernelIdeal.Launch
import proofs.«177097_j68143951118910_2_alg».proof.Proof.Gen.KernelIdeal.Skeleton
import proofs.«177097_j68143951118910_2_alg».proof.Proof.Gen.KernelIdeal.Points
import proofs.«177097_j68143951118910_2_alg».proof.Proof.KI.R0.Frame
import proofs.«177097_j68143951118910_2_alg».proof.Proof.KI.R1.Frame
import proofs.«177097_j68143951118910_2_alg».proof.Proof.KI.R2.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary of @main: a fold from the launch memory

@main is: region 0; five stretches of host operations; region 1; a stretch; region 2; a stretch. `Bj` is what core `c`'s
buffers hold after item j-1. -/

/-- Core `c`'s buffers at launch. -/
abbrev B0 : Dev nD → Valuation τ sig (Elt F) := fun c b => (s₀ m ρ).mem ((c : Dev nD), b)
/-- The same read at the TensorCore's references (what region 0's proof data take). -/
abbrev VB0 : (c : Dev nD) → (b : Ref sig .tc) → Buf (Elt F) ((c : Thread nD τ).loc b) := fun c b => B0 m ρ c b
/-- At region 0's exit: its arrays at what the pipeline leaves (the inputs as entered, each output's write-backs folded),
    every other buffer as entered. -/
def B1 (c : Dev nD) : Valuation τ sig (Elt F) :=
  Pipeline.withArrays spec0 c (B0 m ρ c) fun w => (dat0 (VB0 m ρ) c).arrAt w cfg0.N
theorem B1_arr (c : Dev nD) (w : Fin cfg0.W) :
    B1 m ρ c (Proc.devRef .tc (Pipeline.arrRef spec0 w)) = (dat0 (VB0 m ρ) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m ρ c (Proc.devRef .tc b) = B0 m ρ c (Proc.devRef .tc b) := by
  unfold B1; exact Pipeline.withArrays_of_ne spec0 c _ _ b hb
/-- The same read at the TensorCore's references (region 0's exit contents). -/
abbrev VB1 : (c : Dev nD) → (b : Ref sig .tc) → Buf (Elt F) ((c : Thread nD τ).loc b) := fun c b => B1 m ρ c b
theorem hF0 (c : Dev nD) (w : Fin cfg0.W) : (dat0 (VB0 m ρ) c).arrAt w cfg0.N = VB1 m ρ c (Pipeline.arrRef spec0 w) :=
  (B1_arr m ρ c w).symm
theorem hrest0 (c : Dev nD) : ∀ b, b ∉ Finset.univ.image (Pipeline.arrRef spec0) → VB1 m ρ c b = VB0 m ρ c b :=
  fun b hb => B1_of_ne m ρ c b fun w e => hb (Finset.mem_image.mpr ⟨w, Finset.mem_univ _, e⟩)

abbrev B2 : Dev nD → Valuation τ sig (Elt F) := fun c => StableHlo.after hostOps1 (B1 m ρ c)
abbrev B3 : Dev nD → Valuation τ sig (Elt F) := fun c => StableHlo.after hostOps1_1 (B2 m ρ c)
abbrev B4 : Dev nD → Valuation τ sig (Elt F) := fun c => StableHlo.after hostOps1_2 (B3 m ρ c)
abbrev B5 : Dev nD → Valuation τ sig (Elt F) := fun c => StableHlo.after hostOps1_3 (B4 m ρ c)
abbrev B6 : Dev nD → Valuation τ sig (Elt F) := fun c => StableHlo.after hostOps1_4 (B5 m ρ c)
/-- The same read at the TensorCore's references (what region 1's proof data take). -/
abbrev VB6 : (c : Dev nD) → (b : Ref sig .tc) → Buf (Elt F) ((c : Thread nD τ).loc b) := fun c b => B6 m ρ c b
/-- At region 1's exit: its arrays at what the pipeline leaves (the inputs as entered, each output's write-backs folded),
    every other buffer as entered. -/
def B7 (c : Dev nD) : Valuation τ sig (Elt F) :=
  Pipeline.withArrays spec1 c (B6 m ρ c) fun w => (dat1 (VB6 m ρ) c).arrAt w cfg1.N
theorem B7_arr (c : Dev nD) (w : Fin cfg1.W) :
    B7 m ρ c (Proc.devRef .tc (Pipeline.arrRef spec1 w)) = (dat1 (VB6 m ρ) c).arrAt w cfg1.N := by
  unfold B7; exact Pipeline.withArrays_arr spec1 launch1.win.arr_inj c _ _ w
theorem B7_of_ne (c : Dev nD) (b : Ref sig .tc) (hb : ∀ w, Pipeline.arrRef spec1 w ≠ b) :
    B7 m ρ c (Proc.devRef .tc b) = B6 m ρ c (Proc.devRef .tc b) := by
  unfold B7; exact Pipeline.withArrays_of_ne spec1 c _ _ b hb
/-- The same read at the TensorCore's references (region 1's exit contents). -/
abbrev VB7 : (c : Dev nD) → (b : Ref sig .tc) → Buf (Elt F) ((c : Thread nD τ).loc b) := fun c b => B7 m ρ c b
theorem hF1 (c : Dev nD) (w : Fin cfg1.W) : (dat1 (VB6 m ρ) c).arrAt w cfg1.N = VB7 m ρ c (Pipeline.arrRef spec1 w) :=
  (B7_arr m ρ c w).symm
theorem hrest1 (c : Dev nD) : ∀ b, b ∉ Finset.univ.image (Pipeline.arrRef spec1) → VB7 m ρ c b = VB6 m ρ c b :=
  fun b hb => B7_of_ne m ρ c b fun w e => hb (Finset.mem_image.mpr ⟨w, Finset.mem_univ _, e⟩)

abbrev B8 : Dev nD → Valuation τ sig (Elt F) := fun c => StableHlo.after hostOps2 (B7 m ρ c)
/-- The same read at the TensorCore's references (what region 2's proof data take). -/
abbrev VB8 : (c : Dev nD) → (b : Ref sig .tc) → Buf (Elt F) ((c : Thread nD τ).loc b) := fun c b => B8 m ρ c b
/-- At region 2's exit: its arrays at what the pipeline leaves (the inputs as entered, each output's write-backs folded),
    every other buffer as entered. -/
def B9 (c : Dev nD) : Valuation τ sig (Elt F) :=
  Pipeline.withArrays spec2 c (B8 m ρ c) fun w => (dat2 (VB8 m ρ) c).arrAt w cfg2.N
theorem B9_arr (c : Dev nD) (w : Fin cfg2.W) :
    B9 m ρ c (Proc.devRef .tc (Pipeline.arrRef spec2 w)) = (dat2 (VB8 m ρ) c).arrAt w cfg2.N := by
  unfold B9; exact Pipeline.withArrays_arr spec2 launch2.win.arr_inj c _ _ w
theorem B9_of_ne (c : Dev nD) (b : Ref sig .tc) (hb : ∀ w, Pipeline.arrRef spec2 w ≠ b) :
    B9 m ρ c (Proc.devRef .tc b) = B8 m ρ c (Proc.devRef .tc b) := by
  unfold B9; exact Pipeline.withArrays_of_ne spec2 c _ _ b hb
/-- The same read at the TensorCore's references (region 2's exit contents). -/
abbrev VB9 : (c : Dev nD) → (b : Ref sig .tc) → Buf (Elt F) ((c : Thread nD τ).loc b) := fun c b => B9 m ρ c b
theorem hF2 (c : Dev nD) (w : Fin cfg2.W) : (dat2 (VB8 m ρ) c).arrAt w cfg2.N = VB9 m ρ c (Pipeline.arrRef spec2 w) :=
  (B9_arr m ρ c w).symm
theorem hrest2 (c : Dev nD) : ∀ b, b ∉ Finset.univ.image (Pipeline.arrRef spec2) → VB9 m ρ c b = VB8 m ρ c b :=
  fun b hb => B9_of_ne m ρ c b fun w e => hb (Finset.mem_image.mpr ⟨w, Finset.mem_univ _, e⟩)

abbrev B10 : Dev nD → Valuation τ sig (Elt F) := fun c => StableHlo.after hostOps3 (B9 m ρ c)

/-! ## The arguments end as launched: no host operation writes one, and a region either reads it through an input window
    or does not touch it -/

theorem B10_main_arg0 (c : Dev nD) : B10 m ρ c (Proc.devRef .tc main_arg0) = m ((c : Thread nD τ).loc main_arg0) :=
  calc B10 m ρ c (Proc.devRef .tc main_arg0)
    _ = B9 m ρ c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B8 m ρ c (Proc.devRef .tc main_arg0) := B9_of_ne m ρ c main_arg0 (by decide)
    _ = B7 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B6 m ρ c (Proc.devRef .tc main_arg0) := B7_of_ne m ρ c main_arg0 (by decide)
    _ = B5 m ρ c (Proc.devRef .tc main_arg0) := StableHlo.after_of_forall_not_mem (b := Proc.devRef .tc main_arg0) _ _ (List.forall_iff_forall_mem.mp (by
          simp only [hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B4 m ρ c (Proc.devRef .tc main_arg0) := StableHlo.after_of_forall_not_mem (b := Proc.devRef .tc main_arg0) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B3 m ρ c (Proc.devRef .tc main_arg0) := StableHlo.after_of_forall_not_mem (b := Proc.devRef .tc main_arg0) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B2 m ρ c (Proc.devRef .tc main_arg0) := StableHlo.after_of_forall_not_mem (b := Proc.devRef .tc main_arg0) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B0 m ρ c (Proc.devRef .tc main_arg0) := (B1_arr m ρ c 0).trans (((dat0 (VB0 m ρ) c).arrAt_in 0 rfl _).trans (A_eq0 (VB0 m ρ) c 0))
    _ = m ((c : Thread nD τ).loc main_arg0) := rfl

theorem B10_main_arg1 (c : Dev nD) : B10 m ρ c (Proc.devRef .tc main_arg1) = m ((c : Thread nD τ).loc main_arg1) :=
  calc B10 m ρ c (Proc.devRef .tc main_arg1)
    _ = B9 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B8 m ρ c (Proc.devRef .tc main_arg1) := B9_of_ne m ρ c main_arg1 (by decide)
    _ = B7 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B6 m ρ c (Proc.devRef .tc main_arg1) := B7_of_ne m ρ c main_arg1 (by decide)
    _ = B5 m ρ c (Proc.devRef .tc main_arg1) := StableHlo.after_of_forall_not_mem (b := Proc.devRef .tc main_arg1) _ _ (List.forall_iff_forall_mem.mp (by
          simp only [hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B4 m ρ c (Proc.devRef .tc main_arg1) := StableHlo.after_of_forall_not_mem (b := Proc.devRef .tc main_arg1) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B3 m ρ c (Proc.devRef .tc main_arg1) := StableHlo.after_of_forall_not_mem (b := Proc.devRef .tc main_arg1) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B2 m ρ c (Proc.devRef .tc main_arg1) := StableHlo.after_of_forall_not_mem (b := Proc.devRef .tc main_arg1) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B0 m ρ c (Proc.devRef .tc main_arg1) := B1_of_ne m ρ c main_arg1 (by decide)
    _ = m ((c : Thread nD τ).loc main_arg1) := rfl

theorem B10_main_arg2 (c : Dev nD) : B10 m ρ c (Proc.devRef .tc main_arg2) = m ((c : Thread nD τ).loc main_arg2) :=
  calc B10 m ρ c (Proc.devRef .tc main_arg2)
    _ = B9 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B8 m ρ c (Proc.devRef .tc main_arg2) := B9_of_ne m ρ c main_arg2 (by decide)
    _ = B7 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B6 m ρ c (Proc.devRef .tc main_arg2) := B7_of_ne m ρ c main_arg2 (by decide)
    _ = B5 m ρ c (Proc.devRef .tc main_arg2) := StableHlo.after_of_forall_not_mem (b := Proc.devRef .tc main_arg2) _ _ (List.forall_iff_forall_mem.mp (by
          simp only [hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B4 m ρ c (Proc.devRef .tc main_arg2) := StableHlo.after_of_forall_not_mem (b := Proc.devRef .tc main_arg2) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B3 m ρ c (Proc.devRef .tc main_arg2) := StableHlo.after_of_forall_not_mem (b := Proc.devRef .tc main_arg2) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B2 m ρ c (Proc.devRef .tc main_arg2) := StableHlo.after_of_forall_not_mem (b := Proc.devRef .tc main_arg2) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B0 m ρ c (Proc.devRef .tc main_arg2) := B1_of_ne m ρ c main_arg2 (by decide)
    _ = m ((c : Thread nD τ).loc main_arg2) := rfl

theorem B10_main_arg3 (c : Dev nD) : B10 m ρ c (Proc.devRef .tc main_arg3) = m ((c : Thread nD τ).loc main_arg3) :=
  calc B10 m ρ c (Proc.devRef .tc main_arg3)
    _ = B9 m ρ c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B8 m ρ c (Proc.devRef .tc main_arg3) := B9_of_ne m ρ c main_arg3 (by decide)
    _ = B7 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B6 m ρ c (Proc.devRef .tc main_arg3) := B7_of_ne m ρ c main_arg3 (by decide)
    _ = B5 m ρ c (Proc.devRef .tc main_arg3) := StableHlo.after_of_forall_not_mem (b := Proc.devRef .tc main_arg3) _ _ (List.forall_iff_forall_mem.mp (by
          simp only [hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B4 m ρ c (Proc.devRef .tc main_arg3) := StableHlo.after_of_forall_not_mem (b := Proc.devRef .tc main_arg3) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B3 m ρ c (Proc.devRef .tc main_arg3) := StableHlo.after_of_forall_not_mem (b := Proc.devRef .tc main_arg3) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B2 m ρ c (Proc.devRef .tc main_arg3) := StableHlo.after_of_forall_not_mem (b := Proc.devRef .tc main_arg3) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B0 m ρ c (Proc.devRef .tc main_arg3) := B1_of_ne m ρ c main_arg3 (by decide)
    _ = m ((c : Thread nD τ).loc main_arg3) := rfl

theorem B10_main_arg4 (c : Dev nD) : B10 m ρ c (Proc.devRef .tc main_arg4) = m ((c : Thread nD τ).loc main_arg4) :=
  calc B10 m ρ c (Proc.devRef .tc main_arg4)
    _ = B9 m ρ c (Proc.devRef .tc main_arg4) := StableHlo.after_of_forall_not_mem (b := Proc.devRef .tc main_arg4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B8 m ρ c (Proc.devRef .tc main_arg4) := B9_of_ne m ρ c main_arg4 (by decide)
    _ = B7 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B6 m ρ c (Proc.devRef .tc main_arg4) := B7_of_ne m ρ c main_arg4 (by decide)
    _ = B5 m ρ c (Proc.devRef .tc main_arg4) := StableHlo.after_of_forall_not_mem (b := Proc.devRef .tc main_arg4) _ _ (List.forall_iff_forall_mem.mp (by
          simp only [hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B4 m ρ c (Proc.devRef .tc main_arg4) := StableHlo.after_of_forall_not_mem (b := Proc.devRef .tc main_arg4) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B3 m ρ c (Proc.devRef .tc main_arg4) := StableHlo.after_of_forall_not_mem (b := Proc.devRef .tc main_arg4) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B2 m ρ c (Proc.devRef .tc main_arg4) := StableHlo.after_of_forall_not_mem (b := Proc.devRef .tc main_arg4) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B0 m ρ c (Proc.devRef .tc main_arg4) := B1_of_ne m ρ c main_arg4 (by decide)
    _ = m ((c : Thread nD τ).loc main_arg4) := rfl

theorem B10_main_arg5 (c : Dev nD) : B10 m ρ c (Proc.devRef .tc main_arg5) = m ((c : Thread nD τ).loc main_arg5) :=
  calc B10 m ρ c (Proc.devRef .tc main_arg5)
    _ = B9 m ρ c (Proc.devRef .tc main_arg5) := StableHlo.after_of_forall_not_mem (b := Proc.devRef .tc main_arg5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B8 m ρ c (Proc.devRef .tc main_arg5) := B9_of_ne m ρ c main_arg5 (by decide)
    _ = B7 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B6 m ρ c (Proc.devRef .tc main_arg5) := B7_of_ne m ρ c main_arg5 (by decide)
    _ = B5 m ρ c (Proc.devRef .tc main_arg5) := StableHlo.after_of_forall_not_mem (b := Proc.devRef .tc main_arg5) _ _ (List.forall_iff_forall_mem.mp (by
          simp only [hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B4 m ρ c (Proc.devRef .tc main_arg5) := StableHlo.after_of_forall_not_mem (b := Proc.devRef .tc main_arg5) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B3 m ρ c (Proc.devRef .tc main_arg5) := StableHlo.after_of_forall_not_mem (b := Proc.devRef .tc main_arg5) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B2 m ρ c (Proc.devRef .tc main_arg5) := StableHlo.after_of_forall_not_mem (b := Proc.devRef .tc main_arg5) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B0 m ρ c (Proc.devRef .tc main_arg5) := B1_of_ne m ρ c main_arg5 (by decide)
    _ = m ((c : Thread nD τ).loc main_arg5) := rfl

/-! ## The proof data family and the thread state -/

/-- No pipeline has a prefetched table. -/
abbrev admH : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) admH p) c
  | ⟨0, _⟩ => fun c => dat0 (VB0 m ρ) c
  | ⟨1, _⟩ => fun c => dat1 (VB6 m ρ) c
  | ⟨2, _⟩ => fun c => dat2 (VB8 m ρ) c
abbrev 𝒱H : Variants := Variants.none
/-- No core owes another anything: no level is assigned. -/
abbrev LH : GSem nD τ sig → Finset Unit := fun _ => ∅
abbrev lvH : GSem nD τ sig → Unit → ℕ := fun _ _ => 0
/-- What rides beside the buffers through every segment: the generator register at some state, and nothing owed. -/
abbrev RH (c : Dev nD) : sProp 𝕄 := iprop((∃ r, prngReg c r) ∗ ∃ W, owes (c : Thread nD τ) (0 : CellTallies nD τ sig Unit) W)
/-- A stretch of host operations as a segment over the unscoped buffers from the contents `W`. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

theorem hostOps1_freshH : (hostOps1 : List (HloOp τ sig (Elt F))).Forall fun op => op.fresh = ∅ := by
  simp only [List.Forall]; repeat' constructor
theorem hostOps1_1_freshH : (hostOps1_1 : List (HloOp τ sig (Elt F))).Forall fun op => op.fresh = ∅ := by
  simp only [List.Forall]; repeat' constructor
theorem hostOps1_2_freshH : (hostOps1_2 : List (HloOp τ sig (Elt F))).Forall fun op => op.fresh = ∅ := by
  simp only [List.Forall]; repeat' constructor
theorem hostOps1_3_freshH : (hostOps1_3 : List (HloOp τ sig (Elt F))).Forall fun op => op.fresh = ∅ := by
  simp only [List.Forall]; repeat' constructor
theorem hostOps1_4_freshH : (hostOps1_4 : List (HloOp τ sig (Elt F))).Forall fun op => op.fresh = ∅ := by
  simp only [List.Forall]; repeat' constructor
theorem hostOps2_freshH : (hostOps2 : List (HloOp τ sig (Elt F))).Forall fun op => op.fresh = ∅ := by
  simp only [List.Forall]; repeat' constructor
theorem hostOps3_freshH : (hostOps3 : List (HloOp τ sig (Elt F))).Forall fun op => op.fresh = ∅ := by
  simp only [List.Forall]; repeat' constructor
/-- An unscoped TensorCore reference is among those the thread state holds. -/
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register
    at some state. -/
abbrev TnH (c : Dev nD) : sProp 𝕄 := iprop(StableHlo.held (c : Thread nD τ) (Pipeline.ucRefs τ sig) (B10 m ρ c) ∗ ∃ r, prngReg c r)

/-! ## The regions as segments -/

set_option backward.isDefEq.respectTransparency.types false in
/-- Region 0 as a segment: entered with every unscoped buffer at `B0`, left with them at `B1`. Its arrays are
    split out of the unscoped buffers at entry and put back at their final contents at exit; the generator register goes
    into the region invariant and comes back; nothing is owed; the kernel has no semaphore of its own. -/
def reg0 : Pipeline.RegionSeg (pcfgs (F := F)) admH (pdats m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (VB0 m ρ) c).loose
  hwaits := Pipeline.hwaits_of_owed_zero _ _ _ _ LH lvH 0 fun _ _ => rfl
  pre c := iprop(StableHlo.held (c : Thread nD τ) (Pipeline.ucRefs τ sig) (B0 m ρ c) ∗ RH c)
  post c := iprop(StableHlo.held (c : Thread nD τ) (Pipeline.ucRefs τ sig) (B1 m ρ c) ∗ RH c)
  X c := iprop(∃ r, prngReg c r)
  Y c := iprop(∃ r, prngReg c r)
  Z c := Pipeline.unscopedRest (Ix := Unit) (Name := ℕ) (U := UR sig nD τ) (Lvl := ℕ) spec0 c (VB0 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (VB0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (VB0 m ρ c) (VB1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `B6`, left with them at `B7`. Its arrays are
    split out of the unscoped buffers at entry and put back at their final contents at exit; the generator register goes
    into the region invariant and comes back; nothing is owed; the kernel has no semaphore of its own. -/
def reg1 : Pipeline.RegionSeg (pcfgs (F := F)) admH (pdats m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (VB6 m ρ) c).loose
  hwaits := Pipeline.hwaits_of_owed_zero _ _ _ _ LH lvH 1 fun _ _ => rfl
  pre c := iprop(StableHlo.held (c : Thread nD τ) (Pipeline.ucRefs τ sig) (B6 m ρ c) ∗ RH c)
  post c := iprop(StableHlo.held (c : Thread nD τ) (Pipeline.ucRefs τ sig) (B7 m ρ c) ∗ RH c)
  X c := iprop(∃ r, prngReg c r)
  Y c := iprop(∃ r, prngReg c r)
  Z c := Pipeline.unscopedRest (Ix := Unit) (Name := ℕ) (U := UR sig nD τ) (Lvl := ℕ) spec1 c (VB6 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (VB6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : Pipeline.ΦA spec1 c ⊢ (pdats m ρ 1 c).Φ 0 := hin1 (VB6 m ρ) c
    unfold Pipeline.ΦA at h1
    iintro ⟨Hp, -, Hr⟩
    iapply h1
    isplitl [Hr]; · iexact Hr
    iexact Hp
  hout c := by
    rw [Pipeline.ownSems0_none]
    have h1 : (pdats m ρ 1 c).Φ (Fin.last _) ⊢ Pipeline.ΦA spec1 c := hout1 (VB6 m ρ) c
    unfold Pipeline.ΦA at h1
    iintro HP
    ihave H := h1 $$ HP
    icases H with ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (VB6 m ρ c) (VB7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `B8`, left with them at `B9`. Its arrays are
    split out of the unscoped buffers at entry and put back at their final contents at exit; the generator register goes
    into the region invariant and comes back; nothing is owed; the kernel has no semaphore of its own. -/
def reg2 : Pipeline.RegionSeg (pcfgs (F := F)) admH (pdats m ρ) () defs₀ 𝒱H LH lvH 2 where
  win := launch2.win.to₀
  block_pos := launch2.block_pos
  stage_whole := launch2.stage_whole
  K := PEmpty
  osem k := k.elim
  ho := Pipeline.OwnSemFacts.none _
  hbody c := (body_obligation2 (VB8 m ρ) c).loose
  hwaits := Pipeline.hwaits_of_owed_zero _ _ _ _ LH lvH 2 fun _ _ => rfl
  pre c := iprop(StableHlo.held (c : Thread nD τ) (Pipeline.ucRefs τ sig) (B8 m ρ c) ∗ RH c)
  post c := iprop(StableHlo.held (c : Thread nD τ) (Pipeline.ucRefs τ sig) (B9 m ρ c) ∗ RH c)
  X c := iprop(∃ r, prngReg c r)
  Y c := iprop(∃ r, prngReg c r)
  Z c := Pipeline.unscopedRest (Ix := Unit) (Name := ℕ) (U := UR sig nD τ) (Lvl := ℕ) spec2 c (VB8 m ρ c)
  hentry c := by
    rw [Pipeline.ownSems0_none]
    have hsplit := Pipeline.arrays_of_unscopedBufs (p := 2) (pcfgs (F := F)) admH (pdats m ρ) launch2.win launch2.arr_whole c
      ((pdats m ρ 2 c).share_full fun _ => rfl) (VB8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : Pipeline.ΦA spec2 c ⊢ (pdats m ρ 2 c).Φ 0 := hin2 (VB8 m ρ) c
    unfold Pipeline.ΦA at h1
    iintro ⟨Hp, -, Hr⟩
    iapply h1
    isplitl [Hr]; · iexact Hr
    iexact Hp
  hout c := by
    rw [Pipeline.ownSems0_none]
    have h1 : (pdats m ρ 2 c).Φ (Fin.last _) ⊢ Pipeline.ΦA spec2 c := hout2 (VB8 m ρ) c
    unfold Pipeline.ΦA at h1
    iintro HP
    ihave H := h1 $$ HP
    icases H with ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m ρ) ((pdats m ρ 2 c).share_full fun _ => rfl)
      (VB8 m ρ c) (VB9 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's ten items in order. -/
abbrev segsH : List (Pipeline.Seg (pcfgs (F := F)) admH (pdats m ρ) () defs₀ 𝒱H LH lvH) :=
  [ .region (reg0 m ρ),
    .host (hsegH hostOps1 hostOps1_sub hostOps1_freshH (B1 m ρ)),
    .host (hsegH hostOps1_1 hostOps1_1_sub hostOps1_1_freshH (B2 m ρ)),
    .host (hsegH hostOps1_2 hostOps1_2_sub hostOps1_2_freshH (B3 m ρ)),
    .host (hsegH hostOps1_3 hostOps1_3_sub hostOps1_3_freshH (B4 m ρ)),
    .host (hsegH hostOps1_4 hostOps1_4_sub hostOps1_4_freshH (B5 m ρ)),
    .region (reg1 m ρ),
    .host (hsegH hostOps2 hostOps2_sub hostOps2_freshH (B7 m ρ)),
    .region (reg2 m ρ),
    .host (hsegH hostOps3 hostOps3_sub hostOps3_freshH (B9 m ρ)) ]

set_option backward.isDefEq.respectTransparency.types false in
/-- THE RUN. From any memory with zero counters every weakly fair execution of @main on the TensorCores terminates, nothing
    faulting, and in every final state each unscoped buffer holds the last boundary's contents `B10`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B10 m ρ c b) :=
  Pipeline.θ_run_regions_kit (pcfgs (F := F)) admH (pdats m ρ) () cellOf_inj emb₁ defs₀ 𝒱H LH lvH m ρ main (segsH m ρ)
    (fun c Q => by
      rewrite [main_chain c, Pipeline.Seg.run_eq_chain,
        show (segsH m ρ).map Pipeline.Seg.prog = [
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          Prog.lift (.customCall (Pipeline.entry 2) ()),
          StableHlo.seq hostOps3 ] from rfl]
      exact .rfl)
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ RH c)) (Tₙ := TnH m ρ)
    (hch := ⟨fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (B10 m ρ c) ∗ RH c)
          ⊢ iprop(TnH m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach LH lvH fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B10 m ρ c b)
    (hfin := fun c s' => by
      iintro ⟨⟨Hh, -⟩, HSI⟩
      unfold StableHlo.held
      imodintro
      iapply (pointsTo_read_all (Pipeline.ucRefs τ sig) (fun b => (((c : Thread nD τ)).1, b)) (B10 m ρ c) s')
      isplitl [Hh] <;> iassumption)
    (hQ := fun s h c => h c)

/-! ## What a region leaves untouched -/

/-- Region 0 changes only its two result arrays: every other buffer (its input among them) is as at launch. -/
theorem B1_keep (c : Dev nD) (b : Ref sig .tc) (h0 : b ≠ main_v0_0) (h1 : b ≠ main_v0_1) :
    B1 m ρ c (Proc.devRef .tc b) = B0 m ρ c (Proc.devRef .tc b) := by
  by_cases hb : b = main_arg0
  · subst hb; exact (B1_arr m ρ c 0).trans (((dat0 (VB0 m ρ) c).arrAt_in 0 rfl _).trans (A_eq0 (VB0 m ρ) c 0))
  · exact B1_of_ne m ρ c b (fun w => match w with
      | ⟨0, _⟩ => fun e => hb e.symm
      | ⟨1, _⟩ => fun e => h0 e.symm
      | ⟨2, _⟩ => fun e => h1 e.symm)

/-- Region 1 changes only its result array. -/
theorem B7_keep (c : Dev nD) (b : Ref sig .tc) (h : b ≠ main_v12) :
    B7 m ρ c (Proc.devRef .tc b) = B6 m ρ c (Proc.devRef .tc b) := by
  by_cases h0 : b = main_v0_1
  · subst h0; exact (B7_arr m ρ c 0).trans (((dat1 (VB6 m ρ) c).arrAt_in 0 rfl _).trans (A_eq1 (VB6 m ρ) c 0))
  by_cases h1 : b = main_v11
  · subst h1; exact (B7_arr m ρ c 1).trans (((dat1 (VB6 m ρ) c).arrAt_in 1 rfl _).trans (A_eq1 (VB6 m ρ) c 1))
  by_cases h2 : b = main_v7
  · subst h2; exact (B7_arr m ρ c 2).trans (((dat1 (VB6 m ρ) c).arrAt_in 2 rfl _).trans (A_eq1 (VB6 m ρ) c 2))
  exact B7_of_ne m ρ c b (fun w => match w with
    | ⟨0, _⟩ => fun e => h0 e.symm
    | ⟨1, _⟩ => fun e => h1 e.symm
    | ⟨2, _⟩ => fun e => h2 e.symm
    | ⟨3, _⟩ => fun e => h e.symm)

/-- Region 2 changes only its result array. -/
theorem B9_keep (c : Dev nD) (b : Ref sig .tc) (h : b ≠ main_v17) :
    B9 m ρ c (Proc.devRef .tc b) = B8 m ρ c (Proc.devRef .tc b) := by
  by_cases h0 : b = main_v0_1
  · subst h0; exact (B9_arr m ρ c 0).trans (((dat2 (VB8 m ρ) c).arrAt_in 0 rfl _).trans (A_eq2 (VB8 m ρ) c 0))
  by_cases h1 : b = main_v16
  · subst h1; exact (B9_arr m ρ c 1).trans (((dat2 (VB8 m ρ) c).arrAt_in 1 rfl _).trans (A_eq2 (VB8 m ρ) c 1))
  by_cases h2 : b = main_v7
  · subst h2; exact (B9_arr m ρ c 2).trans (((dat2 (VB8 m ρ) c).arrAt_in 2 rfl _).trans (A_eq2 (VB8 m ρ) c 2))
  exact B9_of_ne m ρ c b (fun w => match w with
    | ⟨0, _⟩ => fun e => h0 e.symm
    | ⟨1, _⟩ => fun e => h1 e.symm
    | ⟨2, _⟩ => fun e => h2 e.symm
    | ⟨3, _⟩ => fun e => h e.symm)

/-! ## The frame, and the run with the result named -/

/-- The argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_ucH main_arg0 (by decide))).trans (B10_main_arg0 m ρ c),
     (h c _ (mem_ucH main_arg1 (by decide))).trans (B10_main_arg1 m ρ c),
     (h c _ (mem_ucH main_arg2 (by decide))).trans (B10_main_arg2 m ρ c),
     (h c _ (mem_ucH main_arg3 (by decide))).trans (B10_main_arg3 m ρ c),
     (h c _ (mem_ucH main_arg4 (by decide))).trans (B10_main_arg4 m ρ c),
     (h c _ (mem_ucH main_arg5 (by decide))).trans (B10_main_arg5 m ρ c)⟩) (run_all m ρ)

/-- The same run with the result array named: it ends at the last boundary's contents. -/
theorem run_result : θ_run defs (onTc (τ := τ) (main (F := F))) ⟨m, fun _ => 0, ρ⟩ (fun r => ∀ c : Dev nD,
      r.2.mem ((c.tc : Thread nD τ).loc main_v21) = B10 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_ucH main_v21 (by decide)),
     (h c _ (mem_ucH main_arg0 (by decide))).trans (B10_main_arg0 m ρ c),
     (h c _ (mem_ucH main_arg1 (by decide))).trans (B10_main_arg1 m ρ c),
     (h c _ (mem_ucH main_arg2 (by decide))).trans (B10_main_arg2 m ρ c),
     (h c _ (mem_ucH main_arg3 (by decide))).trans (B10_main_arg3 m ρ c),
     (h c _ (mem_ucH main_arg4 (by decide))).trans (B10_main_arg4 m ρ c),
     (h c _ (mem_ucH main_arg5 (by decide))).trans (B10_main_arg5 m ρ c)⟩) (run_all m ρ)

end Cert.KernelIdeal.Hand

end
-- ==== Proof.LibLaneSums.lean ====
/-
  Sums along one axis, and trailing unit axes, read at coordinates.

  On the extended reals a sum of a rank-3 array [a, b, c] along its middle axis, started from the neutral element, is at
  (p, f) the plain sum over k < b of the array at (p, k, f); a sum of an [a, b] array along its last axis is at p the sum
  over k < b of the array at (p, k).  A trailing unit axis moves no element: an [a] array seen as [a, 1] reads, at
  (p, 0), the array at p; an [a, b] array seen as [a, b, 1] reads, at (p, j, 0), the array at (p, j); and an [a, b, 1]
  array spread along its unit axis to [a, b, c] reads, at (p, j, f), the array at (p, j, 0).
-/
import Idealize.ShloMosaic.PureOps.Ideal.Laws
import Idealize.ShloMosaic.Lib.ValueIdx
import Idealize.ShloMosaic.Lib.Pipeline.Value

noncomputable section

namespace Cert.LibLaneSums

open Idealize.ShloMosaic Idealize.ShloMosaic.ValueIdx

variable {α : Type}

/-! ## Sums along one axis -/

/-- The source index above (p, f) with k on the summed middle axis is (p, k, f). -/
theorem lift_mid {a b c : ℕ} (h : (⟨3, ![a, b, c]⟩ : Shape).Reduces [1] ⟨2, ![a, c]⟩) (p : Fin a) (f : Fin c) (k : Fin b) :
    h.lift (ix2 p f) k = ix3 p k f := by
  funext d; apply Fin.ext
  show h.liftVal (ix2 p f) k.val d = (ix3 p k f d).val
  unfold Shape.Reduces.liftVal
  match d with
  | ⟨0, _⟩ => rfl
  | ⟨1, _⟩ => rfl
  | ⟨2, _⟩ => rfl

/-- The source index above p with k on the summed last axis is (p, k). -/
theorem lift_last {a b : ℕ} (h : (⟨2, ![a, b]⟩ : Shape).Reduces [1] ⟨1, ![a]⟩) (p : Fin a) (k : Fin b) :
    h.lift (ix1 p) k = ix2 p k := by
  funext d; apply Fin.ext
  show h.liftVal (ix1 p) k.val d = (ix2 p k d).val
  unfold Shape.Reduces.liftVal
  match d with
  | ⟨0, _⟩ => rfl
  | ⟨1, _⟩ => rfl

/-- A sum of an [a, b, c] array along its middle axis, from the neutral element, at (p, f): the sum over k of the
    array at (p, k, f). -/
theorem sum_mid_apply {a b c : ℕ} {φ : FTy} (src : FVec Ideal (⟨3, ![a, b, c]⟩ : Shape) φ) (acc : BitVec φ.bits)
    (h : (⟨3, ![a, b, c]⟩ : Shape).Reduces [1] ⟨2, ![a, c]⟩) (hφ : FKind.Formats φ) (hacc : acc = FKind.add.neutral φ hφ)
    (p : Fin a) (f : Fin c) :
    multiReduction .add [1] (⟨2, ![a, c]⟩ : Shape) src acc h hφ hacc (ix2 p f) = ∑ k : Fin b, src (ix3 p k f) :=
  (Ideal.multiReduction_add_single src acc h hφ hacc (ix2 p f)).trans
    (Finset.sum_congr rfl fun k _ => congrArg src (lift_mid h p f k))

/-- A sum of an [a, b] array along its last axis, from the neutral element, at p: the sum over k of the array at
    (p, k). -/
theorem sum_last_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] (⟨1, ![a]⟩ : Shape) src acc h hφ hacc (ix1 p) = ∑ k : Fin b, src (ix2 p k) :=
  (Ideal.multiReduction_add_single src acc h hφ hacc (ix1 p)).trans
    (Finset.sum_congr rfl fun k _ => congrArg src (lift_last h p k))

/-! ## Trailing unit axes -/

/-- An [a] array seen as [a, 1] reads, at (p, u), the array at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An [a, b] array seen as [a, b, 1] reads, at (p, j, u), the array at (p, j). -/
theorem shapeCast_ab_ab1_apply {a b : ℕ} (x : (⟨2, ![a, b]⟩ : Shape).Idx → α)
    (h : (⟨2, ![a, b]⟩ : Shape).ShapeCasts ⟨3, ![a, b, 1]⟩) (p : Fin a) (j : Fin b) (u : Fin 1) :
    shapeCast ⟨3, ![a, b, 1]⟩ x h (ix3 p j u) = x (ix2 p j) :=
  shapeCast_apply x h _ _ (by
    have hu : u.val = 0 := by omega
    rw [Shape.rowMajor_val_three, Shape.rowMajor_val_two]
    show p.val * b + j.val = (p.val * b + j.val) * 1 + u.val
    omega)

/-- An [a, b, 1] array spread along its unit axis to [a, b, c] reads, at (p, j, f), the array at (p, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (j : Fin b) (f : Fin c) :
    broadcastTo ⟨3, ![a, b, c]⟩ v h (ix3 p j f) = v (ix3 p j (0 : Fin 1)) := by
  refine broadcastTo_apply v h (ix3 p j f) (ix3 p j (0 : Fin 1)) fun ax => ?_
  match ax with
  | ⟨0, _⟩ =>
    show p.val = if a = 1 then 0 else p.val
    split
    · have := p.isLt; omega
    · rfl
  | ⟨1, _⟩ =>
    show j.val = if b = 1 then 0 else j.val
    split
    · have := j.isLt; omega
    · rfl
  | ⟨2, _⟩ => rfl

end Cert.LibLaneSums

end
-- ==== Proof.KI.R0.Value.lean ====
/- Region 0 (the row-sum kernel) read at the ideal values: what its two result arrays hold after the region, as
   functions of the TensorCore's buffer contents `V` when the region is entered. The found pieces are read back as
   payloads (any float instance); over the extended reals the accumulating payload adds a tile's row sums to the
   running ones and the copy's payload is the tile; the running row sums are, by induction on the point, partial
   sums of the array's rows over the columns of the tiles seen so far; each write-back writes a block of ONE
   whole-array contents, and the blocks cover the arrays. -/
import proofs.«177097_j68143951118910_2_alg».proof.Proof.KI.R0.Frame
import proofs.«177097_j68143951118910_2_alg».proof.Proof.LibLaneSums
import Idealize.ShloMosaic.PureOps.Ideal.Laws
import Idealize.ShloMosaic.Lib.ValueIdx
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

/-! ## The found pieces, as values (any float instance) -/

section Pieces
variable {F : FTy → Type} [FloatOps F]

theorem hz0 : (![0, 0] : Fin 2 → Nat) = fun _ => 0 := funext fun a => by fin_cases a <;> rfl

/-- CASE B, the running row sums: the one covering store's payload, its loads reading the whole buffers. -/
theorem out0_B_1_eq (c : Dev nD) (i : grid0.Coords) (a2 : Memref sig .tc .vmem S2048x1024 .f32) (h2 : a2.IsWhole)
    (a3 : Memref sig .tc .vmem S2048x1 .f32) (h3 : a3.IsWhole) (a4 : Memref sig .tc .vmem S2048x1024 .bf16) (h4 : a4.IsWhole)
    (hc : ¬cond0_0 i) (x : Vec F S2048x1024 .f32) (xo : Vec F S2048x1 .f32) :
    out0_B_1 c i a2 h2 a3 h3 a4 h4 hc x xo = k0_pay2 x xo := by
  unfold out0_B_1
  rw [View.read_writes_eq_canon _ _ _ (cover0_B_1 c i a2 h2 a3 h3 a4 h4 hc x xo)]
  unfold kernelRun0_B
  dsimp only
  rw [View.canon_unit_zero hz0]
  simp only [View.readAt_eq_ld, h2.read_unread, h3.read_unread, View.ld_unit_zero (S := S2048x1024) hz0, View.ld_unit_zero (S := S2048x1) hz0]

/-- CASE A, the running row sums: the zero block is stored, read back, and the tile's row sums added to it. -/
theorem out0_A_1_eq (c : Dev nD) (i : grid0.Coords) (a2 : Memref sig .tc .vmem S2048x1024 .f32) (h2 : a2.IsWhole)
    (a3 : Memref sig .tc .vmem S2048x1 .f32) (h3 : a3.IsWhole) (a4 : Memref sig .tc .vmem S2048x1024 .bf16) (h4 : a4.IsWhole)
    (hc : cond0_0 i) (x : Vec F S2048x1024 .f32) :
    out0_A_1 c i a2 h2 a3 h3 a4 h4 hc x = k0_pay2 x (k0_pay1 (F := F)) := by
  unfold out0_A_1
  rw [View.read_writes_eq_canon _ _ _ (cover0_A_1 c i a2 h2 a3 h3 a4 h4 hc x)]
  unfold kernelRun0_A
  dsimp only
  sl_unfold_words
  rw [View.canon_cons_unit_zero (S := S2048x1) hz0, View.readCov_unit_zero (S := S2048x1) _ hz0]
  simp only [View.readAt_eq_ld, h2.read_unread, View.ld_unit_zero (S := S2048x1024) hz0]

/-- The tile's copy, in either case: the one covering store's payload. -/
theorem out0_A_2_eq (c : Dev nD) (i : grid0.Coords) (a2 : Memref sig .tc .vmem S2048x1024 .f32) (h2 : a2.IsWhole)
    (a3 : Memref sig .tc .vmem S2048x1 .f32) (h3 : a3.IsWhole) (a4 : Memref sig .tc .vmem S2048x1024 .bf16) (h4 : a4.IsWhole)
    (hc : cond0_0 i) (x : Vec F S2048x1024 .f32) :
    out0_A_2 c i a2 h2 a3 h3 a4 h4 hc x = k0_pay3 x := by
  unfold out0_A_2
  rw [View.read_writes_eq_canon _ _ _ (cover0_A_2 c i a2 h2 a3 h3 a4 h4 hc x)]
  unfold kernelRun0_A
  dsimp only
  rw [View.canon_unit_zero hz0]
  simp only [View.readAt_eq_ld, h2.read_unread, View.ld_unit_zero (S := S2048x1024) hz0]

theorem out0_B_2_eq (c : Dev nD) (i : grid0.Coords) (a2 : Memref sig .tc .vmem S2048x1024 .f32) (h2 : a2.IsWhole)
    (a3 : Memref sig .tc .vmem S2048x1 .f32) (h3 : a3.IsWhole) (a4 : Memref sig .tc .vmem S2048x1024 .bf16) (h4 : a4.IsWhole)
    (hc : ¬cond0_0 i) (x : Vec F S2048x1024 .f32) (xo : Vec F S2048x1 .f32) :
    out0_B_2 c i a2 h2 a3 h3 a4 h4 hc x xo = k0_pay3 x := by
  unfold out0_B_2
  rw [View.read_writes_eq_canon _ _ _ (cover0_B_2 c i a2 h2 a3 h3 a4 h4 hc x xo)]
  unfold kernelRun0_B
  dsimp only
  rw [View.canon_unit_zero hz0]
  simp only [View.readAt_eq_ld, h2.read_unread, View.ld_unit_zero (S := S2048x1024) hz0]

end Pieces

/-! ## The payloads at an index, over the extended reals -/

/-- The zero block reads zero. -/
theorem pay0_1_apply (i : S2048x1.Idx) : (k0_pay1 (F := Ideal) : S2048x1.Idx → EReal) i = 0 := by
  unfold k0_pay1
  exact Ideal.ofBits_zero_f32

/-- The accumulating payload at row `r`: the running value plus the tile's row sum. -/
theorem pay0_2_apply (x : Vec Ideal S2048x1024 .f32) (xo : Vec Ideal S2048x1 .f32) (r : Fin 2048) (u : Fin 1) :
    (k0_pay2 (F := Ideal) x xo : S2048x1.Idx → EReal) (ix2 r u) = (xo (ix2 r u) : EReal) + ∑ j : Fin 1024, (x (ix2 r j) : EReal) := by
  unfold k0_pay2
  refine (addf_apply _ _ _).trans ?_
  refine congrArg₂ (· + ·) ?_ ?_
  · exact congrFun (shapeCast_self xo _) _
  · refine (Cert.LibLaneSums.shapeCast_a_a1_apply _ _ r u).trans ?_
    exact Cert.LibLaneSums.sum_last_apply x _ _ _ _ r

/-- The copy's payload is the tile itself (a narrowing format change is the identity on extended reals). -/
theorem pay0_3_apply (x : Vec Ideal S2048x1024 .f32) (i : S2048x1024.Idx) :
    (k0_pay3 (F := Ideal) x : S2048x1024.Idx → EReal) i = (x i : EReal) := by
  unfold k0_pay3
  rfl

/-! ## The region's input, its tiles, and the running row sums -/

section Value
variable (V : (c : Dev nD) → (b : Ref sig .tc) → Buf (Elt Ideal) ((c : Thread nD τ).loc b))

/-- The input array at row `R`, column `J` — both taken modulo the extent, so that an entry is named by two naturals. -/
def arr0 (c : Dev nD) (R J : ℕ) : EReal :=
  (V c main_arg0 : S8192x8192.Idx → EReal) (ix2 (⟨R % 8192, Nat.mod_lt _ (by norm_num)⟩ : Fin 8192) (⟨J % 8192, Nat.mod_lt _ (by norm_num)⟩ : Fin 8192))

/-- The block indices of the three windows at point `t`: the tile's row of tiles `t / 8` and its place in it `t % 8`
    (the row sums' window does not move along a row of tiles) — decided over the grid. -/
theorem idx0_0 : ∀ t : Fin cfg0.N, win0_0.index t 0 = t.val / 8 ∧ win0_0.index t 1 = t.val % 8 :=
  (by decide +kernel : ∀ t : Fin grid0.N, win0_0.index t 0 = t.val / 8 ∧ win0_0.index t 1 = t.val % 8)
theorem idx0_1 : ∀ t : Fin cfg0.N, win0_1.index t 0 = t.val / 8 ∧ win0_1.index t 1 = 0 :=
  (by decide +kernel : ∀ t : Fin grid0.N, win0_1.index t 0 = t.val / 8 ∧ win0_1.index t 1 = 0)
theorem idx0_2 : ∀ t : Fin cfg0.N, win0_2.index t 0 = t.val / 8 ∧ win0_2.index t 1 = t.val % 8 :=
  (by decide +kernel : ∀ t : Fin grid0.N, win0_2.index t 0 = t.val / 8 ∧ win0_2.index t 1 = t.val % 8)

/-- The input tile at point `t`, at (r, j): the array at row `2048 (t / 8) + r`, column `1024 (t % 8) + j`. -/
theorem iblk0_0_apply (c : Dev nD) (t : Fin cfg0.N) (r : Fin 2048) (j : Fin 1024) :
    (iblk0 V c 0 t : Vec Ideal S2048x1024 .f32) (ix2 r j) = arr0 V c (2048 * (t.val / 8) + r.val) (1024 * (t.val % 8) + j.val) := by
  have hN : t.val < 32 := lt_of_lt_of_eq t.isLt (show cfg0.N = 32 from N_0)
  have hi := idx0_0 t
  unfold iblk0 arr0
  rw [View.read_apply]
  show V c main_arg0 _ = V c main_arg0 _
  congr 1
  funext a
  apply Fin.ext
  match a with
  | ⟨0, _⟩ => show win0_0.index t 0 * 2048 + 1 * r.val = (2048 * (t.val / 8) + r.val) % 8192; rw [hi.1]; omega
  | ⟨1, _⟩ => show win0_0.index t 1 * 1024 + 1 * j.val = (1024 * (t.val % 8) + j.val) % 8192; rw [hi.2]; omega

/-- At the first tile of a row of tiles the running row sums are the tile's. -/
theorem outsAt0_1_A (c : Dev nD) (r : Fin 2048) (t : Fin cfg0.N) (h0 : t.val % 8 = 0) :
    ((outsAt0 V c t.val t.isLt).1 : S2048x1.Idx → EReal) (ix2 r 0)
      = ∑ J ∈ Finset.range (1024 * (t.val % 8 + 1)), arr0 V c (2048 * (t.val / 8) + r.val) J := by
  rw [outsAt0_A V c t h0]
  dsimp only
  rw [out0_A_1_eq]
  refine (pay0_2_apply _ _ r 0).trans ?_
  rw [pay0_1_apply, zero_add, h0, show 1024 * (0 + 1) = 1024 from rfl, Finset.sum_range]
  refine Finset.sum_congr rfl fun j _ => ?_
  refine (iblk0_0_apply V c t r j).trans ?_
  rw [h0]
  exact congrArg (arr0 V c _) (by omega)

/-- At a later tile they are the point before's plus the tile's. -/
theorem outsAt0_1_B (c : Dev nD) (r : Fin 2048) (t : Fin cfg0.N) (h0 : ¬t.val % 8 = 0)
    (ih : ((outsAt0 V c (t.val - 1) (Nat.lt_of_le_of_lt (Nat.sub_le _ _) t.isLt)).1 : S2048x1.Idx → EReal) (ix2 r 0)
      = ∑ J ∈ Finset.range (1024 * ((t.val - 1) % 8 + 1)), arr0 V c (2048 * ((t.val - 1) / 8) + r.val) J) :
    ((outsAt0 V c t.val t.isLt).1 : S2048x1.Idx → EReal) (ix2 r 0)
      = ∑ J ∈ Finset.range (1024 * (t.val % 8 + 1)), arr0 V c (2048 * (t.val / 8) + r.val) J := by
  rw [outsAt0_B V c t h0]
  dsimp only
  rw [out0_B_1_eq]
  refine (pay0_2_apply _ _ r 0).trans ?_
  rw [ih]
  have e1 : (t.val - 1) / 8 = t.val / 8 := by omega
  have e2 : 1024 * ((t.val - 1) % 8 + 1) = 1024 * (t.val % 8) := by omega
  have e3 : 1024 * (t.val % 8 + 1) = 1024 * (t.val % 8) + 1024 := by omega
  rw [e1, e2, e3, Finset.sum_range_add, Finset.sum_range (fun x => arr0 V c (2048 * (t.val / 8) + r.val) (1024 * (t.val % 8) + x))]
  refine congrArg _ (Finset.sum_congr rfl fun j _ => ?_)
  exact iblk0_0_apply V c t r j

/-- THE INVARIANT: after point `n` the running row sums hold, at row `r` of the tile, the sum of the array's row
    `2048 (n / 8) + r` over its first `1024 (n % 8 + 1)` columns — by induction on the point. -/
theorem outsAt0_1_eq (c : Dev nD) (r : Fin 2048) : ∀ (n : ℕ) (h : n < cfg0.N),
    ((outsAt0 V c n h).1 : S2048x1.Idx → EReal) (ix2 r 0)
      = ∑ J ∈ Finset.range (1024 * (n % 8 + 1)), arr0 V c (2048 * (n / 8) + r.val) J := by
  intro n
  induction n with
  | zero => intro h; exact outsAt0_1_A V c r ⟨0, h⟩ rfl
  | succ n ih =>
    intro h
    by_cases h0 : (n + 1) % 8 = 0
    · exact outsAt0_1_A V c r ⟨n + 1, h⟩ h0
    · exact outsAt0_1_B V c r ⟨n + 1, h⟩ h0 (ih (Nat.lt_of_succ_lt h))

/-- The tile's copy after point `t` is the input tile. -/
theorem outsAt0_2_eq (c : Dev nD) (t : Fin cfg0.N) (r : Fin 2048) (j : Fin 1024) :
    ((outsAt0 V c t.val t.isLt).2 : S2048x1024.Idx → EReal) (ix2 r j)
      = arr0 V c (2048 * (t.val / 8) + r.val) (1024 * (t.val % 8) + j.val) := by
  by_cases h0 : t.val % 8 = 0
  · rw [outsAt0_A V c t h0]
    dsimp only
    rw [out0_A_2_eq]
    exact (pay0_3_apply _ _).trans (iblk0_0_apply V c t r j)
  · rw [outsAt0_B V c t h0]
    dsimp only
    rw [out0_B_2_eq]
    exact (pay0_3_apply _ _).trans (iblk0_0_apply V c t r j)

/-! ## The two result arrays after the region -/

/-- The row sums of the input array, as contents of the first result array. -/
def rowsums0 (c : Dev nD) : S8192x1.Idx → EReal :=
  fun i => ∑ J : Fin 8192, ((V c main_arg0 : S8192x8192.Idx → EReal) (ix2 (i 0 : Fin 8192) J) : EReal)

/-- The input array, as contents of the second result array (the narrower format holds the same extended reals). -/
def copy0 (c : Dev nD) : S8192x8192.Idx → EReal :=
  fun i => (V c main_arg0 : S8192x8192.Idx → EReal) i

/-- What the last tile of a row of tiles writes back is that row of tiles' block of the row sums. -/
theorem flushed0_1_eq (c : Dev nD) (t : Fin cfg0.N) (hf : (cfg0.win 1).flush t = true) :
    (dat0 V c).flushed 1 t = ((cfg0.win 1).blk t).view.read (Elt Ideal) (rowsums0 V c) := by
  have hN : t.val < 32 := lt_of_lt_of_eq t.isLt (show cfg0.N = 32 from N_0)
  have h7 : t.val % 8 = 7 := (flush0_1 t).mp hf
  have hi := idx0_1 t
  funext y
  obtain ⟨r, u, rfl⟩ : ∃ (r : Fin 2048) (u : Fin 1), y = ix2 r u := ⟨y 0, y 1, eq_ix2 y⟩
  obtain rfl : u = 0 := Subsingleton.elim _ _
  show (cfg0.win 1).cut (grid0.coords t) ((dat0 V c).after 1 t) (ix2 r 0) = _
  rw [after0_1, View.read_apply]
  show ((outsAt0 V c t.val t.isLt).1 : S2048x1.Idx → EReal) (ix2 r 0) = rowsums0 V c _
  rw [outsAt0_1_eq V c r t.val t.isLt, h7, show 1024 * (7 + 1) = 8192 from rfl, Finset.sum_range]
  unfold rowsums0
  refine Finset.sum_congr rfl fun J _ => ?_
  unfold arr0
  show V c main_arg0 _ = V c main_arg0 _
  congr 1
  funext a
  apply Fin.ext
  match a with
  | ⟨0, _⟩ => show (2048 * (t.val / 8) + r.val) % 8192 = win0_1.index t 0 * 2048 + 1 * r.val; rw [hi.1]; omega
  | ⟨1, _⟩ => show J.val % 8192 = J.val; exact Nat.mod_eq_of_lt J.isLt

/-- Every row lies in the block some last tile of a row of tiles writes back. -/
theorem cover0_1 (c : Dev nD) (i : ((cfg0.win 1).arr.view.loc (c.tc : Thread nD τ)).2.ty.Idx) :
    ∃ t : Fin cfg0.N, (cfg0.win 1).flush t = true ∧ i ∈ ((cfg0.win 1).blk t).view.set := by
  have h0 : (i 0 : Nat) < 8192 := (i 0).isLt
  have h1 : (i 1 : Nat) < 1 := (i 1).isLt
  have hN : cfg0.N = 32 := N_0
  have ht : 8 * ((i 0 : Nat) / 2048) + 7 < cfg0.N := by rw [hN]; omega
  refine ⟨⟨8 * ((i 0 : Nat) / 2048) + 7, ht⟩, (flush0_1 _).mpr (by dsimp only; omega), ?_⟩
  have hi := idx0_1 ⟨8 * ((i 0 : Nat) / 2048) + 7, ht⟩
  show i ∈ ((View.whole main_v0_0).slice (win0_1.rect ⟨8 * ((i 0 : Nat) / 2048) + 7, ht⟩)).set
  rw [View.set_slice_whole, Rect.mem_set_unit]
  intro a
  match a with
  | ⟨0, _⟩ =>
    show win0_1.index _ 0 * 2048 ≤ (i 0 : Nat) ∧ (i 0 : Nat) < win0_1.index _ 0 * 2048 + 2048
    rw [hi.1]; dsimp only; omega
  | ⟨1, _⟩ =>
    show win0_1.index _ 1 * 1 ≤ (i 1 : Nat) ∧ (i 1 : Nat) < win0_1.index _ 1 * 1 + 1
    rw [hi.2]; omega

/-- So the first result array ends holding the row sums. -/
theorem final0_1 (c : Dev nD) : (dat0 V c).arrAt 1 cfg0.N = rowsums0 V c :=
  (dat0 V c).arrAt_eq_of_cover 1 (rowsums0 V c) (flushed0_1_eq V c) (cover0_1 c)

/-- What every point writes back of the copy is its tile's block of the input array. -/
theorem flushed0_2_eq (c : Dev nD) (t : Fin cfg0.N) (hf : (cfg0.win 2).flush t = true) :
    (dat0 V c).flushed 2 t = ((cfg0.win 2).blk t).view.read (Elt Ideal) (copy0 V c) := by
  have hN : t.val < 32 := lt_of_lt_of_eq t.isLt (show cfg0.N = 32 from N_0)
  have hi := idx0_2 t
  funext y
  obtain ⟨r, j, rfl⟩ : ∃ (r : Fin 2048) (j : Fin 1024), y = ix2 r j := ⟨y 0, y 1, eq_ix2 y⟩
  show (cfg0.win 2).cut (grid0.coords t) ((dat0 V c).after 2 t) (ix2 r j) = _
  rw [after0_2, View.read_apply]
  show ((outsAt0 V c t.val t.isLt).2 : S2048x1024.Idx → EReal) (ix2 r j) = copy0 V c _
  rw [outsAt0_2_eq V c t r j]
  unfold copy0 arr0
  show V c main_arg0 _ = V c main_arg0 _
  congr 1
  funext a
  apply Fin.ext
  match a with
  | ⟨0, _⟩ => show (2048 * (t.val / 8) + r.val) % 8192 = win0_2.index t 0 * 2048 + 1 * r.val; rw [hi.1]; omega
  | ⟨1, _⟩ => show (1024 * (t.val % 8) + j.val) % 8192 = win0_2.index t 1 * 1024 + 1 * j.val; rw [hi.2]; omega

/-- Every entry lies in its tile's block, which its point writes back. -/
theorem cover0_2 (c : Dev nD) (i : ((cfg0.win 2).arr.view.loc (c.tc : Thread nD τ)).2.ty.Idx) :
    ∃ t : Fin cfg0.N, (cfg0.win 2).flush t = true ∧ i ∈ ((cfg0.win 2).blk t).view.set := by
  have h0 : (i 0 : Nat) < 8192 := (i 0).isLt
  have h1 : (i 1 : Nat) < 8192 := (i 1).isLt
  have hN : cfg0.N = 32 := N_0
  have ht : 8 * ((i 0 : Nat) / 2048) + (i 1 : Nat) / 1024 < cfg0.N := by rw [hN]; omega
  refine ⟨⟨8 * ((i 0 : Nat) / 2048) + (i 1 : Nat) / 1024, ht⟩, flush0_2 _, ?_⟩
  have hi := idx0_2 ⟨8 * ((i 0 : Nat) / 2048) + (i 1 : Nat) / 1024, ht⟩
  show i ∈ ((View.whole main_v0_1).slice (win0_2.rect ⟨8 * ((i 0 : Nat) / 2048) + (i 1 : Nat) / 1024, ht⟩)).set
  rw [View.set_slice_whole, Rect.mem_set_unit]
  intro a
  match a with
  | ⟨0, _⟩ =>
    show win0_2.index _ 0 * 2048 ≤ (i 0 : Nat) ∧ (i 0 : Nat) < win0_2.index _ 0 * 2048 + 2048
    rw [hi.1]; dsimp only; omega
  | ⟨1, _⟩ =>
    show win0_2.index _ 1 * 1024 ≤ (i 1 : Nat) ∧ (i 1 : Nat) < win0_2.index _ 1 * 1024 + 1024
    rw [hi.2]; dsimp only; omega

/-- So the second result array ends holding the input array. -/
theorem final0_2 (c : Dev nD) : (dat0 V c).arrAt 2 cfg0.N = copy0 V c :=
  (dat0 V c).arrAt_eq_of_cover 2 (copy0 V c) (flushed0_2_eq V c) (cover0_2 c)

/-- REGION 0's first result: row `r` of it is the sum of row `r` of the input array. -/
theorem arrAt0_1 (c : Dev nD) (r : Fin 8192) :
    ((dat0 (F := Ideal) V c).arrAt 1 cfg0.N : S8192x1.Idx → EReal) (ix2 r 0)
      = (∑ j : Fin 8192, (V c main_arg0 : S8192x8192.Idx → EReal) (ix2 r j) : EReal) := by
  rw [final0_1 V c]; rfl

/-- REGION 0's second result: the input array, entry by entry. -/
theorem arrAt0_2 (c : Dev nD) (r j : Fin 8192) :
    ((dat0 (F := Ideal) V c).arrAt 2 cfg0.N : S8192x8192.Idx → EReal) (ix2 r j)
      = (V c main_arg0 : S8192x8192.Idx → EReal) (ix2 r j) := by
  rw [final0_2 V c]; rfl

end Value

end Cert.KernelIdeal.Hand

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.LibUnitAxes.lean ====
/-
  Unit axes.  A column [a, 1] or a row [1, b] spread over an [a, b] array reads, at (p, c), the column at (p, 0) or
  the row at (0, c) — for the vector broadcast and for the host's broadcast along the listed dimensions alike.  A
  scalar spread over any shape reads the scalar.  Casting an [a] array to [a, 1] or to [1, a] moves no element, so it
  is the host's broadcast of the [a] array along dimension 0 (or 1) of the result.
-/
import Idealize.ShloMosaic.Lib.Pipeline.Value
import Idealize.ShloMosaic.Lib.ValueIdx
import Idealize.ShloMosaic.Lib.ValueLayout

noncomputable section

namespace Cert.LibUnitAxes

open Idealize.ShloMosaic Idealize.ShloMosaic.ValueIdx

variable {α : Type}

/-- A column [a, 1] broadcast (as a vector) to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column [a, 1] along both dimensions of [a, b] reads, at (p, c), the column at (p, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row [1, b] along both dimensions of [a, b] reads, at (p, c), the row at (0, c). -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads the scalar at every index. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply ![] h v j ix0 fun ax => ax.elim0

/-- Casting [a] to [a, 1] is the host's broadcast of the array along dimension 0. -/
theorem shapeCast_a_a1_eq_broadcastInDim {a : ℕ} (x : (⟨1, ![a]⟩ : Shape).Idx → α)
    (h : (⟨1, ![a]⟩ : Shape).ShapeCasts ⟨2, ![a, 1]⟩) (hb : (⟨1, ![a]⟩ : Shape).BroadcastsInDim ⟨2, ![a, 1]⟩ ![0]) :
    shapeCast ⟨2, ![a, 1]⟩ x h = broadcastInDim ⟨2, ![a, 1]⟩ ![0] hb x := by
  funext j
  obtain ⟨p, u, rfl⟩ : ∃ (p : Fin a) (u : Fin 1), j = ix2 p u := ⟨j 0, j 1, eq_ix2 j⟩
  have hu : u.val = 0 := by omega
  rw [shapeCast_apply x h (ix2 p u) (ix1 p) (by
        rw [Shape.rowMajor_val_two, Shape.rowMajor_val_one]
        show p.val = p.val * 1 + u.val
        omega),
      broadcastInDim_apply ![0] hb x (ix2 p u) (ix1 p) (fun ax => match ax with
        | ⟨0, _⟩ => by
          show p.val = if a = 1 then 0 else p.val
          split
          · have := p.isLt; omega
          · rfl)]

/-- Casting [a] to [1, a] is the host's broadcast of the array along dimension 1. -/
theorem shapeCast_a_1a_eq_broadcastInDim {a : ℕ} (x : (⟨1, ![a]⟩ : Shape).Idx → α)
    (h : (⟨1, ![a]⟩ : Shape).ShapeCasts ⟨2, ![1, a]⟩) (hb : (⟨1, ![a]⟩ : Shape).BroadcastsInDim ⟨2, ![1, a]⟩ ![1]) :
    shapeCast ⟨2, ![1, a]⟩ x h = broadcastInDim ⟨2, ![1, a]⟩ ![1] hb x := by
  funext j
  obtain ⟨u, p, rfl⟩ : ∃ (u : Fin 1) (p : Fin a), j = ix2 u p := ⟨j 0, j 1, eq_ix2 j⟩
  rw [shapeCast_a_1a_apply x h u p,
      broadcastInDim_apply ![1] hb x (ix2 u p) (ix1 p) (fun ax => match ax with
        | ⟨0, _⟩ => by
          show p.val = if a = 1 then 0 else p.val
          split
          · have := p.isLt; omega
          · rfl)]

end Cert.LibUnitAxes

end
-- ==== Proof.Spec.lean ====
/-
  The specification: a two-layer graph convolution followed by a linear classifier, on the extended reals.

  With A the 8192 × 8192 adjacency matrix, the row sums are s r = ∑ j, A (r, j) and the normalising factor is
  d r = (s r) ^ (-1/2) where s r > 0 and 0 elsewhere.  One layer maps features X (8192 × 64) and weights W
  (64 × 64) to max (d r * ∑ k, A (r, k) * ((X W) (k, f) * d k)) 0, that is relu (D A D X W) with D = diag d.
  The result is x₂ Wc + bc for x₂ = layer (layer emb W₁) W₂.  Everything is stated index by index over literal
  shapes; only commutativity of the product is ever needed to compare two programs against it.
-/
import Idealize.ShloMosaic.PureOps.Ideal.Laws
import Idealize.ShloMosaic.Lib.ValueIdx

noncomputable section

open scoped BigOperators

namespace Cert.Hand.Spec

open Idealize.ShloMosaic Idealize.ShloMosaic.ValueIdx

/-- The adjacency matrix's shape. -/
abbrev SNN : Shape := ⟨2, ![8192, 8192]⟩
/-- The node features' shape. -/
abbrev SNF : Shape := ⟨2, ![8192, 64]⟩
/-- A layer's weights' shape. -/
abbrev SFF : Shape := ⟨2, ![64, 64]⟩
/-- The classifier's weights' shape. -/
abbrev SFC : Shape := ⟨2, ![64, 10]⟩
/-- The classifier's bias' shape. -/
abbrev SC : Shape := ⟨1, ![10]⟩
/-- The result's shape. -/
abbrev SNC : Shape := ⟨2, ![8192, 10]⟩

/-- An array of extended reals of shape S, with the shape named: the identity, used to give a program's buffer
    (whose type is computed from its declaration) its literal array type before it is read at an index. -/
abbrev arr (S : Shape) (x : S.Idx → EReal) : S.Idx → EReal := x

/-- The sum of row r of the adjacency matrix. -/
def rowsum (A : SNN.Idx → EReal) (r : Fin 8192) : EReal := ∑ j : Fin 8192, A (ix2 r j)

/-- The normalising factor of a row sum s: its inverse square root where s > 0 (the inner choice replaces a
    non-positive s by one before the root is taken), and 0 elsewhere. -/
def dinv (s : EReal) : EReal :=
  Scalar.select (Ideal.cmp .ogt s 0)
    (Ideal.rsqrt (Scalar.select (Ideal.cmp .ogt s 0) s (Ideal.ofBits .f32 0x3F800000#32))) 0

/-- The normalising factor of row r. -/
def deg (A : SNN.Idx → EReal) (r : Fin 8192) : EReal := dinv (rowsum A r)

/-- The feature product X W at (k, f). -/
def feat (X : SNF.Idx → EReal) (W : SFF.Idx → EReal) (k : Fin 8192) (f : Fin 64) : EReal :=
  ∑ j : Fin 64, X (ix2 k j) * W (ix2 j f)

/-- One layer at (r, f): relu (d r * ∑ k, A (r, k) * ((X W) (k, f) * d k)). -/
def layerAt (A : SNN.Idx → EReal) (X : SNF.Idx → EReal) (W : SFF.Idx → EReal) (r : Fin 8192) (f : Fin 64) : EReal :=
  max (deg A r * ∑ k : Fin 8192, A (ix2 r k) * (feat X W k f * deg A k)) 0

/-- One layer as an array of features. -/
def layer (A : SNN.Idx → EReal) (X : SNF.Idx → EReal) (W : SFF.Idx → EReal) : SNF.Idx → EReal :=
  fun i => layerAt A X W (i 0) (i 1)

theorem layer_apply (A : SNN.Idx → EReal) (X : SNF.Idx → EReal) (W : SFF.Idx → EReal) (r : Fin 8192) (f : Fin 64) :
    layer A X W (ix2 r f) = layerAt A X W r f := rfl

/-- The classifier applied to features X at (r, q): ∑ f, X (r, f) * Wc (f, q) + bc q. -/
def logitsAt (X : SNF.Idx → EReal) (Wc : SFC.Idx → EReal) (bc : SC.Idx → EReal) (r : Fin 8192) (q : Fin 10) : EReal :=
  (∑ f : Fin 64, X (ix2 r f) * Wc (ix2 f q)) + bc (ix1 q)

/-- THE SPECIFICATION: the logits of the two-layer network, as an array. -/
def G (A : SNN.Idx → EReal) (emb : SNF.Idx → EReal) (W1 W2 : SFF.Idx → EReal) (Wc : SFC.Idx → EReal)
    (bc : SC.Idx → EReal) : SNC.Idx → EReal :=
  fun i => logitsAt (layer A (layer A emb W1) W2) Wc bc (i 0) (i 1)

theorem G_apply (A : SNN.Idx → EReal) (emb : SNF.Idx → EReal) (W1 W2 : SFF.Idx → EReal) (Wc : SFC.Idx → EReal)
    (bc : SC.Idx → EReal) (r : Fin 8192) (q : Fin 10) :
    G A emb W1 W2 Wc bc (ix2 r q) = logitsAt (layer A (layer A emb W1) W2) Wc bc r q := rfl

end Cert.Hand.Spec

end
-- ==== Proof.KI.R1.Value.lean ====
/- Region 1 (the first graph-convolution layer kernel, grid 4x4, point t = 4 i + k) read at the ideal values: what its
   result array holds after the region, as a function of the core's buffer contents `V` when the region is entered.
   The found pieces are read back as payloads (any float instance); over the extended reals the accumulating payload
   adds a tile product to the running accumulator and the output payload is relu of the scaling column times it; the
   accumulator is, by induction on the point, a partial sum of the product's entry over the columns of the tiles seen
   so far; the last tile of a row of tiles writes back a block of ONE whole-array contents, and the blocks cover the
   array. -/
import proofs.«177097_j68143951118910_2_alg».proof.Proof.KI.R1.Frame
import Idealize.ShloMosaic.PureOps.Ideal.Laws
import Idealize.ShloMosaic.Lib.ValueIdx
import Idealize.ShloMosaic.Lib.ValueLayout
import Idealize.ShloMosaic.Lib.Pipeline.Value
import proofs.«177097_j68143951118910_2_alg».proof.Proof.LibPlainDot
import proofs.«177097_j68143951118910_2_alg».proof.Proof.LibUnitAxes
import proofs.«177097_j68143951118910_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx
open Cert.Hand

/-! Region 1's value leg, the kernel side: (1) generic in F, what each case's found pieces are in terms of the skeleton's
    payloads; (2) at the ideal values, the payloads and the windows' blocks read at an index, the accumulator after each
    point as a partial sum over the columns reached so far (by induction on the point), and the output block a
    flushing point (k = 3) stores: relu (d r * ∑ k, A (r, k) * H (k, f)) over the whole contraction. -/
variable {F : FTy → Type} [FloatOps F]

/-- Offsets (0, 0): every load and store of the body is of a whole buffer. -/
theorem hz1 : (![0, 0] : Fin 2 → Nat) = fun _ => 0 := funext fun a => by fin_cases a <;> rfl

/-- CASE A's accumulator (k = 0): the body zeroes it, reads the zero block back and leaves zero + the tile product. -/
theorem sout1_A_0_eq (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : cond1_0 i) (hc1 : ¬cond1_1 i)
    (x0 : Vec F S2048x2048 .bf16) (x1 : Vec F S2048x64 .bf16) (x2 : Vec F S2048x1 .f32) :
    sout1_A_0 c i arg2 harg2 arg3 harg3 arg4 harg4 arg5 harg5 arg6 harg6 hc0 hc1 x0 x1 x2 = k1_pay2 (k1_pay1 (F := F)) x0 x1 := by
  unfold sout1_A_0
  rw [View.read_writes_eq_canon _ _ _ (scover1_A_0 c i arg2 harg2 arg3 harg3 arg4 harg4 arg5 harg5 arg6 harg6 hc0 hc1 x0 x1 x2)]
  unfold kernelRun1_A
  dsimp only
  sl_unfold_words
  rw [View.canon_cons_unit_zero (S := S2048x64) hz1, View.readCov_unit_zero (S := S2048x64) _ hz1]
  simp only [View.readAt_eq_ld, harg2.read_unread, harg3.read_unread, harg4.read_unread, harg6.read_unread, View.ld_unit_zero (S := S2048x2048) hz1, View.ld_unit_zero (S := S2048x64) hz1, View.ld_unit_zero (S := S2048x1) hz1]

/-- CASE B's accumulator (k = 1, 2): what the point before left plus the tile product. -/
theorem sout1_B_0_eq (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : ¬cond1_1 i)
    (x0 : Vec F S2048x2048 .bf16) (x1 : Vec F S2048x64 .bf16) (x2 : Vec F S2048x1 .f32) (xs0 : Vec F S2048x64 .f32) :
    sout1_B_0 c i arg2 harg2 arg3 harg3 arg4 harg4 arg5 harg5 arg6 harg6 hc0 hc1 x0 x1 x2 xs0 = k1_pay2 xs0 x0 x1 := by
  unfold sout1_B_0
  rw [View.read_writes_eq_canon _ _ _ (scover1_B_0 c i arg2 harg2 arg3 harg3 arg4 harg4 arg5 harg5 arg6 harg6 hc0 hc1 x0 x1 x2 xs0)]
  unfold kernelRun1_B
  dsimp only
  sl_unfold_words
  rw [View.canon_unit_zero hz1]
  simp only [View.readAt_eq_ld, harg2.read_unread, harg3.read_unread, harg4.read_unread, harg6.read_unread, View.ld_unit_zero (S := S2048x2048) hz1, View.ld_unit_zero (S := S2048x64) hz1, View.ld_unit_zero (S := S2048x1) hz1]

/-- CASE C's accumulator (k = 3): the same. -/
theorem sout1_C_0_eq (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x2048 .bf16) (x1 : Vec F S2048x64 .bf16) (x2 : Vec F S2048x1 .f32) (xs0 : Vec F S2048x64 .f32) :
    sout1_C_0 c i arg2 harg2 arg3 harg3 arg4 harg4 arg5 harg5 arg6 harg6 hc0 hc1 x0 x1 x2 xs0 = k1_pay2 xs0 x0 x1 := by
  unfold sout1_C_0
  rw [View.read_writes_eq_canon _ _ _ (scover1_C_0 c i arg2 harg2 arg3 harg3 arg4 harg4 arg5 harg5 arg6 harg6 hc0 hc1 x0 x1 x2 xs0)]
  unfold kernelRun1_C
  dsimp only
  sl_unfold_words
  rw [View.canon_unit_zero hz1]
  simp only [View.readAt_eq_ld, harg2.read_unread, harg3.read_unread, harg4.read_unread, harg6.read_unread, View.ld_unit_zero (S := S2048x2048) hz1, View.ld_unit_zero (S := S2048x64) hz1, View.ld_unit_zero (S := S2048x1) hz1]

/-- CASE C's output block: relu(d * acc) of the accumulator just stored (read back) and the scaling column. -/
theorem out1_C_3_eq (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x2048 .bf16) (x1 : Vec F S2048x64 .bf16) (x2 : Vec F S2048x1 .f32) (xs0 : Vec F S2048x64 .f32) :
    out1_C_3 c i arg2 harg2 arg3 harg3 arg4 harg4 arg5 harg5 arg6 harg6 hc0 hc1 x0 x1 x2 xs0 = k1_pay3 x2 (k1_pay2 xs0 x0 x1) := by
  unfold out1_C_3
  rw [View.read_writes_eq_canon _ _ _ (cover1_C_3 c i arg2 harg2 arg3 harg3 arg4 harg4 arg5 harg5 arg6 harg6 hc0 hc1 x0 x1 x2 xs0)]
  unfold kernelRun1_C
  dsimp only
  sl_unfold_words
  rw [View.canon_unit_zero hz1, View.readCov_unit_zero (S := S2048x64) _ hz1]
  simp only [View.readAt_eq_ld, harg2.read_unread, harg3.read_unread, harg4.read_unread, harg6.read_unread, View.ld_unit_zero (S := S2048x2048) hz1, View.ld_unit_zero (S := S2048x64) hz1, View.ld_unit_zero (S := S2048x1) hz1]

section IdealPart
variable (V : (c : Dev nD) → (b : Ref sig .tc) → Buf (Elt Ideal) ((c : Thread nD τ).loc b))

/-- The tile product's dimension numbers: the adjacency tile's columns against the feature tile's rows. -/
abbrev dot1 : DotDims S2048x2048 S2048x64 S2048x64 := dot_S2048x2048_S2048x64_S2048x64_1_0_0_1_n_n
theorem dot1_rank : dot1.contr.rank = 1 := rfl
theorem dot1_size : dot1.contr.size ⟨0, by rw [dot1_rank]; exact Nat.one_pos⟩ = 2048 := rfl
theorem dot1_L0 : ∀ (j : S2048x64.Idx) (k : dot1.contr.Idx), (dot1.lhsIdx j k 0).val = (j 0).val := fun j k => rfl
theorem dot1_R1 : ∀ (j : S2048x64.Idx) (k : dot1.contr.Idx), (dot1.rhsIdx j k 1).val = (j 1).val := fun j k => rfl

/-- The zero block the reset stores, at an index. -/
theorem pay1_1_apply (j : S2048x64.Idx) : (k1_pay1 (F := Ideal)) j = 0 := by
  unfold k1_pay1
  simp only [shapeCast_self]
  exact Ideal.ofBits_zero_f32

/-- The accumulation payload at an index: what the accumulator held plus the tile product, a plain sum over the
    tile's 2048 columns. -/
theorem pay1_2_apply (xs : Vec Ideal S2048x64 .f32) (x0 : Vec Ideal S2048x2048 .bf16) (x1 : Vec Ideal S2048x64 .bf16)
    (r : Fin 2048) (f : Fin 64) :
    (k1_pay2 xs x0 x1) (ix2 r f) = (xs (ix2 r f) : EReal) + (∑ j : Fin 2048, (x0 (ix2 r j) : EReal) * (x1 (ix2 j f) : EReal) : EReal) := by
  unfold k1_pay2
  simp only [shapeCast_self]
  show (xs (ix2 r f) : EReal) + FloatOps.matmul (F := Ideal) dot1 none x0 x1 (constant S2048x64 .f32 0x00000000#32) (ix2 r f) = _
  exact congrArg ((xs (ix2 r f) : EReal) + ·) (Cert.LibPlainDot.matmul_zero_apply dot1 dot1_rank dot1_size rfl rfl dot1_L0 dot1_R1 none x0 x1 r f)

/-- The output payload at an index: relu of the scaling column's entry times the accumulator's. -/
theorem pay1_3_apply (x2 : Vec Ideal S2048x1 .f32) (acc : Vec Ideal S2048x64 .f32) (r : Fin 2048) (f : Fin 64) :
    (k1_pay3 x2 acc) (ix2 r f) = max ((x2 (ix2 r (0 : Fin 1)) : EReal) * (acc (ix2 r f) : EReal)) 0 := by
  unfold k1_pay3
  simp only [shapeCast_self]
  show max ((broadcastTo S2048x64 x2 broadcasts_S2048x1_S2048x64 (ix2 r f) : EReal) * (acc (ix2 r f) : EReal)) (Ideal.ofBits .f32 0x00000000#32) = _
  rw [Cert.LibUnitAxes.broadcastTo_a1_ab_apply x2 broadcasts_S2048x1_S2048x64 r f, Ideal.ofBits_zero_f32]

theorem t_lt1 (t : Fin cfg1.N) : t.val < 16 := lt_of_lt_of_eq t.isLt (show cfg1.N = 16 from N_1)

/-- The block indices of the three input windows at point t = 4 i + k: (i, k), (k, 0), (i, 0). -/
theorem index1_0 (t : Fin cfg1.N) : win1_0.index t 0 = t.val / 4 ∧ win1_0.index t 1 = t.val % 4 := by
  rcases fin_N1 t with rfl | rfl | rfl | rfl | rfl | rfl | rfl | rfl | rfl | rfl | rfl | rfl | rfl | rfl | rfl | rfl <;> decide +kernel
theorem index1_1 (t : Fin cfg1.N) : win1_1.index t 0 = t.val % 4 ∧ win1_1.index t 1 = 0 := by
  rcases fin_N1 t with rfl | rfl | rfl | rfl | rfl | rfl | rfl | rfl | rfl | rfl | rfl | rfl | rfl | rfl | rfl | rfl <;> decide +kernel
theorem index1_2 (t : Fin cfg1.N) : win1_2.index t 0 = t.val / 4 ∧ win1_2.index t 1 = 0 := by
  rcases fin_N1 t with rfl | rfl | rfl | rfl | rfl | rfl | rfl | rfl | rfl | rfl | rfl | rfl | rfl | rfl | rfl | rfl <;> decide +kernel
theorem index1_3 (t : Fin cfg1.N) : win1_3.index t 0 = t.val / 4 ∧ win1_3.index t 1 = 0 := by
  rcases fin_N1 t with rfl | rfl | rfl | rfl | rfl | rfl | rfl | rfl | rfl | rfl | rfl | rfl | rfl | rfl | rfl | rfl <;> decide +kernel

/-- The adjacency tile at point t, entry (r, j): the array at row 2048 (t / 4) + r, column 2048 (t % 4) + j. -/
theorem iblk1_0_apply (c : Dev nD) (t : Fin cfg1.N) (r : Fin 2048) (j : Fin 2048) :
    (iblk1 V c 0 t) (ix2 r j) = (V c main_v0_1) (ix2 (⟨2048 * (t.val / 4) + r.val, by have := t_lt1 t; omega⟩ : Fin 8192) (⟨2048 * (t.val % 4) + j.val, by have := t_lt1 t; omega⟩ : Fin 8192)) := by
  have hi := index1_0 t
  unfold iblk1
  rw [View.read_apply]
  show V c main_v0_1 _ = V c main_v0_1 _
  congr 1
  funext a
  apply Fin.ext
  match a with
  | ⟨0, _⟩ => show win1_0.index t 0 * 2048 + 1 * r.val = 2048 * (t.val / 4) + r.val; rw [hi.1]; omega
  | ⟨1, _⟩ => show win1_0.index t 1 * 2048 + 1 * j.val = 2048 * (t.val % 4) + j.val; rw [hi.2]; omega

/-- The feature tile at point t, entry (j, f): the array at row 2048 (t % 4) + j, column f. -/
theorem iblk1_1_apply (c : Dev nD) (t : Fin cfg1.N) (j : Fin 2048) (f : Fin 64) :
    (iblk1 V c 1 t) (ix2 j f) = (V c main_v11) (ix2 (⟨2048 * (t.val % 4) + j.val, by have := t_lt1 t; omega⟩ : Fin 8192) f) := by
  have hi := index1_1 t
  unfold iblk1
  rw [View.read_apply]
  show V c main_v11 _ = V c main_v11 _
  congr 1
  funext a
  apply Fin.ext
  match a with
  | ⟨0, _⟩ => show win1_1.index t 0 * 2048 + 1 * j.val = 2048 * (t.val % 4) + j.val; rw [hi.1]; omega
  | ⟨1, _⟩ => show win1_1.index t 1 * 64 + 1 * f.val = f.val; rw [hi.2]; omega

/-- The scaling column's tile at point t, entry (r, 0): the array at row 2048 (t / 4) + r. -/
theorem iblk1_2_apply (c : Dev nD) (t : Fin cfg1.N) (r : Fin 2048) :
    (iblk1 V c 2 t) (ix2 r (0 : Fin 1)) = (V c main_v7) (ix2 (⟨2048 * (t.val / 4) + r.val, by have := t_lt1 t; omega⟩ : Fin 8192) (0 : Fin 1)) := by
  have hi := index1_2 t
  unfold iblk1
  rw [View.read_apply]
  show V c main_v7 _ = V c main_v7 _
  congr 1
  funext a
  apply Fin.ext
  match a with
  | ⟨0, _⟩ => show win1_2.index t 0 * 2048 + 1 * r.val = 2048 * (t.val / 4) + r.val; rw [hi.1]; omega
  | ⟨1, _⟩ => show win1_2.index t 1 * 1 + 1 * 0 = 0; rw [hi.2]

/-- The adjacency array and the feature array at natural-number coordinates (zero outside the arrays): the partial
    sums below range over natural numbers. -/
def An1 (c : Dev nD) (a b : ℕ) : EReal :=
  if h : a < 8192 ∧ b < 8192 then Spec.arr S8192x8192 (V c main_v0_1) (ix2 (⟨a, h.1⟩ : Fin 8192) (⟨b, h.2⟩ : Fin 8192)) else 0
def Hn1 (c : Dev nD) (a : ℕ) (f : Fin 64) : EReal :=
  if h : a < 8192 then Spec.arr S8192x64 (V c main_v11) (ix2 (⟨a, h⟩ : Fin 8192) f) else 0

/-- The tile product of point t at entry (r, f), over the arrays' entries: columns 2048 (t % 4) + j. -/
theorem tile1_eq (c : Dev nD) (t : Fin cfg1.N) (r : Fin 2048) (f : Fin 64) :
    (∑ j : Fin 2048, Spec.arr S2048x2048 (iblk1 V c 0 t) (ix2 r j) * Spec.arr S2048x64 (iblk1 V c 1 t) (ix2 j f) : EReal)
      = ∑ j ∈ Finset.range 2048, An1 V c (2048 * (t.val / 4) + r.val) (2048 * (t.val % 4) + j) * Hn1 V c (2048 * (t.val % 4) + j) f := by
  have ht := t_lt1 t
  rw [Finset.sum_range]
  refine Finset.sum_congr rfl fun j _ => ?_
  dsimp only [Spec.arr]
  rw [iblk1_0_apply, iblk1_1_apply]
  unfold An1 Hn1
  rw [dif_pos (⟨by omega, by omega⟩ : 2048 * (t.val / 4) + r.val < 8192 ∧ 2048 * (t.val % 4) + j.val < 8192),
    dif_pos (by omega : 2048 * (t.val % 4) + j.val < 8192)]

/-- THE ACCUMULATOR after point n = 4 i + k, at entry (r, f): the partial sum, over the columns of the tiles reached so
    far (2048 (k + 1) of them), of A (2048 i + r, m) * H (m, f) — by induction on the point. -/
theorem acc1_eq (c : Dev nD) (r : Fin 2048) (f : Fin 64) : ∀ (n : ℕ) (h : n < cfg1.N),
    ((outsAt1 V c n h).2 (ix2 r f) : EReal)
      = ∑ m ∈ Finset.range (2048 * (n % 4 + 1)), An1 V c (2048 * (n / 4) + r.val) m * Hn1 V c m f
  | 0, h => by
    rw [outsAt1_A V c ⟨0, h⟩ rfl (by dsimp only; omega)]
    (try dsimp only)
    rw [sout1_A_0_eq, pay1_2_apply, pay1_1_apply, zero_add, tile1_eq]
    (try dsimp only)
    simp only [Nat.zero_mod, Nat.zero_div, Nat.mul_zero, Nat.zero_add, Nat.mul_one]
  | n + 1, h => by
    have hN : n + 1 < 16 := lt_of_lt_of_eq h (show cfg1.N = 16 from N_1)
    by_cases h0 : (n + 1) % 4 = 0
    · have h1 : ¬(n + 1) % 4 = 3 := by omega
      rw [outsAt1_A V c ⟨n + 1, h⟩ h0 h1]
      (try dsimp only)
      rw [sout1_A_0_eq, pay1_2_apply, pay1_1_apply, zero_add, tile1_eq]
      (try dsimp only)
      rw [h0]
      simp only [Nat.mul_zero, Nat.zero_add, Nat.mul_one]
    · have e1 : (n + 1) % 4 = n % 4 + 1 := by omega
      have e2 : (n + 1) / 4 = n / 4 := by omega
      have step : ∀ (S : Vec Ideal S2048x64 .f32), (S (ix2 r f) : EReal) = (outsAt1 V c n (Nat.lt_of_succ_lt h)).2 (ix2 r f) + (∑ j : Fin 2048, Spec.arr S2048x2048 (iblk1 V c 0 ⟨n + 1, h⟩) (ix2 r j) * Spec.arr S2048x64 (iblk1 V c 1 ⟨n + 1, h⟩) (ix2 j f) : EReal) →
          (S (ix2 r f) : EReal) = ∑ m ∈ Finset.range (2048 * ((n + 1) % 4 + 1)), An1 V c (2048 * ((n + 1) / 4) + r.val) m * Hn1 V c m f := by
        intro S hS
        rw [hS, acc1_eq c r f n, tile1_eq]
        (try dsimp only)
        rw [e1, e2, show 2048 * (n % 4 + 1 + 1) = 2048 * (n % 4 + 1) + 2048 from by omega, Finset.sum_range_add]
      by_cases h1 : (n + 1) % 4 = 3
      · rw [outsAt1_C V c ⟨n + 1, h⟩ h0 h1]
        (try dsimp only)
        refine step _ ?_
        rw [sout1_C_0_eq, pay1_2_apply]
        rfl
      · rw [outsAt1_B V c ⟨n + 1, h⟩ h0 h1]
        (try dsimp only)
        refine step _ ?_
        rw [sout1_B_0_eq, pay1_2_apply]
        rfl

/-- THE OUTPUT BLOCK a flushing point stores (k = 3), at entry (r, f): relu of the scaling column's entry times the whole
    contraction ∑ k, A (2048 i + r, k) * H (k, f). -/
theorem out1_at_flush (c : Dev nD) (t : Fin cfg1.N) (h3 : t.val % 4 = 3) (r : Fin 2048) (f : Fin 64) :
    Spec.arr S2048x64 (outsAt1 V c t.val t.isLt).1 (ix2 r f)
      = max (Spec.arr S8192x1 (V c main_v7) (ix2 (⟨2048 * (t.val / 4) + r.val, by have := t_lt1 t; omega⟩ : Fin 8192) (0 : Fin 1))
          * ∑ k : Fin 8192, Spec.arr S8192x8192 (V c main_v0_1) (ix2 (⟨2048 * (t.val / 4) + r.val, by have := t_lt1 t; omega⟩ : Fin 8192) k) * Spec.arr S8192x64 (V c main_v11) (ix2 k f)) 0 := by
  have ht := t_lt1 t
  have h0 : ¬t.val % 4 = 0 := by omega
  have hz : t.val ≠ 0 := by omega
  rw [outsAt1_C V c t h0 h3]
  (try dsimp only)
  rw [out1_C_3_eq]
  dsimp only [Spec.arr]
  rw [pay1_3_apply, iblk1_2_apply]
  refine congrArg (fun s => max (Spec.arr S8192x1 (V c main_v7) (ix2 (⟨2048 * (t.val / 4) + r.val, by have := t_lt1 t; omega⟩ : Fin 8192) (0 : Fin 1)) * s) 0) ?_
  -- the accumulator just stored is the scratch component of this point
  have hacc := acc1_eq V c r f t.val t.isLt
  rw [outsAt1_C V c t h0 h3] at hacc
  (try dsimp only at hacc)
  rw [sout1_C_0_eq] at hacc
  rw [hacc, h3, show 2048 * (3 + 1) = 8192 from rfl, Finset.sum_range]
  refine Finset.sum_congr rfl fun k _ => ?_
  unfold An1 Hn1
  dsimp only [Spec.arr]
  rw [dif_pos (⟨by omega, k.isLt⟩ : 2048 * (t.val / 4) + r.val < 8192 ∧ k.val < 8192), dif_pos k.isLt]

/-! ## The result array after the region -/

/-- relu(d · (A h)) of the region's three input arrays, as contents of the result array. -/
def result1 (c : Dev nD) : S8192x64.Idx → EReal :=
  fun i => max (Spec.arr S8192x1 (V c main_v7) (ix2 (i 0 : Fin 8192) (0 : Fin 1))
    * ∑ k : Fin 8192, Spec.arr S8192x8192 (V c main_v0_1) (ix2 (i 0 : Fin 8192) k) * Spec.arr S8192x64 (V c main_v11) (ix2 k (i 1 : Fin 64))) 0

/-- What the last tile of a row of tiles writes back is that row of tiles' block of the result. -/
theorem flushed1_3_eq (c : Dev nD) (t : Fin cfg1.N) (hf : (cfg1.win 3).flush t = true) :
    (dat1 V c).flushed 3 t = ((cfg1.win 3).blk t).view.read (Elt Ideal) (result1 V c) := by
  have hN : t.val < 16 := t_lt1 t
  have h3 : t.val % 4 = 3 := (flush1_3 t).mp hf
  have hi := index1_3 t
  funext y
  obtain ⟨r, f, rfl⟩ : ∃ (r : Fin 2048) (f : Fin 64), y = ix2 r f := ⟨y 0, y 1, eq_ix2 y⟩
  show (cfg1.win 3).cut (grid1.coords t) ((dat1 V c).after 3 t) (ix2 r f) = _
  rw [after1_3, View.read_apply]
  show Spec.arr S2048x64 (outsAt1 V c t.val t.isLt).1 (ix2 r f) = result1 V c _
  rw [out1_at_flush V c t h3 r f]
  unfold result1
  have e0 : (⟨2048 * (t.val / 4) + r.val, by omega⟩ : Fin 8192)
      = ((((cfg1.win 3).blk t).view.emb (ix2 r f)) 0 : Fin 8192) := Fin.ext (by
    show 2048 * (t.val / 4) + r.val = win1_3.index t 0 * 2048 + 1 * r.val; rw [hi.1]; omega)
  have e1 : f = ((((cfg1.win 3).blk t).view.emb (ix2 r f)) 1 : Fin 64) := Fin.ext (by
    show f.val = win1_3.index t 1 * 64 + 1 * f.val; rw [hi.2]; omega)
  rw [← e0, ← e1]

/-- Every entry lies in the block some last tile of a row of tiles writes back. -/
theorem cover1_3 (c : Dev nD) (i : ((cfg1.win 3).arr.view.loc (c.tc : Thread nD τ)).2.ty.Idx) :
    ∃ t : Fin cfg1.N, (cfg1.win 3).flush t = true ∧ i ∈ ((cfg1.win 3).blk t).view.set := by
  have h0 : (i 0 : Nat) < 8192 := (i 0).isLt
  have h1 : (i 1 : Nat) < 64 := (i 1).isLt
  have hN : cfg1.N = 16 := N_1
  have ht : 4 * ((i 0 : Nat) / 2048) + 3 < cfg1.N := by rw [hN]; omega
  refine ⟨⟨4 * ((i 0 : Nat) / 2048) + 3, ht⟩, (flush1_3 _).mpr (by dsimp only; omega), ?_⟩
  have hi := index1_3 ⟨4 * ((i 0 : Nat) / 2048) + 3, ht⟩
  show i ∈ ((View.whole main_v12).slice (win1_3.rect ⟨4 * ((i 0 : Nat) / 2048) + 3, ht⟩)).set
  rw [View.set_slice_whole, Rect.mem_set_unit]
  intro a
  match a with
  | ⟨0, _⟩ =>
    show win1_3.index _ 0 * 2048 ≤ (i 0 : Nat) ∧ (i 0 : Nat) < win1_3.index _ 0 * 2048 + 2048
    rw [hi.1]; dsimp only; omega
  | ⟨1, _⟩ =>
    show win1_3.index _ 1 * 64 ≤ (i 1 : Nat) ∧ (i 1 : Nat) < win1_3.index _ 1 * 64 + 64
    rw [hi.2]; omega

/-- So the result array ends holding relu(d · (A h)). -/
theorem final1_3 (c : Dev nD) : (dat1 V c).arrAt 3 cfg1.N = result1 V c :=
  (dat1 V c).arrAt_eq_of_cover 3 (result1 V c) (flushed1_3_eq V c) (cover1_3 c)

/-- REGION 1's result at (r, f): relu of the scaling column's row r times the product's entry. -/
theorem arrAt1_3 (c : Dev nD) (r : Fin 8192) (f : Fin 64) :
    Spec.arr S8192x64 ((dat1 (F := Ideal) V c).arrAt 3 cfg1.N) (ix2 r f)
      = max (Spec.arr S8192x1 (V c main_v7) (ix2 r 0)
          * ∑ k : Fin 8192, Spec.arr S8192x8192 (V c main_v0_1) (ix2 r k) * Spec.arr S8192x64 (V c main_v11) (ix2 k f)) 0 := by
  rw [final1_3 V c]; rfl

end IdealPart

end Cert.KernelIdeal.Hand

end
-- ==== Proof.KI.R2.Value.lean ====
/- Region 2 (the second graph-convolution layer kernel, grid 4x4, point t = 4 i + k) read at the ideal values: what its
   result array holds after the region, as a function of the core's buffer contents `V` when the region is entered.
   The found pieces are read back as payloads (any float instance); over the extended reals the accumulating payload
   adds a tile product to the running accumulator and the output payload is relu of the scaling column times it; the
   accumulator is, by induction on the point, a partial sum of the product's entry over the columns of the tiles seen
   so far; the last tile of a row of tiles writes back a block of ONE whole-array contents, and the blocks cover the
   array. -/
import proofs.«177097_j68143951118910_2_alg».proof.Proof.KI.R2.Frame
import Idealize.ShloMosaic.PureOps.Ideal.Laws
import Idealize.ShloMosaic.Lib.ValueIdx
import Idealize.ShloMosaic.Lib.ValueLayout
import Idealize.ShloMosaic.Lib.Pipeline.Value
import proofs.«177097_j68143951118910_2_alg».proof.Proof.LibPlainDot
import proofs.«177097_j68143951118910_2_alg».proof.Proof.LibUnitAxes
import proofs.«177097_j68143951118910_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx
open Cert.Hand

/-! Region 2's value leg, the kernel side: (1) generic in F, what each case's found pieces are in terms of the skeleton's
    payloads; (2) at the ideal values, the payloads and the windows' blocks read at an index, the accumulator after each
    point as a partial sum over the columns reached so far (by induction on the point), and the output block a
    flushing point (k = 3) stores: relu (d r * ∑ k, A (r, k) * H (k, f)) over the whole contraction. -/
variable {F : FTy → Type} [FloatOps F]

/-- Offsets (0, 0): every load and store of the body is of a whole buffer. -/
theorem hz2 : (![0, 0] : Fin 2 → Nat) = fun _ => 0 := funext fun a => by fin_cases a <;> rfl

/-- CASE A's accumulator (k = 0): the body zeroes it, reads the zero block back and leaves zero + the tile product. -/
theorem sout2_A_0_eq (c : Dev nD) (i : grid2.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : cond2_0 i) (hc1 : ¬cond2_1 i)
    (x0 : Vec F S2048x2048 .bf16) (x1 : Vec F S2048x64 .bf16) (x2 : Vec F S2048x1 .f32) :
    sout2_A_0 c i arg2 harg2 arg3 harg3 arg4 harg4 arg5 harg5 arg6 harg6 hc0 hc1 x0 x1 x2 = k2_pay2 (k2_pay1 (F := F)) x0 x1 := by
  unfold sout2_A_0
  rw [View.read_writes_eq_canon _ _ _ (scover2_A_0 c i arg2 harg2 arg3 harg3 arg4 harg4 arg5 harg5 arg6 harg6 hc0 hc1 x0 x1 x2)]
  unfold kernelRun2_A
  dsimp only
  sl_unfold_words
  rw [View.canon_cons_unit_zero (S := S2048x64) hz2, View.readCov_unit_zero (S := S2048x64) _ hz2]
  simp only [View.readAt_eq_ld, harg2.read_unread, harg3.read_unread, harg4.read_unread, harg6.read_unread, View.ld_unit_zero (S := S2048x2048) hz2, View.ld_unit_zero (S := S2048x64) hz2, View.ld_unit_zero (S := S2048x1) hz2]

/-- CASE B's accumulator (k = 1, 2): what the point before left plus the tile product. -/
theorem sout2_B_0_eq (c : Dev nD) (i : grid2.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : ¬cond2_0 i) (hc1 : ¬cond2_1 i)
    (x0 : Vec F S2048x2048 .bf16) (x1 : Vec F S2048x64 .bf16) (x2 : Vec F S2048x1 .f32) (xs0 : Vec F S2048x64 .f32) :
    sout2_B_0 c i arg2 harg2 arg3 harg3 arg4 harg4 arg5 harg5 arg6 harg6 hc0 hc1 x0 x1 x2 xs0 = k2_pay2 xs0 x0 x1 := by
  unfold sout2_B_0
  rw [View.read_writes_eq_canon _ _ _ (scover2_B_0 c i arg2 harg2 arg3 harg3 arg4 harg4 arg5 harg5 arg6 harg6 hc0 hc1 x0 x1 x2 xs0)]
  unfold kernelRun2_B
  dsimp only
  sl_unfold_words
  rw [View.canon_unit_zero hz2]
  simp only [View.readAt_eq_ld, harg2.read_unread, harg3.read_unread, harg4.read_unread, harg6.read_unread, View.ld_unit_zero (S := S2048x2048) hz2, View.ld_unit_zero (S := S2048x64) hz2, View.ld_unit_zero (S := S2048x1) hz2]

/-- CASE C's accumulator (k = 3): the same. -/
theorem sout2_C_0_eq (c : Dev nD) (i : grid2.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : ¬cond2_0 i) (hc1 : cond2_1 i)
    (x0 : Vec F S2048x2048 .bf16) (x1 : Vec F S2048x64 .bf16) (x2 : Vec F S2048x1 .f32) (xs0 : Vec F S2048x64 .f32) :
    sout2_C_0 c i arg2 harg2 arg3 harg3 arg4 harg4 arg5 harg5 arg6 harg6 hc0 hc1 x0 x1 x2 xs0 = k2_pay2 xs0 x0 x1 := by
  unfold sout2_C_0
  rw [View.read_writes_eq_canon _ _ _ (scover2_C_0 c i arg2 harg2 arg3 harg3 arg4 harg4 arg5 harg5 arg6 harg6 hc0 hc1 x0 x1 x2 xs0)]
  unfold kernelRun2_C
  dsimp only
  sl_unfold_words
  rw [View.canon_unit_zero hz2]
  simp only [View.readAt_eq_ld, harg2.read_unread, harg3.read_unread, harg4.read_unread, harg6.read_unread, View.ld_unit_zero (S := S2048x2048) hz2, View.ld_unit_zero (S := S2048x64) hz2, View.ld_unit_zero (S := S2048x1) hz2]

/-- CASE C's output block: relu(d * acc) of the accumulator just stored (read back) and the scaling column. -/
theorem out2_C_3_eq (c : Dev nD) (i : grid2.Coords) (arg2 : Memref sig .tc .vmem S2048x2048 .bf16) (harg2 : arg2.IsWhole) (arg3 : Memref sig .tc .vmem S2048x64 .bf16) (harg3 : arg3.IsWhole) (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole) (hc0 : ¬cond2_0 i) (hc1 : cond2_1 i)
    (x0 : Vec F S2048x2048 .bf16) (x1 : Vec F S2048x64 .bf16) (x2 : Vec F S2048x1 .f32) (xs0 : Vec F S2048x64 .f32) :
    out2_C_3 c i arg2 harg2 arg3 harg3 arg4 harg4 arg5 harg5 arg6 harg6 hc0 hc1 x0 x1 x2 xs0 = k2_pay3 x2 (k2_pay2 xs0 x0 x1) := by
  unfold out2_C_3
  rw [View.read_writes_eq_canon _ _ _ (cover2_C_3 c i arg2 harg2 arg3 harg3 arg4 harg4 arg5 harg5 arg6 harg6 hc0 hc1 x0 x1 x2 xs0)]
  unfold kernelRun2_C
  dsimp only
  sl_unfold_words
  rw [View.canon_unit_zero hz2, View.readCov_unit_zero (S := S2048x64) _ hz2]
  simp only [View.readAt_eq_ld, harg2.read_unread, harg3.read_unread, harg4.read_unread, harg6.read_unread, View.ld_unit_zero (S := S2048x2048) hz2, View.ld_unit_zero (S := S2048x64) hz2, View.ld_unit_zero (S := S2048x1) hz2]

section IdealPart
variable (V : (c : Dev nD) → (b : Ref sig .tc) → Buf (Elt Ideal) ((c : Thread nD τ).loc b))

/-- The tile product's dimension numbers: the adjacency tile's columns against the feature tile's rows. -/
abbrev dot2 : DotDims S2048x2048 S2048x64 S2048x64 := dot_S2048x2048_S2048x64_S2048x64_1_0_0_1_n_n
theorem dot2_rank : dot2.contr.rank = 1 := rfl
theorem dot2_size : dot2.contr.size ⟨0, by rw [dot2_rank]; exact Nat.one_pos⟩ = 2048 := rfl
theorem dot2_L0 : ∀ (j : S2048x64.Idx) (k : dot2.contr.Idx), (dot2.lhsIdx j k 0).val = (j 0).val := fun j k => rfl
theorem dot2_R1 : ∀ (j : S2048x64.Idx) (k : dot2.contr.Idx), (dot2.rhsIdx j k 1).val = (j 1).val := fun j k => rfl

/-- The zero block the reset stores, at an index. -/
theorem pay2_1_apply (j : S2048x64.Idx) : (k2_pay1 (F := Ideal)) j = 0 := by
  unfold k2_pay1
  simp only [shapeCast_self]
  exact Ideal.ofBits_zero_f32

/-- The accumulation payload at an index: what the accumulator held plus the tile product, a plain sum over the
    tile's 2048 columns. -/
theorem pay2_2_apply (xs : Vec Ideal S2048x64 .f32) (x0 : Vec Ideal S2048x2048 .bf16) (x1 : Vec Ideal S2048x64 .bf16)
    (r : Fin 2048) (f : Fin 64) :
    (k2_pay2 xs x0 x1) (ix2 r f) = (xs (ix2 r f) : EReal) + (∑ j : Fin 2048, (x0 (ix2 r j) : EReal) * (x1 (ix2 j f) : EReal) : EReal) := by
  unfold k2_pay2
  simp only [shapeCast_self]
  show (xs (ix2 r f) : EReal) + FloatOps.matmul (F := Ideal) dot2 none x0 x1 (constant S2048x64 .f32 0x00000000#32) (ix2 r f) = _
  exact congrArg ((xs (ix2 r f) : EReal) + ·) (Cert.LibPlainDot.matmul_zero_apply dot2 dot2_rank dot2_size rfl rfl dot2_L0 dot2_R1 none x0 x1 r f)

/-- The output payload at an index: relu of the scaling column's entry times the accumulator's. -/
theorem pay2_3_apply (x2 : Vec Ideal S2048x1 .f32) (acc : Vec Ideal S2048x64 .f32) (r : Fin 2048) (f : Fin 64) :
    (k2_pay3 x2 acc) (ix2 r f) = max ((x2 (ix2 r (0 : Fin 1)) : EReal) * (acc (ix2 r f) : EReal)) 0 := by
  unfold k2_pay3
  simp only [shapeCast_self]
  show max ((broadcastTo S2048x64 x2 broadcasts_S2048x1_S2048x64 (ix2 r f) : EReal) * (acc (ix2 r f) : EReal)) (Ideal.ofBits .f32 0x00000000#32) = _
  rw [Cert.LibUnitAxes.broadcastTo_a1_ab_apply x2 broadcasts_S2048x1_S2048x64 r f, Ideal.ofBits_zero_f32]

theorem t_lt2 (t : Fin cfg2.N) : t.val < 16 := lt_of_lt_of_eq t.isLt (show cfg2.N = 16 from N_2)

/-- The block indices of the three input windows at point t = 4 i + k: (i, k), (k, 0), (i, 0). -/
theorem index2_0 (t : Fin cfg2.N) : win2_0.index t 0 = t.val / 4 ∧ win2_0.index t 1 = t.val % 4 := by
  rcases fin_N2 t with rfl | rfl | rfl | rfl | rfl | rfl | rfl | rfl | rfl | rfl | rfl | rfl | rfl | rfl | rfl | rfl <;> decide +kernel
theorem index2_1 (t : Fin cfg2.N) : win2_1.index t 0 = t.val % 4 ∧ win2_1.index t 1 = 0 := by
  rcases fin_N2 t with rfl | rfl | rfl | rfl | rfl | rfl | rfl | rfl | rfl | rfl | rfl | rfl | rfl | rfl | rfl | rfl <;> decide +kernel
theorem index2_2 (t : Fin cfg2.N) : win2_2.index t 0 = t.val / 4 ∧ win2_2.index t 1 = 0 := by
  rcases fin_N2 t with rfl | rfl | rfl | rfl | rfl | rfl | rfl | rfl | rfl | rfl | rfl | rfl | rfl | rfl | rfl | rfl <;> decide +kernel
theorem index2_3 (t : Fin cfg2.N) : win2_3.index t 0 = t.val / 4 ∧ win2_3.index t 1 = 0 := by
  rcases fin_N2 t with rfl | rfl | rfl | rfl | rfl | rfl | rfl | rfl | rfl | rfl | rfl | rfl | rfl | rfl | rfl | rfl <;> decide +kernel

/-- The adjacency tile at point t, entry (r, j): the array at row 2048 (t / 4) + r, column 2048 (t % 4) + j. -/
theorem iblk2_0_apply (c : Dev nD) (t : Fin cfg2.N) (r : Fin 2048) (j : Fin 2048) :
    (iblk2 V c 0 t) (ix2 r j) = (V c main_v0_1) (ix2 (⟨2048 * (t.val / 4) + r.val, by have := t_lt2 t; omega⟩ : Fin 8192) (⟨2048 * (t.val % 4) + j.val, by have := t_lt2 t; omega⟩ : Fin 8192)) := by
  have hi := index2_0 t
  unfold iblk2
  rw [View.read_apply]
  show V c main_v0_1 _ = V c main_v0_1 _
  congr 1
  funext a
  apply Fin.ext
  match a with
  | ⟨0, _⟩ => show win2_0.index t 0 * 2048 + 1 * r.val = 2048 * (t.val / 4) + r.val; rw [hi.1]; omega
  | ⟨1, _⟩ => show win2_0.index t 1 * 2048 + 1 * j.val = 2048 * (t.val % 4) + j.val; rw [hi.2]; omega

/-- The feature tile at point t, entry (j, f): the array at row 2048 (t % 4) + j, column f. -/
theorem iblk2_1_apply (c : Dev nD) (t : Fin cfg2.N) (j : Fin 2048) (f : Fin 64) :
    (iblk2 V c 1 t) (ix2 j f) = (V c main_v16) (ix2 (⟨2048 * (t.val % 4) + j.val, by have := t_lt2 t; omega⟩ : Fin 8192) f) := by
  have hi := index2_1 t
  unfold iblk2
  rw [View.read_apply]
  show V c main_v16 _ = V c main_v16 _
  congr 1
  funext a
  apply Fin.ext
  match a with
  | ⟨0, _⟩ => show win2_1.index t 0 * 2048 + 1 * j.val = 2048 * (t.val % 4) + j.val; rw [hi.1]; omega
  | ⟨1, _⟩ => show win2_1.index t 1 * 64 + 1 * f.val = f.val; rw [hi.2]; omega

/-- The scaling column's tile at point t, entry (r, 0): the array at row 2048 (t / 4) + r. -/
theorem iblk2_2_apply (c : Dev nD) (t : Fin cfg2.N) (r : Fin 2048) :
    (iblk2 V c 2 t) (ix2 r (0 : Fin 1)) = (V c main_v7) (ix2 (⟨2048 * (t.val / 4) + r.val, by have := t_lt2 t; omega⟩ : Fin 8192) (0 : Fin 1)) := by
  have hi := index2_2 t
  unfold iblk2
  rw [View.read_apply]
  show V c main_v7 _ = V c main_v7 _
  congr 1
  funext a
  apply Fin.ext
  match a with
  | ⟨0, _⟩ => show win2_2.index t 0 * 2048 + 1 * r.val = 2048 * (t.val / 4) + r.val; rw [hi.1]; omega
  | ⟨1, _⟩ => show win2_2.index t 1 * 1 + 1 * 0 = 0; rw [hi.2]

/-- The adjacency array and the feature array at natural-number coordinates (zero outside the arrays): the partial
    sums below range over natural numbers. -/
def An2 (c : Dev nD) (a b : ℕ) : EReal :=
  if h : a < 8192 ∧ b < 8192 then Spec.arr S8192x8192 (V c main_v0_1) (ix2 (⟨a, h.1⟩ : Fin 8192) (⟨b, h.2⟩ : Fin 8192)) else 0
def Hn2 (c : Dev nD) (a : ℕ) (f : Fin 64) : EReal :=
  if h : a < 8192 then Spec.arr S8192x64 (V c main_v16) (ix2 (⟨a, h⟩ : Fin 8192) f) else 0

/-- The tile product of point t at entry (r, f), over the arrays' entries: columns 2048 (t % 4) + j. -/
theorem tile2_eq (c : Dev nD) (t : Fin cfg2.N) (r : Fin 2048) (f : Fin 64) :
    (∑ j : Fin 2048, Spec.arr S2048x2048 (iblk2 V c 0 t) (ix2 r j) * Spec.arr S2048x64 (iblk2 V c 1 t) (ix2 j f) : EReal)
      = ∑ j ∈ Finset.range 2048, An2 V c (2048 * (t.val / 4) + r.val) (2048 * (t.val % 4) + j) * Hn2 V c (2048 * (t.val % 4) + j) f := by
  have ht := t_lt2 t
  rw [Finset.sum_range]
  refine Finset.sum_congr rfl fun j _ => ?_
  dsimp only [Spec.arr]
  rw [iblk2_0_apply, iblk2_1_apply]
  unfold An2 Hn2
  rw [dif_pos (⟨by omega, by omega⟩ : 2048 * (t.val / 4) + r.val < 8192 ∧ 2048 * (t.val % 4) + j.val < 8192),
    dif_pos (by omega : 2048 * (t.val % 4) + j.val < 8192)]

/-- THE ACCUMULATOR after point n = 4 i + k, at entry (r, f): the partial sum, over the columns of the tiles reached so
    far (2048 (k + 1) of them), of A (2048 i + r, m) * H (m, f) — by induction on the point. -/
theorem acc2_eq (c : Dev nD) (r : Fin 2048) (f : Fin 64) : ∀ (n : ℕ) (h : n < cfg2.N),
    ((outsAt2 V c n h).2 (ix2 r f) : EReal)
      = ∑ m ∈ Finset.range (2048 * (n % 4 + 1)), An2 V c (2048 * (n / 4) + r.val) m * Hn2 V c m f
  | 0, h => by
    rw [outsAt2_A V c ⟨0, h⟩ rfl (by dsimp only; omega)]
    (try dsimp only)
    rw [sout2_A_0_eq, pay2_2_apply, pay2_1_apply, zero_add, tile2_eq]
    (try dsimp only)
    simp only [Nat.zero_mod, Nat.zero_div, Nat.mul_zero, Nat.zero_add, Nat.mul_one]
  | n + 1, h => by
    have hN : n + 1 < 16 := lt_of_lt_of_eq h (show cfg2.N = 16 from N_2)
    by_cases h0 : (n + 1) % 4 = 0
    · have h1 : ¬(n + 1) % 4 = 3 := by omega
      rw [outsAt2_A V c ⟨n + 1, h⟩ h0 h1]
      (try dsimp only)
      rw [sout2_A_0_eq, pay2_2_apply, pay2_1_apply, zero_add, tile2_eq]
      (try dsimp only)
      rw [h0]
      simp only [Nat.mul_zero, Nat.zero_add, Nat.mul_one]
    · have e1 : (n + 1) % 4 = n % 4 + 1 := by omega
      have e2 : (n + 1) / 4 = n / 4 := by omega
      have step : ∀ (S : Vec Ideal S2048x64 .f32), (S (ix2 r f) : EReal) = (outsAt2 V c n (Nat.lt_of_succ_lt h)).2 (ix2 r f) + (∑ j : Fin 2048, Spec.arr S2048x2048 (iblk2 V c 0 ⟨n + 1, h⟩) (ix2 r j) * Spec.arr S2048x64 (iblk2 V c 1 ⟨n + 1, h⟩) (ix2 j f) : EReal) →
          (S (ix2 r f) : EReal) = ∑ m ∈ Finset.range (2048 * ((n + 1) % 4 + 1)), An2 V c (2048 * ((n + 1) / 4) + r.val) m * Hn2 V c m f := by
        intro S hS
        rw [hS, acc2_eq c r f n, tile2_eq]
        (try dsimp only)
        rw [e1, e2, show 2048 * (n % 4 + 1 + 1) = 2048 * (n % 4 + 1) + 2048 from by omega, Finset.sum_range_add]
      by_cases h1 : (n + 1) % 4 = 3
      · rw [outsAt2_C V c ⟨n + 1, h⟩ h0 h1]
        (try dsimp only)
        refine step _ ?_
        rw [sout2_C_0_eq, pay2_2_apply]
        rfl
      · rw [outsAt2_B V c ⟨n + 1, h⟩ h0 h1]
        (try dsimp only)
        refine step _ ?_
        rw [sout2_B_0_eq, pay2_2_apply]
        rfl

/-- THE OUTPUT BLOCK a flushing point stores (k = 3), at entry (r, f): relu of the scaling column's entry times the whole
    contraction ∑ k, A (2048 i + r, k) * H (k, f). -/
theorem out2_at_flush (c : Dev nD) (t : Fin cfg2.N) (h3 : t.val % 4 = 3) (r : Fin 2048) (f : Fin 64) :
    Spec.arr S2048x64 (outsAt2 V c t.val t.isLt).1 (ix2 r f)
      = max (Spec.arr S8192x1 (V c main_v7) (ix2 (⟨2048 * (t.val / 4) + r.val, by have := t_lt2 t; omega⟩ : Fin 8192) (0 : Fin 1))
          * ∑ k : Fin 8192, Spec.arr S8192x8192 (V c main_v0_1) (ix2 (⟨2048 * (t.val / 4) + r.val, by have := t_lt2 t; omega⟩ : Fin 8192) k) * Spec.arr S8192x64 (V c main_v16) (ix2 k f)) 0 := by
  have ht := t_lt2 t
  have h0 : ¬t.val % 4 = 0 := by omega
  have hz : t.val ≠ 0 := by omega
  rw [outsAt2_C V c t h0 h3]
  (try dsimp only)
  rw [out2_C_3_eq]
  dsimp only [Spec.arr]
  rw [pay2_3_apply, iblk2_2_apply]
  refine congrArg (fun s => max (Spec.arr S8192x1 (V c main_v7) (ix2 (⟨2048 * (t.val / 4) + r.val, by have := t_lt2 t; omega⟩ : Fin 8192) (0 : Fin 1)) * s) 0) ?_
  -- the accumulator just stored is the scratch component of this point
  have hacc := acc2_eq V c r f t.val t.isLt
  rw [outsAt2_C V c t h0 h3] at hacc
  (try dsimp only at hacc)
  rw [sout2_C_0_eq] at hacc
  rw [hacc, h3, show 2048 * (3 + 1) = 8192 from rfl, Finset.sum_range]
  refine Finset.sum_congr rfl fun k _ => ?_
  unfold An2 Hn2
  dsimp only [Spec.arr]
  rw [dif_pos (⟨by omega, k.isLt⟩ : 2048 * (t.val / 4) + r.val < 8192 ∧ k.val < 8192), dif_pos k.isLt]

/-! ## The result array after the region -/

/-- relu(d · (A h)) of the region's three input arrays, as contents of the result array. -/
def result2 (c : Dev nD) : S8192x64.Idx → EReal :=
  fun i => max (Spec.arr S8192x1 (V c main_v7) (ix2 (i 0 : Fin 8192) (0 : Fin 1))
    * ∑ k : Fin 8192, Spec.arr S8192x8192 (V c main_v0_1) (ix2 (i 0 : Fin 8192) k) * Spec.arr S8192x64 (V c main_v16) (ix2 k (i 1 : Fin 64))) 0

/-- What the last tile of a row of tiles writes back is that row of tiles' block of the result. -/
theorem flushed2_3_eq (c : Dev nD) (t : Fin cfg2.N) (hf : (cfg2.win 3).flush t = true) :
    (dat2 V c).flushed 3 t = ((cfg2.win 3).blk t).view.read (Elt Ideal) (result2 V c) := by
  have hN : t.val < 16 := t_lt2 t
  have h3 : t.val % 4 = 3 := (flush2_3 t).mp hf
  have hi := index2_3 t
  funext y
  obtain ⟨r, f, rfl⟩ : ∃ (r : Fin 2048) (f : Fin 64), y = ix2 r f := ⟨y 0, y 1, eq_ix2 y⟩
  show (cfg2.win 3).cut (grid2.coords t) ((dat2 V c).after 3 t) (ix2 r f) = _
  rw [after2_3, View.read_apply]
  show Spec.arr S2048x64 (outsAt2 V c t.val t.isLt).1 (ix2 r f) = result2 V c _
  rw [out2_at_flush V c t h3 r f]
  unfold result2
  have e0 : (⟨2048 * (t.val / 4) + r.val, by omega⟩ : Fin 8192)
      = ((((cfg2.win 3).blk t).view.emb (ix2 r f)) 0 : Fin 8192) := Fin.ext (by
    show 2048 * (t.val / 4) + r.val = win2_3.index t 0 * 2048 + 1 * r.val; rw [hi.1]; omega)
  have e1 : f = ((((cfg2.win 3).blk t).view.emb (ix2 r f)) 1 : Fin 64) := Fin.ext (by
    show f.val = win2_3.index t 1 * 64 + 1 * f.val; rw [hi.2]; omega)
  rw [← e0, ← e1]

/-- Every entry lies in the block some last tile of a row of tiles writes back. -/
theorem cover2_3 (c : Dev nD) (i : ((cfg2.win 3).arr.view.loc (c.tc : Thread nD τ)).2.ty.Idx) :
    ∃ t : Fin cfg2.N, (cfg2.win 3).flush t = true ∧ i ∈ ((cfg2.win 3).blk t).view.set := by
  have h0 : (i 0 : Nat) < 8192 := (i 0).isLt
  have h1 : (i 1 : Nat) < 64 := (i 1).isLt
  have hN : cfg2.N = 16 := N_2
  have ht : 4 * ((i 0 : Nat) / 2048) + 3 < cfg2.N := by rw [hN]; omega
  refine ⟨⟨4 * ((i 0 : Nat) / 2048) + 3, ht⟩, (flush2_3 _).mpr (by dsimp only; omega), ?_⟩
  have hi := index2_3 ⟨4 * ((i 0 : Nat) / 2048) + 3, ht⟩
  show i ∈ ((View.whole main_v17).slice (win2_3.rect ⟨4 * ((i 0 : Nat) / 2048) + 3, ht⟩)).set
  rw [View.set_slice_whole, Rect.mem_set_unit]
  intro a
  match a with
  | ⟨0, _⟩ =>
    show win2_3.index _ 0 * 2048 ≤ (i 0 : Nat) ∧ (i 0 : Nat) < win2_3.index _ 0 * 2048 + 2048
    rw [hi.1]; dsimp only; omega
  | ⟨1, _⟩ =>
    show win2_3.index _ 1 * 64 ≤ (i 1 : Nat) ∧ (i 1 : Nat) < win2_3.index _ 1 * 64 + 64
    rw [hi.2]; omega

/-- So the result array ends holding relu(d · (A h)). -/
theorem final2_3 (c : Dev nD) : (dat2 V c).arrAt 3 cfg2.N = result2 V c :=
  (dat2 V c).arrAt_eq_of_cover 3 (result2 V c) (flushed2_3_eq V c) (cover2_3 c)

/-- REGION 2's result at (r, f): relu of the scaling column's row r times the product's entry. -/
theorem arrAt2_3 (c : Dev nD) (r : Fin 8192) (f : Fin 64) :
    Spec.arr S8192x64 ((dat2 (F := Ideal) V c).arrAt 3 cfg2.N) (ix2 r f)
      = max (Spec.arr S8192x1 (V c main_v7) (ix2 r 0)
          * ∑ k : Fin 8192, Spec.arr S8192x8192 (V c main_v0_1) (ix2 r k) * Spec.arr S8192x64 (V c main_v16) (ix2 k f)) 0 := by
  rw [final2_3 V c]; rfl

end IdealPart

end Cert.KernelIdeal.Hand

end
-- ==== Proof.HostValue.lean ====
/-
  The host operations of the three-call program, read as values on the extended reals.

  Between the kernel calls the host computes, from the row-sum column s the first call leaves, the factor column
  d = select (s > 0) (rsqrt (select (s > 0) s 1)) 0; the feature product X W scaled by d along the rows (the second
  operand of a layer's call); and, after the last call, the classifier x₂ Wc + bc.  Each is read at an index here: the
  contractions as sums over the 64 features, the broadcasts at the coordinate they copy, the format changes as the
  identity.  A layer's call is taken by its contract, relu (d r * ∑ k, a (r, k) * h (k, f)) of the three arrays it
  reads, and a call leaves every other buffer alone; then the program's result is the specification of the six
  argument arrays.  No algebraic law is needed on this side: the products already stand in the specification's order.
-/
import proofs.«177097_j68143951118910_2_alg».proof.Proof.Gen.KernelIdeal.Regions
import proofs.«177097_j68143951118910_2_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

open scoped BigOperators

namespace Cert.KernelIdeal.HostValue

open Cert.KernelIdeal Cert.KernelIdeal.Gen Idealize.ShloMosaic Idealize.ShloMosaic.TcCoe Idealize.SL.Sem
open Idealize.ShloMosaic.StableHlo Idealize.ShloMosaic.ValueIdx
open Cert.Hand

/-- The buffers after the host operations between the first and the second kernel call. -/
abbrev W6 (W1 : Valuation τ sig (Elt Ideal)) : Valuation τ sig (Elt Ideal) :=
  StableHlo.after (hostOps1_4 (F := Ideal)) (StableHlo.after (hostOps1_3 (F := Ideal)) (StableHlo.after (hostOps1_2 (F := Ideal))
    (StableHlo.after (hostOps1_1 (F := Ideal)) (StableHlo.after (hostOps1 (F := Ideal)) W1))))
/-- The buffers after the host operations between the second and the third kernel call. -/
abbrev W8 (W7 : Valuation τ sig (Elt Ideal)) : Valuation τ sig (Elt Ideal) := StableHlo.after (hostOps2 (F := Ideal)) W7
/-- The buffers after the host operations that follow the third kernel call. -/
abbrev W10 (W9 : Valuation τ sig (Elt Ideal)) : Valuation τ sig (Elt Ideal) := StableHlo.after (hostOps3 (F := Ideal)) W9

/-! ## The host operations at an index -/

/-- Left operand's row coordinate of the feature product's contraction. -/
theorem lhs64_0 (i : S8192x64.Idx) (q : dot_S8192x64_S64x64_S8192x64_1_0_0_1_n_n.contr.Idx) :
    (dot_S8192x64_S64x64_S8192x64_1_0_0_1_n_n.lhsIdx i q 0).val = (i 0).val := by
  unfold DotDims.lhsIdx
  rw [dif_neg (show ¬(0 : Fin S8192x64.rank) ∈ dot_S8192x64_S64x64_S8192x64_1_0_0_1_n_n.lhsBatch by decide), dif_pos (show (0 : Fin S8192x64.rank) ∈ dot_S8192x64_S64x64_S8192x64_1_0_0_1_n_n.lhsNonContracting by decide)]
  rfl
/-- Right operand's column coordinate of the feature product's contraction. -/
theorem rhs64_1 (i : S8192x64.Idx) (q : dot_S8192x64_S64x64_S8192x64_1_0_0_1_n_n.contr.Idx) :
    (dot_S8192x64_S64x64_S8192x64_1_0_0_1_n_n.rhsIdx i q 1).val = (i 1).val := by
  unfold DotDims.rhsIdx
  rw [dif_neg (show ¬(1 : Fin S64x64.rank) ∈ dot_S8192x64_S64x64_S8192x64_1_0_0_1_n_n.rhsBatch by decide), dif_pos (show (1 : Fin S64x64.rank) ∈ dot_S8192x64_S64x64_S8192x64_1_0_0_1_n_n.rhsNonContracting by decide)]
  rfl

/-- The host's feature product X W at (k, f) is the contraction over the 64 features. -/
theorem dot64_apply (X : S8192x64.Idx → EReal) (W : S64x64.Idx → EReal) (k : Fin 8192) (f : Fin 64) :
    Host.dotGeneral (F := Ideal) (φ₁ := .f32) (φ₂ := .f32) dot_S8192x64_S64x64_S8192x64_1_0_0_1_n_n none X W (ix2 k f) = Spec.feat X W k f := by
  simp only [Host.dotGeneral]
  rw [Ideal.dotGeneral_apply, ← Equiv.sum_comp (ValueIdx.contrEquiv1 dot_S8192x64_S64x64_S8192x64_1_0_0_1_n_n 64 rfl rfl).symm]
  unfold Spec.feat
  refine Finset.sum_congr rfl fun j _ => ?_
  have hk := ValueIdx.contrEquiv1_symm_val dot_S8192x64_S64x64_S8192x64_1_0_0_1_n_n 64 rfl rfl j
  have el : dot_S8192x64_S64x64_S8192x64_1_0_0_1_n_n.lhsIdx (ix2 k f) ((ValueIdx.contrEquiv1 dot_S8192x64_S64x64_S8192x64_1_0_0_1_n_n 64 rfl rfl).symm j) = ix2 k j := funext fun a => Fin.ext (by
    match a with
    | ⟨0, _⟩ => exact lhs64_0 _ _
    | ⟨1, _⟩ => exact (dot_S8192x64_S64x64_S8192x64_1_0_0_1_n_n.lhsIdx_val_of_single rfl _ _).trans hk)
  have er : dot_S8192x64_S64x64_S8192x64_1_0_0_1_n_n.rhsIdx (ix2 k f) ((ValueIdx.contrEquiv1 dot_S8192x64_S64x64_S8192x64_1_0_0_1_n_n 64 rfl rfl).symm j) = ix2 j f := funext fun a => Fin.ext (by
    match a with
    | ⟨0, _⟩ => exact (dot_S8192x64_S64x64_S8192x64_1_0_0_1_n_n.rhsIdx_val_of_single rfl _ _).trans hk
    | ⟨1, _⟩ => exact rhs64_1 _ _)
  rw [el, er]

/-- Left operand's row coordinate of the classifier's contraction. -/
theorem lhs10_0 (i : S8192x10.Idx) (q : dot_S8192x64_S64x10_S8192x10_1_0_0_1_n_n.contr.Idx) :
    (dot_S8192x64_S64x10_S8192x10_1_0_0_1_n_n.lhsIdx i q 0).val = (i 0).val := by
  unfold DotDims.lhsIdx
  rw [dif_neg (show ¬(0 : Fin S8192x64.rank) ∈ dot_S8192x64_S64x10_S8192x10_1_0_0_1_n_n.lhsBatch by decide), dif_pos (show (0 : Fin S8192x64.rank) ∈ dot_S8192x64_S64x10_S8192x10_1_0_0_1_n_n.lhsNonContracting by decide)]
  rfl
/-- Right operand's column coordinate of the classifier's contraction. -/
theorem rhs10_1 (i : S8192x10.Idx) (q : dot_S8192x64_S64x10_S8192x10_1_0_0_1_n_n.contr.Idx) :
    (dot_S8192x64_S64x10_S8192x10_1_0_0_1_n_n.rhsIdx i q 1).val = (i 1).val := by
  unfold DotDims.rhsIdx
  rw [dif_neg (show ¬(1 : Fin S64x10.rank) ∈ dot_S8192x64_S64x10_S8192x10_1_0_0_1_n_n.rhsBatch by decide), dif_pos (show (1 : Fin S64x10.rank) ∈ dot_S8192x64_S64x10_S8192x10_1_0_0_1_n_n.rhsNonContracting by decide)]
  rfl

/-- The host's classifier product X Wc at (r, q) is the contraction over the 64 features. -/
theorem dot10_apply (X : S8192x64.Idx → EReal) (Wc : S64x10.Idx → EReal) (r : Fin 8192) (q : Fin 10) :
    Host.dotGeneral (F := Ideal) (φ₁ := .f32) (φ₂ := .f32) dot_S8192x64_S64x10_S8192x10_1_0_0_1_n_n none X Wc (ix2 r q)
      = ∑ f : Fin 64, X (ix2 r f) * Wc (ix2 f q) := by
  simp only [Host.dotGeneral]
  rw [Ideal.dotGeneral_apply, ← Equiv.sum_comp (ValueIdx.contrEquiv1 dot_S8192x64_S64x10_S8192x10_1_0_0_1_n_n 64 rfl rfl).symm]
  refine Finset.sum_congr rfl fun j _ => ?_
  have hk := ValueIdx.contrEquiv1_symm_val dot_S8192x64_S64x10_S8192x10_1_0_0_1_n_n 64 rfl rfl j
  have el : dot_S8192x64_S64x10_S8192x10_1_0_0_1_n_n.lhsIdx (ix2 r q) ((ValueIdx.contrEquiv1 dot_S8192x64_S64x10_S8192x10_1_0_0_1_n_n 64 rfl rfl).symm j) = ix2 r j := funext fun a => Fin.ext (by
    match a with
    | ⟨0, _⟩ => exact lhs10_0 _ _
    | ⟨1, _⟩ => exact (dot_S8192x64_S64x10_S8192x10_1_0_0_1_n_n.lhsIdx_val_of_single rfl _ _).trans hk)
  have er : dot_S8192x64_S64x10_S8192x10_1_0_0_1_n_n.rhsIdx (ix2 r q) ((ValueIdx.contrEquiv1 dot_S8192x64_S64x10_S8192x10_1_0_0_1_n_n 64 rfl rfl).symm j) = ix2 j q := funext fun a => Fin.ext (by
    match a with
    | ⟨0, _⟩ => exact (dot_S8192x64_S64x10_S8192x10_1_0_0_1_n_n.rhsIdx_val_of_single rfl _ _).trans hk
    | ⟨1, _⟩ => exact rhs10_1 _ _)
  rw [el, er]

/-- A column broadcast along the features reads the column's row. -/
theorem bcol_apply (y : S8192x1.Idx → EReal) (k : Fin 8192) (f : Fin 64) :
    broadcastInDim S8192x64 ![0, 1] bcast_S8192x1_S8192x64_0_1 y (ix2 k f) = y (ix2 k 0) :=
  broadcastInDim_apply _ bcast_S8192x1_S8192x64_0_1 y (ix2 k f) (ix2 k 0) (fun a => match a with
    | ⟨0, _⟩ => by show k.val = if (8192 : Nat) = 1 then 0 else k.val; rw [if_neg (by decide)]
    | ⟨1, _⟩ => by show 0 = if (1 : Nat) = 1 then 0 else f.val; rw [if_pos rfl])

/-- The bias broadcast to a row and then down the rows reads the bias at the column. -/
theorem bias_apply (bc : S10.Idx → EReal) (r : Fin 8192) (q : Fin 10) :
    broadcastInDim S8192x10 ![0, 1] bcast_S1x10_S8192x10_0_1 (broadcastInDim S1x10 ![1] bcast_S10_S1x10_1 bc) (ix2 r q)
      = bc (ix1 q) := by
  rw [broadcastInDim_apply _ bcast_S1x10_S8192x10_0_1 _ (ix2 r q) (ix2 (0 : Fin 1) q) (fun a => match a with
    | ⟨0, _⟩ => by show 0 = if (1 : Nat) = 1 then 0 else r.val; rw [if_pos rfl]
    | ⟨1, _⟩ => by show q.val = if (10 : Nat) = 1 then 0 else q.val; rw [if_neg (by decide)])]
  exact broadcastInDim_apply _ bcast_S10_S1x10_1 bc (ix2 (0 : Fin 1) q) (ix1 q) (fun a => match a with
    | ⟨0, _⟩ => by show q.val = if (10 : Nat) = 1 then 0 else q.val; rw [if_neg (by decide)])

/-- The normalising-factor column the host computes from the row-sum column s: s > 0 selects the inverse square root
    of (s where s > 0, else one), else zero. -/
def dcol (s : S8192x1.Idx → EReal) : S8192x1.Idx → EReal :=
  select (cmpf .ogt s (broadcastInDim S8192x1 ![] bcast_S_S8192x1 (constant (F := Ideal) S_ .f32 0x00000000#32)))
    (Host.rsqrt (F := Ideal) (select (cmpf .ogt s (broadcastInDim S8192x1 ![] bcast_S_S8192x1 (constant (F := Ideal) S_ .f32 0x00000000#32))) s
      (broadcastInDim S8192x1 ![] bcast_S_S8192x1 (id (constant (F := Ideal) S_ .f32 0x3F800000#32)))))
    (broadcastInDim S8192x1 ![] bcast_S_S8192x1 (id (constant (F := Ideal) S_ .f32 0x00000000#32)))

/-- At a row, it is the specification's factor of the row's sum. -/
theorem dcol_apply (s : S8192x1.Idx → EReal) (r : Fin 8192) : dcol s (ix2 r 0) = Spec.dinv (s (ix2 r 0)) := by
  unfold dcol Spec.dinv
  show Scalar.select (Ideal.cmp .ogt (s (ix2 r 0)) (Ideal.ofBits .f32 0x00000000#32))
      (Ideal.rsqrt (Scalar.select (Ideal.cmp .ogt (s (ix2 r 0)) (Ideal.ofBits .f32 0x00000000#32)) (s (ix2 r 0))
        (Ideal.ofBits .f32 0x3F800000#32))) (Ideal.ofBits .f32 0x00000000#32) = _
  rw [Ideal.ofBits_zero_f32]

/-- The second operand of a layer's kernel call: the feature product scaled by the column d, in the narrow format
    (at the extended reals the format change is the identity). -/
def scaled (X : S8192x64.Idx → EReal) (W : S64x64.Idx → EReal) (d : S8192x1.Idx → EReal) : S8192x64.Idx → EReal :=
  truncf (F := Ideal) .bf16 (mulf (Host.dotGeneral (F := Ideal) (φ₁ := .f32) (φ₂ := .f32) dot_S8192x64_S64x64_S8192x64_1_0_0_1_n_n none X W)
    (broadcastInDim S8192x64 ![0, 1] bcast_S8192x1_S8192x64_0_1 d)) bitsLt_bf16_f32

theorem scaled_apply (X : S8192x64.Idx → EReal) (W : S64x64.Idx → EReal) (d : S8192x1.Idx → EReal) (k : Fin 8192) (f : Fin 64) :
    scaled X W d (ix2 k f) = Spec.feat X W k f * d (ix2 k 0) := by
  show Host.dotGeneral (F := Ideal) (φ₁ := .f32) (φ₂ := .f32) dot_S8192x64_S64x64_S8192x64_1_0_0_1_n_n none X W (ix2 k f)
    * broadcastInDim S8192x64 ![0, 1] bcast_S8192x1_S8192x64_0_1 d (ix2 k f) = _
  rw [dot64_apply, bcol_apply]

/-- The classifier the host applies after the last kernel call. -/
def logits (X : S8192x64.Idx → EReal) (Wc : S64x10.Idx → EReal) (bc : S10.Idx → EReal) : S8192x10.Idx → EReal :=
  addf (F := Ideal) (Host.dotGeneral (F := Ideal) (φ₁ := .f32) (φ₂ := .f32) dot_S8192x64_S64x10_S8192x10_1_0_0_1_n_n none X Wc)
    (broadcastInDim S8192x10 ![0, 1] bcast_S1x10_S8192x10_0_1 (broadcastInDim S1x10 ![1] bcast_S10_S1x10_1 bc))

theorem logits_apply (X : S8192x64.Idx → EReal) (Wc : S64x10.Idx → EReal) (bc : S10.Idx → EReal) (r : Fin 8192) (q : Fin 10) :
    logits X Wc bc (ix2 r q) = Spec.logitsAt X Wc bc r q := by
  show Host.dotGeneral (F := Ideal) (φ₁ := .f32) (φ₂ := .f32) dot_S8192x64_S64x10_S8192x10_1_0_0_1_n_n none X Wc (ix2 r q)
    + broadcastInDim S8192x10 ![0, 1] bcast_S1x10_S8192x10_0_1 (broadcastInDim S1x10 ![1] bcast_S10_S1x10_1 bc) (ix2 r q) = _
  rw [dot10_apply, bias_apply]
  rfl

/-! ## The mathematics over plain arrays -/

/-- A layer from its kernel call's contract: with d the factor column, a the adjacency matrix and h the scaled feature
    product, an array that is relu (d r * ∑ k, a (r, k) * h (k, f)) at every (r, f) is the specification's layer. -/
theorem layer_of (A : S8192x8192.Idx → EReal) (X : S8192x64.Idx → EReal) (W : S64x64.Idx → EReal)
    (d : S8192x1.Idx → EReal) (a : S8192x8192.Idx → EReal) (h out : S8192x64.Idx → EReal)
    (hd : ∀ r : Fin 8192, d (ix2 r 0) = Spec.deg A r) (ha : ∀ r k : Fin 8192, a (ix2 r k) = A (ix2 r k))
    (hh : ∀ (k : Fin 8192) (f : Fin 64), h (ix2 k f) = Spec.feat X W k f * Spec.deg A k)
    (hout : ∀ (r : Fin 8192) (f : Fin 64), out (ix2 r f) = max (d (ix2 r 0) * ∑ k : Fin 8192, a (ix2 r k) * h (ix2 k f)) 0) :
    out = Spec.layer A X W := by
  funext i
  obtain ⟨r, f, rfl⟩ : ∃ (r : Fin 8192) (f : Fin 64), i = ix2 r f := ⟨i 0, i 1, eq_ix2 i⟩
  rw [Spec.layer_apply, hout, hd]
  unfold Spec.layerAt
  exact congrArg (fun t => max (Spec.deg A r * t) 0) (Finset.sum_congr rfl fun k _ => by rw [ha, hh])

/-- The result from the classifier's contract. -/
theorem logits_of (X : S8192x64.Idx → EReal) (Wc : S64x10.Idx → EReal) (bc : S10.Idx → EReal) (out : S8192x10.Idx → EReal)
    (hout : out = logits X Wc bc) : ∀ i, out i = Spec.logitsAt X Wc bc (i 0) (i 1) := by
  intro i
  obtain ⟨r, q, rfl⟩ : ∃ (r : Fin 8192) (q : Fin 10), i = ix2 r q := ⟨i 0, i 1, eq_ix2 i⟩
  rw [hout, logits_apply]

/-! ## What the host stretches leave in the buffers the kernel calls read -/

section Stretches

variable (W1 W7 W9 : Valuation τ sig (Elt Ideal))

theorem W6_v7 : W6 W1 (Proc.devRef .tc main_v7) = dcol (W1 (Proc.devRef .tc main_v0_0)) := by
  show StableHlo.after (hostOps1_4 (F := Ideal)) _ (Proc.devRef .tc main_v7) = _
  after_results
  rfl
theorem W6_v0_1 : W6 W1 (Proc.devRef .tc main_v0_1) = W1 (Proc.devRef .tc main_v0_1) := by
  show StableHlo.after (hostOps1_4 (F := Ideal)) _ (Proc.devRef .tc main_v0_1) = _
  after_results
/-- The buffers before the last stretch ahead of the second kernel call. -/
abbrev W5 (W1 : Valuation τ sig (Elt Ideal)) : Valuation τ sig (Elt Ideal) :=
  StableHlo.after (hostOps1_3 (F := Ideal)) (StableHlo.after (hostOps1_2 (F := Ideal))
    (StableHlo.after (hostOps1_1 (F := Ideal)) (StableHlo.after (hostOps1 (F := Ideal)) W1)))
theorem W5_v7 : W5 W1 (Proc.devRef .tc main_v7) = dcol (W1 (Proc.devRef .tc main_v0_0)) := by
  show StableHlo.after (hostOps1_3 (F := Ideal)) _ (Proc.devRef .tc main_v7) = _
  after_results
  rfl
theorem W5_arg1 : W5 W1 (Proc.devRef .tc main_arg1) = W1 (Proc.devRef .tc main_arg1) := by
  show StableHlo.after (hostOps1_3 (F := Ideal)) _ (Proc.devRef .tc main_arg1) = _
  after_results
theorem W5_arg2 : W5 W1 (Proc.devRef .tc main_arg2) = W1 (Proc.devRef .tc main_arg2) := by
  show StableHlo.after (hostOps1_3 (F := Ideal)) _ (Proc.devRef .tc main_arg2) = _
  after_results
/-- The last stretch ahead of the second kernel call leaves the scaled feature product. -/
theorem s14_v11 (V : Valuation τ sig (Elt Ideal)) : StableHlo.after (hostOps1_4 (F := Ideal)) V (Proc.devRef .tc main_v11)
    = scaled (V (Proc.devRef .tc main_arg1)) (V (Proc.devRef .tc main_arg2)) (V (Proc.devRef .tc main_v7)) := by
  after_results
  rfl
theorem W6_v11 : W6 W1 (Proc.devRef .tc main_v11)
    = scaled (W1 (Proc.devRef .tc main_arg1)) (W1 (Proc.devRef .tc main_arg2)) (dcol (W1 (Proc.devRef .tc main_v0_0))) := by
  show StableHlo.after (hostOps1_4 (F := Ideal)) (W5 W1) (Proc.devRef .tc main_v11) = _
  rw [s14_v11, W5_v7, W5_arg1, W5_arg2]
theorem W6_arg3 : W6 W1 (Proc.devRef .tc main_arg3) = W1 (Proc.devRef .tc main_arg3) := by
  show StableHlo.after (hostOps1_4 (F := Ideal)) _ (Proc.devRef .tc main_arg3) = _
  after_results
theorem W6_arg4 : W6 W1 (Proc.devRef .tc main_arg4) = W1 (Proc.devRef .tc main_arg4) := by
  show StableHlo.after (hostOps1_4 (F := Ideal)) _ (Proc.devRef .tc main_arg4) = _
  after_results
theorem W6_arg5 : W6 W1 (Proc.devRef .tc main_arg5) = W1 (Proc.devRef .tc main_arg5) := by
  show StableHlo.after (hostOps1_4 (F := Ideal)) _ (Proc.devRef .tc main_arg5) = _
  after_results

theorem W8_v16 : W8 W7 (Proc.devRef .tc main_v16)
    = scaled (W7 (Proc.devRef .tc main_v12)) (W7 (Proc.devRef .tc main_arg3)) (W7 (Proc.devRef .tc main_v7)) := by
  show StableHlo.after (hostOps2 (F := Ideal)) _ (Proc.devRef .tc main_v16) = _
  after_results
  rfl
theorem W8_v7 : W8 W7 (Proc.devRef .tc main_v7) = W7 (Proc.devRef .tc main_v7) := by
  show StableHlo.after (hostOps2 (F := Ideal)) _ (Proc.devRef .tc main_v7) = _
  after_results
theorem W8_v0_1 : W8 W7 (Proc.devRef .tc main_v0_1) = W7 (Proc.devRef .tc main_v0_1) := by
  show StableHlo.after (hostOps2 (F := Ideal)) _ (Proc.devRef .tc main_v0_1) = _
  after_results
theorem W8_arg4 : W8 W7 (Proc.devRef .tc main_arg4) = W7 (Proc.devRef .tc main_arg4) := by
  show StableHlo.after (hostOps2 (F := Ideal)) _ (Proc.devRef .tc main_arg4) = _
  after_results
theorem W8_arg5 : W8 W7 (Proc.devRef .tc main_arg5) = W7 (Proc.devRef .tc main_arg5) := by
  show StableHlo.after (hostOps2 (F := Ideal)) _ (Proc.devRef .tc main_arg5) = _
  after_results

theorem W10_v21 : W10 W9 (Proc.devRef .tc main_v21)
    = logits (W9 (Proc.devRef .tc main_v17)) (W9 (Proc.devRef .tc main_arg4)) (W9 (Proc.devRef .tc main_arg5)) := by
  show StableHlo.after (hostOps3 (F := Ideal)) _ (Proc.devRef .tc main_v21) = _
  after_results
  rfl

end Stretches

/-! ## The kernel's host operations around three region results compute the specification -/

/-- Given what the three kernel calls leave (the row sums and a copy of the adjacency matrix; one layer each from the
    factor column, the copy and the scaled feature product that the host operations before it leave) and that they leave
    every other buffer alone, the last host stretch's result is the specification of the argument arrays. -/
theorem kernel_is_G (W0 W1 W7 W9 : Valuation τ sig (Elt Ideal))
    (h1s : ∀ r : Fin 8192, Spec.arr S8192x1 (W1 (Proc.devRef .tc main_v0_0)) (ix2 r 0)
      = ∑ j : Fin 8192, Spec.arr S8192x8192 (W0 (Proc.devRef .tc main_arg0)) (ix2 r j))
    (h1a : ∀ r j : Fin 8192, Spec.arr S8192x8192 (W1 (Proc.devRef .tc main_v0_1)) (ix2 r j)
      = Spec.arr S8192x8192 (W0 (Proc.devRef .tc main_arg0)) (ix2 r j))
    (h1k : ∀ b : Ref sig .tc, b ≠ main_v0_0 → b ≠ main_v0_1 → W1 (Proc.devRef .tc b) = W0 (Proc.devRef .tc b))
    (h7 : ∀ (r : Fin 8192) (f : Fin 64), Spec.arr S8192x64 (W7 (Proc.devRef .tc main_v12)) (ix2 r f)
      = max (Spec.arr S8192x1 (W6 W1 (Proc.devRef .tc main_v7)) (ix2 r 0)
          * ∑ k : Fin 8192, Spec.arr S8192x8192 (W6 W1 (Proc.devRef .tc main_v0_1)) (ix2 r k)
              * Spec.arr S8192x64 (W6 W1 (Proc.devRef .tc main_v11)) (ix2 k f)) 0)
    (h7k : ∀ b : Ref sig .tc, b ≠ main_v12 → W7 (Proc.devRef .tc b) = W6 W1 (Proc.devRef .tc b))
    (h9 : ∀ (r : Fin 8192) (f : Fin 64), Spec.arr S8192x64 (W9 (Proc.devRef .tc main_v17)) (ix2 r f)
      = max (Spec.arr S8192x1 (W8 W7 (Proc.devRef .tc main_v7)) (ix2 r 0)
          * ∑ k : Fin 8192, Spec.arr S8192x8192 (W8 W7 (Proc.devRef .tc main_v0_1)) (ix2 r k)
              * Spec.arr S8192x64 (W8 W7 (Proc.devRef .tc main_v16)) (ix2 k f)) 0)
    (h9k : ∀ b : Ref sig .tc, b ≠ main_v17 → W9 (Proc.devRef .tc b) = W8 W7 (Proc.devRef .tc b)) :
    Spec.arr S8192x10 (W10 W9 (Proc.devRef .tc main_v21))
      = Spec.G (W0 (Proc.devRef .tc main_arg0)) (W0 (Proc.devRef .tc main_arg1)) (W0 (Proc.devRef .tc main_arg2))
          (W0 (Proc.devRef .tc main_arg3)) (W0 (Proc.devRef .tc main_arg4)) (W0 (Proc.devRef .tc main_arg5)) := by
  -- the arguments reach every stretch as launched
  have a1 : W1 (Proc.devRef .tc main_arg1) = W0 (Proc.devRef .tc main_arg1) := h1k _ (by decide) (by decide)
  have a2 : W1 (Proc.devRef .tc main_arg2) = W0 (Proc.devRef .tc main_arg2) := h1k _ (by decide) (by decide)
  have a3 : W7 (Proc.devRef .tc main_arg3) = W0 (Proc.devRef .tc main_arg3) :=
    (h7k _ (by decide)).trans ((W6_arg3 W1).trans (h1k _ (by decide) (by decide)))
  have a4 : W9 (Proc.devRef .tc main_arg4) = W0 (Proc.devRef .tc main_arg4) :=
    (h9k _ (by decide)).trans ((W8_arg4 W7).trans ((h7k _ (by decide)).trans ((W6_arg4 W1).trans (h1k _ (by decide) (by decide)))))
  have a5 : W9 (Proc.devRef .tc main_arg5) = W0 (Proc.devRef .tc main_arg5) :=
    (h9k _ (by decide)).trans ((W8_arg5 W7).trans ((h7k _ (by decide)).trans ((W6_arg5 W1).trans (h1k _ (by decide) (by decide)))))
  -- the factor column, from the row sums
  have hd : ∀ r : Fin 8192, dcol (W1 (Proc.devRef .tc main_v0_0)) (ix2 r 0) = Spec.deg (W0 (Proc.devRef .tc main_arg0)) r :=
    fun r => (dcol_apply _ r).trans (congrArg Spec.dinv (h1s r))
  -- the first layer
  have hd6 : ∀ r : Fin 8192, Spec.arr S8192x1 (W6 W1 (Proc.devRef .tc main_v7)) (ix2 r 0) = Spec.deg (W0 (Proc.devRef .tc main_arg0)) r := fun r => by
    rw [W6_v7]; exact hd r
  have ha6 : ∀ r k : Fin 8192, Spec.arr S8192x8192 (W6 W1 (Proc.devRef .tc main_v0_1)) (ix2 r k)
      = Spec.arr S8192x8192 (W0 (Proc.devRef .tc main_arg0)) (ix2 r k) := fun r k => by
    rw [W6_v0_1]; exact h1a r k
  have hh6 : ∀ (k : Fin 8192) (f : Fin 64), Spec.arr S8192x64 (W6 W1 (Proc.devRef .tc main_v11)) (ix2 k f)
      = Spec.feat (W0 (Proc.devRef .tc main_arg1)) (W0 (Proc.devRef .tc main_arg2)) k f * Spec.deg (W0 (Proc.devRef .tc main_arg0)) k := fun k f => by
    rw [W6_v11, a1, a2]
    exact (scaled_apply _ _ _ k f).trans (congrArg (fun t => Spec.feat _ _ k f * t) (hd k))
  have hx1 : W7 (Proc.devRef .tc main_v12)
      = Spec.layer (W0 (Proc.devRef .tc main_arg0)) (W0 (Proc.devRef .tc main_arg1)) (W0 (Proc.devRef .tc main_arg2)) :=
    layer_of _ _ _ _ _ _ _ hd6 ha6 hh6 h7
  -- the second layer
  have v7_7 : W7 (Proc.devRef .tc main_v7) = W6 W1 (Proc.devRef .tc main_v7) := h7k _ (by decide)
  have v01_7 : W7 (Proc.devRef .tc main_v0_1) = W6 W1 (Proc.devRef .tc main_v0_1) := h7k _ (by decide)
  have hd8 : ∀ r : Fin 8192, Spec.arr S8192x1 (W8 W7 (Proc.devRef .tc main_v7)) (ix2 r 0) = Spec.deg (W0 (Proc.devRef .tc main_arg0)) r := fun r => by
    rw [W8_v7, v7_7]; exact hd6 r
  have ha8 : ∀ r k : Fin 8192, Spec.arr S8192x8192 (W8 W7 (Proc.devRef .tc main_v0_1)) (ix2 r k)
      = Spec.arr S8192x8192 (W0 (Proc.devRef .tc main_arg0)) (ix2 r k) := fun r k => by
    rw [W8_v0_1, v01_7]; exact ha6 r k
  have hh8 : ∀ (k : Fin 8192) (f : Fin 64), Spec.arr S8192x64 (W8 W7 (Proc.devRef .tc main_v16)) (ix2 k f)
      = Spec.feat (Spec.layer (W0 (Proc.devRef .tc main_arg0)) (W0 (Proc.devRef .tc main_arg1)) (W0 (Proc.devRef .tc main_arg2)))
          (W0 (Proc.devRef .tc main_arg3)) k f * Spec.deg (W0 (Proc.devRef .tc main_arg0)) k := fun k f => by
    rw [W8_v16, a3, v7_7, hx1]
    exact (scaled_apply _ _ _ k f).trans (congrArg (fun t => Spec.feat _ _ k f * t) (hd6 k))
  have hx2 : W9 (Proc.devRef .tc main_v17)
      = Spec.layer (W0 (Proc.devRef .tc main_arg0))
          (Spec.layer (W0 (Proc.devRef .tc main_arg0)) (W0 (Proc.devRef .tc main_arg1)) (W0 (Proc.devRef .tc main_arg2)))
          (W0 (Proc.devRef .tc main_arg3)) :=
    layer_of _ _ _ _ _ _ _ hd8 ha8 hh8 h9
  -- the classifier
  funext i
  refine (logits_of _ _ _ _ (W10_v21 W9) i).trans ?_
  rw [hx2, a4, a5]
  rfl

end Cert.KernelIdeal.HostValue

end
-- ==== Proof.KI.Result.lean ====
/- The kernel program's result at the exact instance, as ONE function of the argument arrays.

   The run leaves the result array at the last boundary's contents: the host operations after the third region applied to
   what that region leaves. Region 0 leaves the row sums of the adjacency matrix and a copy of it; regions 1 and 2 each
   leave max (d r * sum_k A (r,k) * h (k,f)) 0 of the arrays they are entered with; every other buffer passes a region
   untouched. The host operations between them compute d, the scaled features and the classifier. Composed, that is the
   specification's two normalized graph-convolution layers followed by the linear head. -/
import proofs.«177097_j68143951118910_2_alg».proof.Proof.KI.Run
import proofs.«177097_j68143951118910_2_alg».proof.Proof.KI.R0.Value
import proofs.«177097_j68143951118910_2_alg».proof.Proof.KI.R1.Value
import proofs.«177097_j68143951118910_2_alg».proof.Proof.KI.R2.Value
import proofs.«177097_j68143951118910_2_alg».proof.Proof.HostValue
import proofs.«177097_j68143951118910_2_alg».proof.Proof.Spec

noncomputable section

namespace Cert.KernelIdeal.Hand

open Cert.KernelIdeal Cert.KernelIdeal.Gen
open Idealize.ShloMosaic Idealize.ShloMosaic.TcCoe Idealize.SL.Sem Idealize.ShloMosaic.ValueIdx Cert.Hand

variable (m : (ℓ : Loc nD τ sig) → Buf (Elt Ideal) ℓ) (ρ : Dev nD → PrngReg)

/-- The result array after the run is the specification of the argument arrays as launched. -/
theorem result_is_G (c : Dev nD) :
    Spec.arr S8192x10 (B10 (F := Ideal) m ρ c (Proc.devRef .tc main_v21))
      = Spec.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) :=
  Cert.KernelIdeal.HostValue.kernel_is_G (B0 m ρ c) (B1 m ρ c) (B7 m ρ c) (B9 m ρ c)
    (fun r => (congrFun (B1_arr m ρ c 1) _).trans (arrAt0_1 (VB0 m ρ) c r))
    (fun r j => (congrFun (B1_arr m ρ c 2) _).trans (arrAt0_2 (VB0 m ρ) c r j))
    (fun b h0 h1 => B1_keep m ρ c b h0 h1)
    (fun r f => (congrFun (B7_arr m ρ c 3) _).trans (arrAt1_3 (VB6 m ρ) c r f))
    (fun b h => B7_keep m ρ c b h)
    (fun r f => (congrFun (B9_arr m ρ c 3) _).trans (arrAt2_3 (VB8 m ρ) c r f))
    (fun b h => B9_keep m ρ c b h)

end Cert.KernelIdeal.Hand

end
-- ==== Proof.RefValue.lean ====
/-
  The reference program computes the specification.

  Operation by operation: the row sums (a sum from the zero word), the normalising factor (two selects around an
  inverse square root, read at a vector index), the feature product, and a layer
  relu (d r * ∑ k, A (r, k) * (d k * (X W) (k, f))), which is the specification's layer up to the order of one
  product; twice; then the classifier.
-/
import proofs.«177097_j68143951118910_2_alg».proof.Proof.Gen.ReferenceIdeal.Read
import proofs.«177097_j68143951118910_2_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx
open Cert.Hand

/-- The reference's row sums: the zero word plus the sum of the row. -/
theorem rowsum_eq (A : S8192x8192.Idx → EReal) (r : Fin 8192) :
    val_main_v0 (F := Ideal) A (ix1 r) = Spec.rowsum A r := by
  rw [val_main_v0_apply]
  show Ideal.ofBits .f32 0x00000000#32 + _ = _
  rw [Ideal.ofBits_zero_f32, zero_add]
  unfold Spec.rowsum
  exact Finset.sum_congr rfl fun k _ => congrArg A (funext fun a => Fin.ext (by
    match a with | ⟨0, _⟩ => rfl | ⟨1, _⟩ => rfl))

/-- The reference's normalising factor, a vector over the rows: the broadcast constants are the zero word and the
    word of one. -/
theorem deg_eq (A : S8192x8192.Idx → EReal) (r : Fin 8192) :
    val_main_v7 (F := Ideal) A (ix1 r) = Spec.deg A r := by
  rw [val_main_v7_apply, val_main_v2_apply, val_main_v6_apply, val_main_v5_apply, val_main_v4_apply, rowsum_eq]
  unfold Spec.deg Spec.dinv
  show Scalar.select (Ideal.cmp .ogt (Spec.rowsum A r) (Ideal.ofBits .f32 0x00000000#32))
      (Ideal.rsqrt (Scalar.select (Ideal.cmp .ogt (Spec.rowsum A r) (Ideal.ofBits .f32 0x00000000#32)) (Spec.rowsum A r)
        (Ideal.ofBits .f32 0x3F800000#32))) (Ideal.ofBits .f32 0x00000000#32) = _
  rw [Ideal.ofBits_zero_f32]

/-- A feature product of the reference: the contraction over the 64 features. -/
theorem feat_eq (X : S8192x64.Idx → EReal) (W : S64x64.Idx → EReal) (k : Fin 8192) (f : Fin 64) :
    val_main_v8 (F := Ideal) X W (ix2 k f) = Spec.feat X W k f := by
  rw [val_main_v8_apply]
  unfold Spec.feat
  refine Finset.sum_congr rfl fun j _ => congrArg₂ (· * ·) (congrArg X ?_) (congrArg W ?_)
  · exact funext fun a => Fin.ext (by match a with | ⟨0, _⟩ => rfl | ⟨1, _⟩ => rfl)
  · exact funext fun a => Fin.ext (by match a with | ⟨0, _⟩ => rfl | ⟨1, _⟩ => rfl)

/-- The reference's first layer is the specification's: the reference multiplies d k * (X W) (k, f), the
    specification (X W) (k, f) * d k. -/
theorem layer1_eq (A : S8192x8192.Idx → EReal) (X : S8192x64.Idx → EReal) (W : S64x64.Idx → EReal) :
    val_main_v16 (F := Ideal) A X W = Spec.layer A X W := by
  funext i
  obtain ⟨r, f, rfl⟩ : ∃ (r : Fin 8192) (f : Fin 64), i = ix2 r f := ⟨i 0, i 1, eq_ix2 i⟩
  rw [Spec.layer_apply, val_main_v16_apply, val_main_v15_apply, val_main_v14_apply, val_main_v9_apply, val_main_v13_apply]
  have e1 : idx_main_v9 (idx_main_v14 (ix2 r f)) = ix1 r := funext fun a => Fin.ext (by match a with | ⟨0, _⟩ => rfl)
  rw [e1, deg_eq]
  unfold Spec.layerAt
  show max (Spec.deg A r * ∑ k : Fin 8192, _) (Ideal.ofBits .f32 0x00000000#32) = _
  rw [Ideal.ofBits_zero_f32]
  refine congrArg (fun t => max (Spec.deg A r * t) 0) (Finset.sum_congr rfl fun k _ => ?_)
  have e2 : lidx_main_v13 (ix2 r f) k = ix2 r k :=
    funext fun a => Fin.ext (by match a with | ⟨0, _⟩ => rfl | ⟨1, _⟩ => rfl)
  have e3 : ridx_main_v13 (ix2 r f) k = ix2 k f :=
    funext fun a => Fin.ext (by match a with | ⟨0, _⟩ => rfl | ⟨1, _⟩ => rfl)
  have e4 : idx_main_v10 (idx_main_v11 (ix2 k f)) = ix1 k := funext fun a => Fin.ext (by match a with | ⟨0, _⟩ => rfl)
  rw [e2, e3, val_main_v12_apply, val_main_v11_apply, val_main_v10_apply, feat_eq, e4, deg_eq]
  show A (ix2 r k) * (Spec.deg A k * Spec.feat X W k f) = _
  rw [mul_comm (Spec.deg A k)]

/-- The second layer's feature product, of the first layer's result. -/
theorem feat2_eq (A : S8192x8192.Idx → EReal) (X : S8192x64.Idx → EReal) (W1 W2 : S64x64.Idx → EReal) (k : Fin 8192) (f : Fin 64) :
    val_main_v17 (F := Ideal) A X W1 W2 (ix2 k f) = Spec.feat (Spec.layer A X W1) W2 k f := by
  rw [val_main_v17_apply, layer1_eq]
  unfold Spec.feat
  refine Finset.sum_congr rfl fun j _ => congrArg₂ (· * ·) (congrArg (Spec.layer A X W1) ?_) (congrArg W2 ?_)
  · exact funext fun a => Fin.ext (by match a with | ⟨0, _⟩ => rfl | ⟨1, _⟩ => rfl)
  · exact funext fun a => Fin.ext (by match a with | ⟨0, _⟩ => rfl | ⟨1, _⟩ => rfl)

/-- The reference's second layer is the specification's layer of the first. -/
theorem layer2_eq (A : S8192x8192.Idx → EReal) (X : S8192x64.Idx → EReal) (W1 W2 : S64x64.Idx → EReal) :
    val_main_v25 (F := Ideal) A X W1 W2 = Spec.layer A (Spec.layer A X W1) W2 := by
  funext i
  obtain ⟨r, f, rfl⟩ : ∃ (r : Fin 8192) (f : Fin 64), i = ix2 r f := ⟨i 0, i 1, eq_ix2 i⟩
  rw [Spec.layer_apply, val_main_v25_apply, val_main_v24_apply, val_main_v23_apply, val_main_v18_apply, val_main_v22_apply]
  have e1 : idx_main_v18 (idx_main_v23 (ix2 r f)) = ix1 r := funext fun a => Fin.ext (by match a with | ⟨0, _⟩ => rfl)
  rw [e1, deg_eq]
  unfold Spec.layerAt
  show max (Spec.deg A r * ∑ k : Fin 8192, _) (Ideal.ofBits .f32 0x00000000#32) = _
  rw [Ideal.ofBits_zero_f32]
  refine congrArg (fun t => max (Spec.deg A r * t) 0) (Finset.sum_congr rfl fun k _ => ?_)
  have e2 : lidx_main_v22 (ix2 r f) k = ix2 r k :=
    funext fun a => Fin.ext (by match a with | ⟨0, _⟩ => rfl | ⟨1, _⟩ => rfl)
  have e3 : ridx_main_v22 (ix2 r f) k = ix2 k f :=
    funext fun a => Fin.ext (by match a with | ⟨0, _⟩ => rfl | ⟨1, _⟩ => rfl)
  have e4 : idx_main_v19 (idx_main_v20 (ix2 k f)) = ix1 k := funext fun a => Fin.ext (by match a with | ⟨0, _⟩ => rfl)
  rw [e2, e3, val_main_v21_apply, val_main_v20_apply, val_main_v19_apply, feat2_eq, e4, deg_eq]
  show A (ix2 r k) * (Spec.deg A k * Spec.feat (Spec.layer A X W1) W2 k f) = _
  rw [mul_comm (Spec.deg A k)]

/-- THE REFERENCE'S RESULT IS THE SPECIFICATION, as a function of the six argument arrays. -/
theorem out_eq (A : S8192x8192.Idx → EReal) (X : S8192x64.Idx → EReal) (W1 W2 : S64x64.Idx → EReal)
    (Wc : S64x10.Idx → EReal) (bc : S10.Idx → EReal) :
    val_main_v29 (F := Ideal) A X W1 W2 Wc bc = Spec.G A X W1 W2 Wc bc := by
  funext i
  obtain ⟨r, q, rfl⟩ : ∃ (r : Fin 8192) (q : Fin 10), i = ix2 r q := ⟨i 0, i 1, eq_ix2 i⟩
  rw [Spec.G_apply, val_main_v29_apply, val_main_v26_apply, val_main_v28_apply, val_main_v27_apply, layer2_eq]
  unfold Spec.logitsAt
  show (∑ k : Fin 64, _) + bc _ = _
  refine congrArg₂ (· + ·) (Finset.sum_congr rfl fun k _ => congrArg₂ (· * ·) (congrArg _ ?_) (congrArg Wc ?_)) (congrArg bc ?_)
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

/-- The reference run's result term is the specification of the launch contents of its six arguments. -/
theorem ref_is_G (m : (ℓ : Loc nD τ sig) → Buf (Elt Ideal) ℓ) (c : Dev nD) :
    Cert.ReferenceIdeal.Value.res_main_v29 m c
      = Spec.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  rw [val_main_v29_eq]
  exact out_eq _ _ _ _ _ _

end Cert.ReferenceIdeal.RefValue

end
-- ==== Proof.lean ====
/- The proof of `Cert.Claim`: a three-kernel graph-convolution forward pass against its plain reference.

   The kernel program sums the rows of the adjacency matrix A tile by tile (and keeps a copy of A), forms
   d = rsqrt of the positive row sums (0 elsewhere) on the host, and twice runs a tiled kernel computing
   max (d r * sum_k A (r,k) * h (k,f)) 0 with h = (x W) * d, accumulating the product over four column tiles in a
   buffer it carries between grid points; a linear head follows. The reference does the same with whole-array sums
   and products and d * (x W). On the extended reals sums may be regrouped and products commuted freely, so both are one
   function of the arguments (Spec.lean's G); no finiteness is used.

   Frames. The kernel program's run is assembled over its ten items (three kernel regions, seven stretches
   of host operations): each region's proof data and body obligation (KI/R0, KI/R1, KI/R2; K/… for the word-level
   program, the same text), the buffers' contents folded through the items (KI/Run.lean), and one run whose post names
   every buffer; the frame claims and the result's value are read off it. The reference's frame is its generated run. -/
import proofs.«177097_j68143951118910_2_alg».proof.Defs
import proofs.«177097_j68143951118910_2_alg».proof.Proof.Gen.Kernel
import proofs.«177097_j68143951118910_2_alg».proof.Proof.Gen.KernelIdeal
import proofs.«177097_j68143951118910_2_alg».proof.Proof.Gen.ReferenceIdeal
import proofs.«177097_j68143951118910_2_alg».proof.Proof.Gen.ReferenceIdeal.Run
import proofs.«177097_j68143951118910_2_alg».proof.Proof.Gen.ReferenceIdeal.Read
import proofs.«177097_j68143951118910_2_alg».proof.Proof.Gen.Pre_finite_inputs
import proofs.«177097_j68143951118910_2_alg».proof.Proof.K.Run
import proofs.«177097_j68143951118910_2_alg».proof.Proof.KI.Run
import proofs.«177097_j68143951118910_2_alg».proof.Proof.KI.Result
import proofs.«177097_j68143951118910_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the specification of the (agreeing) argument arrays in their result. -/
theorem algebraic : Cert.algebraic_KernelIdeal_ReferenceIdeal := by
  intro m ρ m' ρ' _ hagree
  refine ⟨fun c => Cert.KernelIdeal.Hand.B10 (F := Ideal) m ρ c (Proc.devRef .tc Cert.KernelIdeal.main_v21),
    Cert.KernelIdeal.Hand.run_result m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefValue.ref_is_G m' c).trans ?_
  rw [(hagree c).1, (hagree c).2.1, (hagree c).2.2.1, (hagree c).2.2.2.1, (hagree c).2.2.2.2.1, (hagree c).2.2.2.2.2]
  exact (Cert.KernelIdeal.Hand.result_is_G m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
